-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) (main_arg2 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S8192x1 : Shape := ⟨2, ![8192, 1]⟩
abbrev S1x8192 : Shape := ⟨2, ![1, 8192]⟩
abbrev S_ : Shape := ⟨0, ![]⟩
abbrev S2048x256 : Shape := ⟨2, ![2048, 256]⟩
abbrev S512x256 : Shape := ⟨2, ![512, 256]⟩
abbrev S2048x1 : Shape := ⟨2, ![2048, 1]⟩
abbrev S1x512 : Shape := ⟨2, ![1, 512]⟩
abbrev S256x512 : Shape := ⟨2, ![256, 512]⟩
abbrev S2048x512 : Shape := ⟨2, ![2048, 512]⟩
abbrev S2048 : Shape := ⟨1, ![2048]⟩

abbrev nBuf : Space → Nat
  | .hbm => 29
  | .vmem => 22
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192, .i32⟩
  | .hbm, ⟨3, _⟩ => ⟨S8192x1, .i32⟩
  | .hbm, ⟨4, _⟩ => ⟨S8192x1, .i32⟩
  | .hbm, ⟨5, _⟩ => ⟨S1x8192, .i32⟩
  | .hbm, ⟨6, _⟩ => ⟨S1x8192, .i32⟩
  | .hbm, ⟨7, _⟩ => ⟨S8192x256, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S1x8192, .f32⟩
  | .hbm, ⟨12, _⟩ => ⟨S8192x256, .bf16⟩
  | .hbm, ⟨13, _⟩ => ⟨S8192x1, .f32⟩
  | .hbm, ⟨14, _⟩ => ⟨S8192x1, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S2048x256, .bf16⟩
  | .local _ .vmem, ⟨1, _⟩ => ⟨S2048x256, .bf16⟩
  | .local _ .vmem, ⟨2, _⟩ => ⟨S512x256, .bf16⟩
  | .local _ .vmem, ⟨3, _⟩ => ⟨S512x256, .bf16⟩
  | .local _ .vmem, ⟨4, _⟩ => ⟨S2048x1, .f32⟩
  | .local _ .vmem, ⟨5, _⟩ => ⟨S2048x1, .f32⟩
  | .local _ .vmem, ⟨6, _⟩ => ⟨S1x512, .f32⟩
  | .local _ .vmem, ⟨7, _⟩ => ⟨S1x512, .f32⟩
  | .local _ .vmem, ⟨8, _⟩ => ⟨S2048x1, .i32⟩
  | .local _ .vmem, ⟨9, _⟩ => ⟨S2048x1, .i32⟩
  | .local _ .vmem, ⟨10, _⟩ => ⟨S1x512, .i32⟩
  | .local _ .vmem, ⟨11, _⟩ => ⟨S1x512, .i32⟩
  | .local _ .vmem, ⟨12, _⟩ => ⟨S2048x1, .i32⟩
  | .local _ .vmem, ⟨13, _⟩ => ⟨S2048x1, .i32⟩
  | .local _ .vmem, ⟨14, _⟩ => ⟨S1x512, .i32⟩
  | .local _ .vmem, ⟨15, _⟩ => ⟨S1x512, .i32⟩
  | .local _ .vmem, ⟨16, _⟩ => ⟨S2048x1, .f32⟩
  | .local _ .vmem, ⟨17, _⟩ => ⟨S2048x1, .f32⟩
  | .local _ .vmem, ⟨18, _⟩ => ⟨S2048x1, .f32⟩
  | .local _ .vmem, ⟨19, _⟩ => ⟨S2048x1, .f32⟩
  | .local _ .vmem, ⟨20, _⟩ => ⟨S2048x1, .f32⟩
  | .local _ .vmem, ⟨21, _⟩ => ⟨S2048x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v53 : BitVec 1 := Scalar.cmpi .eq arg1 c15_i32
  let v54 : BitVec 32 := Scalar.extui v53
  let c0_i32_30 : BitVec 32 := 0#32
  let v55 : BitVec 1 := Scalar.cmpi .ne v54 c0_i32_30
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  shapeCasts_S8192_S8192x1 : S8192.ShapeCasts S8192x1
  shapeCasts_S8192x1_S1x8192 : S8192x1.ShapeCasts S1x8192
  reducesTo_S8192x256_S8192_d1 : S8192x256.ReducesTo [1] S8192
  h_S_ : 0 < S_.numel
  bcast_S8192_S8192x1_0 : S8192.BroadcastsInDim S8192x1 (![0] : Fin 1 → Fin S8192x1.rank)
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2048x1_S2048x512 : S2048x1.Broadcasts S2048x512
  broadcasts_S1x512_S2048x512 : S1x512.Broadcasts S2048x512
  reduces_S2048x512_S2048 : S2048x512.Reduces [1] S2048
  shapeCasts_S2048_S2048x1 : S2048.ShapeCasts S2048x1
  shapeCasts_S8192x1_S8192 : S8192x1.ShapeCasts S8192
  bcast_S_S8192 : S_.BroadcastsInDim S8192 (![] : Fin 0 → Fin S8192.rank)
  reducesTo_S8192_S_d0 : S8192.ReducesTo [0] S_
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .bf16 = 32 ∨ (Rect.block (s := S8192x256) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .bf16 = 32 ∨ (Rect.block (s := S8192x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S8192x1.size a
  hwx0_4 : ∀ i : grid0.Coords, EltTy.bits .i32 = 32 ∨ (Rect.block (s := S8192x1) S2048x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .i32 = 32 ∨ (Rect.block (s := S1x8192) S1x512.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1.size a ≤ S8192x1.size a
  hwx0_6 : ∀ i : grid0.Coords, EltTy.bits .i32 = 32 ∨ (Rect.block (s := S8192x1) S2048x1.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x8192.size a
  hwx0_7 : ∀ i : grid0.Coords, EltTy.bits .i32 = 32 ∨ (Rect.block (s := S1x8192) S1x512.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x1.size a ≤ S8192x1.size a
  hwx0_8 : ∀ i : grid0.Coords, EltTy.bits .f32 = 32 ∨ (Rect.block (s := S8192x1) S2048x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x1.size a ≤ S8192x1.size a
  hwx0_9 : ∀ i : grid0.Coords, EltTy.bits .f32 = 32 ∨ (Rect.block (s := S8192x1) S2048x1.size (cc0_transform_9 i) (hinb0_9 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_v8) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2048x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S2048x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_0) S2048x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_1) S2048x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | ⟨_ + 10, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 68
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192, .i32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S256x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x1, .i32⟩
  | .hbm, ⟨23, _⟩ => ⟨S1x8192, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S8192x1, .i32⟩
  | .hbm, ⟨28, _⟩ => ⟨S1x8192, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S8192x8192, .i1⟩
  | .hbm, ⟨33, _⟩ => ⟨S8192x8192, .i1⟩
  | .hbm, ⟨34, _⟩ => ⟨S8192x8192, .i1⟩
  | .hbm, ⟨35, _⟩ => ⟨S_, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S_, .i1⟩
  | .hbm, ⟨42, _⟩ => ⟨S8192, .i1⟩
  | .hbm, ⟨43, _⟩ => ⟨S_, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S8192, .f32⟩
  | .hbm, ⟨53, _⟩ => ⟨S_, .i1⟩
  | .hbm, ⟨54, _⟩ => ⟨S8192, .i1⟩
  | .hbm, ⟨55, _⟩ => ⟨S8192, .f32⟩
  | .hbm, ⟨56, _⟩ => ⟨S8192, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_call1_v0 : Ref sig .tc := ⟨.hbm, 36, rfl⟩
abbrev main_call1_v1 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_c : Ref sig .tc := ⟨.hbm, 41, rfl⟩
abbrev main_v29 : Ref sig .tc := ⟨.hbm, 42, rfl⟩
abbrev main_cst_4 : Ref sig .tc := ⟨.hbm, 43, rfl⟩
abbrev main_call2_v0 : Ref sig .tc := ⟨.hbm, 44, rfl⟩
abbrev main_call2_v1 : Ref sig .tc := ⟨.hbm, 45, rfl⟩
abbrev main_v30 : Ref sig .tc := ⟨.hbm, 46, rfl⟩
abbrev main_cst_5 : Ref sig .tc := ⟨.hbm, 47, rfl⟩
abbrev main_call3_v0 : Ref sig .tc := ⟨.hbm, 48, rfl⟩
abbrev main_call3_v1 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_cst_10 : Ref sig .tc := ⟨.hbm, 64, rfl⟩
abbrev main_v41 : Ref sig .tc := ⟨.hbm, 65, rfl⟩
abbrev main_cst_11 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.K.Cases.lean ====
/-
  (The program as printed, read at the word level: the same account as for its idealization, which differs from it in
  no operation.)
  Where in the sweep a grid point stands.  The grid is 4 row blocks by 16 column blocks, the column block running
  fastest; the body resets its two running maxima when the column block is the first of a row block's sweep and
  finishes the row block (clip, square root, the two selections) when it is the last.  Both conditions are scalar chains
  over the second grid coordinate; here they are in closed form over the 64 points.
-/
import proofs.«167525_j15710990369518_2_alg».proof.Proof.Gen.Kernel.Launch
import proofs.«167525_j15710990369518_2_alg».proof.Proof.Gen.Kernel.Skeleton
import proofs.«167525_j15710990369518_2_alg».proof.Proof.Gen.Kernel.Points
import Idealize.ShloMosaic.Lib.Pipeline.FrameBody
import Idealize.ShloMosaic.Lib.Tactic

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The column block is the first of the sweep (`j == 0`): the running maxima are reset. -/
abbrev atFirst (i : grid0.Coords) : Prop :=
  (Scalar.cmpi .ne (Scalar.extui (Scalar.cmpi .eq (BitVec.ofNat 32 (i 1).val) 0#32)) 0#32) = 1#1
/-- That is, the point's number is a multiple of 16. -/
theorem atFirst_iff : ∀ t : Fin cfg0.N, atFirst (grid0.coords t) ↔ t.val % 16 = 0 :=
  (by decide +kernel : ∀ t : Fin grid0.N, atFirst (grid0.coords t) ↔ t.val % 16 = 0)

/-- The column block is the last of the sweep (`j == 15`): the row block is finished. -/
abbrev atLast (i : grid0.Coords) : Prop := k0_cond2 i = 1#1
/-- That is, the point's number is 15 modulo 16. -/
theorem atLast_iff : ∀ t : Fin cfg0.N, atLast (grid0.coords t) ↔ t.val % 16 = 15 :=
  (by decide +kernel : ∀ t : Fin grid0.N, atLast (grid0.coords t) ↔ t.val % 16 = 15)

end Cert.Kernel.Body

end
-- ==== Proof.K.RunFirst.lean ====
/-
  (The program as printed, read at the word level: the same account as for its idealization, which differs from it in
  no operation.)
  The body at the first column block of a sweep: the two running maxima are reset to the sentinel before anything is
  read of them, so what they held on entry does not matter; then the point goes on as in the middle of a sweep.
-/
import proofs.«167525_j15710990369518_2_alg».proof.Proof.K.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first column block: with the inputs' buffers at their blocks, the results' at whatever they held, and the two
    running maxima at anything, the body runs to the inputs and results as they were and the two maxima written; the
    stores into each, in order (last first), are found by running it. -/
noncomputable def runFirst (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : atFirst i) (hL : ¬atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) :
    Σ' (LS0 : List (View.Piece (Elt F) S2048x1 .f32)), { LS1 : List (View.Piece (Elt F) S2048x1 .f32) //
      ∀ (xo0 xo1 : Vec F S2048x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xo0 ∗ owns (c : Thread nD τ) arg11 fullShare xo1
            ∗ (∃ d, owns (c : Thread nD τ) arg12 fullShare d) ∗ (∃ d, owns (c : Thread nD τ) arg13 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xo0 ∗ owns (c : Thread nD τ) arg11 fullShare xo1
                ∗ (∃ f, arg12.view.loc (c : Thread nD τ) ↦[arg12.view.set]{fullShare} arg12.view.writes (Elt F) f LS0)
                ∗ (∃ f, arg13.view.loc (c : Thread nD τ) ↦[arg13.view.set]{fullShare} arg13.view.writes (Elt F) f LS1)) -∗ K ⟨⟩))
          ⊢ wp frame (wpE (defs₀ (F := F)) Variants.none c none) E (cc0__pairwise_hardmine_kernel i arg2 harg2 arg3 harg3 arg4 harg4 arg5 harg5 arg6 harg6 arg7 harg7 arg8 harg8 arg9 harg9 arg10 harg10 arg11 harg11 arg12 harg12 arg13 harg13) K } := by
  refine ⟨?_, ?_, fun xo0 xo1 E K => ?run⟩
  case run =>
    simp only [cc0__pairwise_hardmine_kernel_eq_skeleton]; unfold cc0__pairwise_hardmine_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    obtain rfl := harg10.eq_unread hf10; obtain rfl := harg11.eq_unread hf11
    sl_exec (disch := first | exact hF | exact hL)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexists _; iexact H12
    iexists _; iexact H13

end Cert.Kernel.Body

end
-- ==== Proof.K.RunMid.lean ====
/-
  (The program as printed, read at the word level: the same account as for its idealization, which differs from it in
  no operation.)
  The body at a point in the middle of a sweep (neither the first nor the last column block): it reads the eight input
  blocks and the two running maxima, and stores the two maxima anew; the two result blocks are not touched.
-/
import proofs.«167525_j15710990369518_2_alg».proof.Proof.K.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- In the middle of a sweep: with the inputs' buffers at their blocks, the results' at whatever they held, and the two
    running maxima at what the point before left, the body runs to the inputs and results as they were and the two
    maxima rewritten; what it wrote into each, as stores in order (last first), is found by running it. -/
noncomputable def runMid (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : ¬atFirst i) (hL : ¬atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) (xs0 xs1 : Vec F S2048x1 .f32) :
    Σ' (LS0 : List (View.Piece (Elt F) S2048x1 .f32)), { LS1 : List (View.Piece (Elt F) S2048x1 .f32) //
      ∀ (xo0 xo1 : Vec F S2048x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xo0 ∗ owns (c : Thread nD τ) arg11 fullShare xo1
            ∗ owns (c : Thread nD τ) arg12 fullShare xs0 ∗ owns (c : Thread nD τ) arg13 fullShare xs1
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xo0 ∗ owns (c : Thread nD τ) arg11 fullShare xo1
                ∗ (∃ f, arg12.view.loc (c : Thread nD τ) ↦[arg12.view.set]{fullShare} arg12.view.writes (Elt F) f LS0)
                ∗ (∃ f, arg13.view.loc (c : Thread nD τ) ↦[arg13.view.set]{fullShare} arg13.view.writes (Elt F) f LS1)) -∗ K ⟨⟩))
          ⊢ wp frame (wpE (defs₀ (F := F)) Variants.none c none) E (cc0__pairwise_hardmine_kernel i arg2 harg2 arg3 harg3 arg4 harg4 arg5 harg5 arg6 harg6 arg7 harg7 arg8 harg8 arg9 harg9 arg10 harg10 arg11 harg11 arg12 harg12 arg13 harg13) K } := by
  refine ⟨?_, ?_, fun xo0 xo1 E K => ?run⟩
  case run =>
    simp only [cc0__pairwise_hardmine_kernel_eq_skeleton]; unfold cc0__pairwise_hardmine_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    obtain rfl := harg10.eq_unread hf10; obtain rfl := harg11.eq_unread hf11; obtain rfl := harg12.eq_unread hf12; obtain rfl := harg13.eq_unread hf13
    sl_exec (disch := first | exact hF | exact hL)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexists _; iexact H12
    iexists _; iexact H13

end Cert.Kernel.Body

end
-- ==== Proof.K.RunLast.lean ====
/-
  (The program as printed, read at the word level: the same account as for its idealization, which differs from it in
  no operation.)
  The body at the last column block of a sweep: after the two running maxima are brought up to date, the row block is
  finished — each maximum is clipped from below, its square root taken, and the two results selected and stored whole
  into the two result blocks, whatever those held.
-/
import proofs.«167525_j15710990369518_2_alg».proof.Proof.K.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the last column block: with the inputs' buffers at their blocks, the results' at anything, and the two running
    maxima at what the point before left, the body runs to the inputs as they were and the results and the maxima
    written; the stores into each, in order (last first), are found by running it. -/
noncomputable def runLast (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : ¬atFirst i) (hL : atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) (xs0 xs1 : Vec F S2048x1 .f32) :
    Σ' (LO0 : List (View.Piece (Elt F) S2048x1 .f32)) (LO1 : List (View.Piece (Elt F) S2048x1 .f32))
       (LS0 : List (View.Piece (Elt F) S2048x1 .f32)), { LS1 : List (View.Piece (Elt F) S2048x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d)
            ∗ owns (c : Thread nD τ) arg12 fullShare xs0 ∗ owns (c : Thread nD τ) arg13 fullShare xs1
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f LO0) ∗ (∃ f, arg11.view.loc (c : Thread nD τ) ↦[arg11.view.set]{fullShare} arg11.view.writes (Elt F) f LO1)
                ∗ (∃ f, arg12.view.loc (c : Thread nD τ) ↦[arg12.view.set]{fullShare} arg12.view.writes (Elt F) f LS0)
                ∗ (∃ f, arg13.view.loc (c : Thread nD τ) ↦[arg13.view.set]{fullShare} arg13.view.writes (Elt F) f LS1)) -∗ K ⟨⟩))
          ⊢ wp frame (wpE (defs₀ (F := F)) Variants.none c none) E (cc0__pairwise_hardmine_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0__pairwise_hardmine_kernel_eq_skeleton]; unfold cc0__pairwise_hardmine_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    obtain rfl := harg12.eq_unread hf12; obtain rfl := harg13.eq_unread hf13
    sl_exec (disch := first | exact hF | exact hL)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    iexists _; iexact H13

end Cert.Kernel.Body

end
-- ==== Proof.K.Shared.lean ====
/-
  (The program as printed, read at the word level: the same account as for its idealization, which differs from it in
  no operation.)
  The array the kernel is handed twice.  The pallas_call receives q (cast to bf16) both as the row-block operand
  (window 0, blocks of 2048 rows) and as the column-block operand (window 1, blocks of 512 rows).  Both windows only
  read it, so the one buffer behind them is held half by each: the buffers behind the ten windows' arrays, each whole at
  the full share, are the windows' arrays with that buffer's points-to cut in its left and right halves, and back.
-/
import proofs.«167525_j15710990369518_2_alg».proof.Proof.Gen.Kernel.Launch
import Idealize.ShloMosaic.Lib.Pipeline.Regions

noncomputable section

namespace Cert.Kernel.Shared

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shares the two readers of the common array hold it at, and the full share for every other input. -/
def qOf : Fin cfg0.W → PosShare TreeShare := fun
  | ⟨0, _⟩ => fullShare.left
  | ⟨1, _⟩ => fullShare.right
  | _ => fullShare

/-- The nine distinct buffers behind the ten windows' arrays. -/
theorem arrRefs_list : Finset.univ.image (Pipeline.arrRef spec0)
    = [main_v8, main_v6, main_v7, main_v0, main_v2, main_v1, main_v3, main_v9_0, main_v9_1].toFinset := by decide

variable (c : Dev nD) (dat : Dat τ (Elt F) Unit ℕ (UR sig nD τ) ℕ cfg0 c)

/-- A whole buffer at the full share, beside anything, is its left half, then its right half, then that thing: the
    share's two halves compose to the whole. -/
theorem halves (b : Ref sig .tc) (f : Buf (Elt F) ((c : Thread nD τ).loc b)) (P : sProp 𝕄) :
    BI.sep (((c : Thread nD τ).loc b) ↦{fullShare} f : sProp 𝕄) P
      = BI.sep (((c : Thread nD τ).loc b) ↦{fullShare.left} f) (BI.sep (((c : Thread nD τ).loc b) ↦{fullShare.right} f) P) :=
  Entails.antisymm
    ((sep_mono (pointsTo_share (PosShare.mem_left_op_right fullShare)).1 .rfl).trans Idealize.SL.BI.sep_assoc)
    (Idealize.SL.BI.sep_assoc'.trans (sep_mono (pointsTo_share (PosShare.mem_left_op_right fullShare)).2 .rfl))

set_option maxHeartbeats 2000000 in
/-- The buffers behind the arrays, each whole at the full share at the contents `V`, are the windows' arrays at those
    contents, the common buffer cut in halves between windows 0 and 1 — and back (an equation). -/
theorem arrays_eq (hq : dat.q = qOf)
    (V : (b : Ref sig .tc) → Buf (Elt F) ((c : Thread nD τ).loc b))
    (A : (w : Fin cfg0.W) → Buf (Elt F) ((cfg0.win w).arr.view.loc (c : Thread nD τ)))
    (hA : ∀ w, A w = V (Pipeline.arrRef spec0 w)) :
    (Pipeline.arrBufs spec0 c V : sProp 𝕄) = dat.arrays A := by
  unfold Pipeline.arrBufs Dat.arrays
  rw [bigSep_eq_bigSepL_of_eq _ arrRefs_list (by decide), bigSep_W0]
  simp only [bigSepL_cons_cons, bigSepL_singleton, Dat.share, hq, qOf, View.set_whole, Bool.false_eq_true, if_false, if_true, ite_self]
  rw [hA 0, hA 1, hA 2, hA 3, hA 4, hA 5, hA 6, hA 7, hA 8, hA 9]
  rw [halves c main_v8 (V main_v8)]
  rfl

end Cert.Kernel.Shared

end
-- ==== Proof.K.Data.lean ====
/-
  (The program as printed, read at the word level: the same account as for its idealization, which differs from it in
  no operation.)
  What the kernel holds after each grid point.  The two running maxima live in two scratch buffers that persist over a
  row block's sweep of the sixteen column blocks: reset at the first, brought up to date at every one, and at the last
  turned into the row block's two results.  So the contents after a point are defined by recursion on the point, through
  what the body stores in the case the point is in; the results' buffers hold something definite only after a last point.
  The proof data of the pallas_call follows: every input window's buffer at its block of the array as the call finds it,
  the results and the maxima as just said, the array read by two windows held half by each.
-/
import proofs.«167525_j15710990369518_2_alg».proof.Proof.K.RunFirst
import proofs.«167525_j15710990369518_2_alg».proof.Proof.K.RunMid
import proofs.«167525_j15710990369518_2_alg».proof.Proof.K.RunLast
import proofs.«167525_j15710990369518_2_alg».proof.Proof.K.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the call finds them -/

/-- Core `c`'s buffers when the call is entered: the ten host operations before it have run. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The memrefs the body is called with -/

abbrev ms0 (t : Fin cfg0.N) : Memref sig .tc .vmem S2048x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2048x1 .i32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x512 .i32 := win0_7.stage (cfg0.slots t 7)
abbrev hs7 (t : Fin cfg0.N) : (ms7 t).IsWhole := hstage0_7 ((cfg0.slots t 7).cast nbuf0_7)
abbrev ms8 (t : Fin cfg0.N) : Memref sig .tc .vmem S2048x1 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S2048x1 .f32 := win0_9.stage (cfg0.slots t 9)
abbrev hs9 (t : Fin cfg0.N) : (ms9 t).IsWhole := hstage0_9 ((cfg0.slots t 9).cast nbuf0_9)
/-- The two scratch operands (the running maxima), whole buffers of the kernel's own. -/
abbrev scM0 : Memref sig .tc .vmem S2048x1 .f32 := Memref.whole cc0_scratch0
abbrev scM1 : Memref sig .tc .vmem S2048x1 .f32 := Memref.whole cc0_scratch1
/-- Views through which a buffer's contents are stated from the stores into it (any whole view of the shape serves). -/
abbrev VR : View sig .tc .vmem S2048x1 .f32 := scM0.view

/-- What a list of stores covering a buffer leaves in it. -/
abbrev left (L : List (View.Piece (Elt F) S2048x1 .f32)) : Vec F S2048x1 .f32 := VR.read (Elt F) (VR.writes (Elt F) VR.junk L)
/-- Contents nothing depends on (a result's buffer away from the last column block). -/
abbrev idleOut : Vec F S2048x1 .f32 := VR.read (Elt F) VR.junk

/-! ## One point's step, case by case: (first result, second result, first maximum, second maximum) -/

abbrev Quad (F : FTy → Type) [FloatOps F] := Vec F S2048x1 .f32 × Vec F S2048x1 .f32 × Vec F S2048x1 .f32 × Vec F S2048x1 .f32

def stepFirst (c : Dev nD) (t : Fin cfg0.N) (hF : atFirst (grid0.coords t)) (hL : ¬atLast (grid0.coords t)) : Quad F :=
  (idleOut, idleOut,
   left (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) hF hL (iblk m c 0 t) (iblk m c 1 t) (iblk m c 2 t) (iblk m c 3 t) (iblk m c 4 t) (iblk m c 5 t) (iblk m c 6 t) (iblk m c 7 t)).1,
   left (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) hF hL (iblk m c 0 t) (iblk m c 1 t) (iblk m c 2 t) (iblk m c 3 t) (iblk m c 4 t) (iblk m c 5 t) (iblk m c 6 t) (iblk m c 7 t)).2.1)

def stepMid (c : Dev nD) (t : Fin cfg0.N) (hF : ¬atFirst (grid0.coords t)) (hL : ¬atLast (grid0.coords t)) (s0 s1 : Vec F S2048x1 .f32) : Quad F :=
  (idleOut, idleOut,
   left (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) hF hL (iblk m c 0 t) (iblk m c 1 t) (iblk m c 2 t) (iblk m c 3 t) (iblk m c 4 t) (iblk m c 5 t) (iblk m c 6 t) (iblk m c 7 t) s0 s1).1,
   left (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) hF hL (iblk m c 0 t) (iblk m c 1 t) (iblk m c 2 t) (iblk m c 3 t) (iblk m c 4 t) (iblk m c 5 t) (iblk m c 6 t) (iblk m c 7 t) s0 s1).2.1)

def stepLast (c : Dev nD) (t : Fin cfg0.N) (hF : ¬atFirst (grid0.coords t)) (hL : atLast (grid0.coords t)) (s0 s1 : Vec F S2048x1 .f32) : Quad F :=
  (left (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) hF hL (iblk m c 0 t) (iblk m c 1 t) (iblk m c 2 t) (iblk m c 3 t) (iblk m c 4 t) (iblk m c 5 t) (iblk m c 6 t) (iblk m c 7 t) s0 s1).1,
   left (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) hF hL (iblk m c 0 t) (iblk m c 1 t) (iblk m c 2 t) (iblk m c 3 t) (iblk m c 4 t) (iblk m c 5 t) (iblk m c 6 t) (iblk m c 7 t) s0 s1).2.1,
   left (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) hF hL (iblk m c 0 t) (iblk m c 1 t) (iblk m c 2 t) (iblk m c 3 t) (iblk m c 4 t) (iblk m c 5 t) (iblk m c 6 t) (iblk m c 7 t) s0 s1).2.2.1,
   left (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) hF hL (iblk m c 0 t) (iblk m c 1 t) (iblk m c 2 t) (iblk m c 3 t) (iblk m c 4 t) (iblk m c 5 t) (iblk m c 6 t) (iblk m c 7 t) s0 s1).2.2.2.1)

/-! ## After each point -/

/-- THE SWEEP.  What the results' buffers and the two maxima hold after the body at point `n`: the first column block
    starts afresh, every other one continues from what the point before left. -/
def outsAt (c : Dev nD) : (n : ℕ) → n < cfg0.N → Quad F
  | 0, hn => stepFirst m c ⟨0, hn⟩ ((atFirst_iff ⟨0, hn⟩).mpr (Nat.zero_mod _)) (fun h => by have := (atLast_iff ⟨0, hn⟩).mp h; simp at this)
  | n + 1, hn =>
    if h0 : (n + 1) % 16 = 0 then
      stepFirst m c ⟨n + 1, hn⟩ ((atFirst_iff ⟨n + 1, hn⟩).mpr h0) (fun h => by have := (atLast_iff ⟨n + 1, hn⟩).mp h; (try dsimp only at this); omega)
    else if h1 : (n + 1) % 16 = 15 then
      stepLast m c ⟨n + 1, hn⟩ (fun h => h0 ((atFirst_iff ⟨n + 1, hn⟩).mp h)) ((atLast_iff ⟨n + 1, hn⟩).mpr h1)
        (outsAt c n (Nat.lt_of_succ_lt hn)).2.2.1 (outsAt c n (Nat.lt_of_succ_lt hn)).2.2.2
    else
      stepMid m c ⟨n + 1, hn⟩ (fun h => h0 ((atFirst_iff ⟨n + 1, hn⟩).mp h)) (fun h => h1 ((atLast_iff ⟨n + 1, hn⟩).mp h))
        (outsAt c n (Nat.lt_of_succ_lt hn)).2.2.1 (outsAt c n (Nat.lt_of_succ_lt hn)).2.2.2

/-- At a first column block. -/
theorem outsAt_first (c : Dev nD) (t : Fin cfg0.N) (h0 : t.val % 16 = 0) :
    outsAt m c t.val t.isLt = stepFirst m c t ((atFirst_iff t).mpr h0) (fun h => by have := (atLast_iff t).mp h; omega) := by
  obtain ⟨n, hn⟩ := t
  cases n with
  | zero => rfl
  | succ n => exact (dif_pos h0).trans rfl

/-- At a last column block: from what the point before left. -/
theorem outsAt_last (c : Dev nD) (t : Fin cfg0.N) (h0 : ¬t.val % 16 = 0) (h1 : t.val % 16 = 15) :
    outsAt m c t.val t.isLt = stepLast m c t (fun h => h0 ((atFirst_iff t).mp h)) ((atLast_iff t).mpr h1)
      (outsAt m c (t.val - 1) (Nat.lt_of_le_of_lt (Nat.sub_le _ _) t.isLt)).2.2.1
      (outsAt m c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-- In the middle of a sweep: from what the point before left. -/
theorem outsAt_mid (c : Dev nD) (t : Fin cfg0.N) (h0 : ¬t.val % 16 = 0) (h1 : ¬t.val % 16 = 15) :
    outsAt m c t.val t.isLt = stepMid m c t (fun h => h0 ((atFirst_iff t).mp h)) (fun h => h1 ((atLast_iff t).mp h))
      (outsAt m c (t.val - 1) (Nat.lt_of_le_of_lt (Nat.sub_le _ _) t.isLt)).2.2.1
      (outsAt m c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

/-! ## The invariant: the two maxima between points -/

/-- Before point `n`: at the call's entry the two scratch buffers hold anything; afterwards what the point before left. -/
def PhiS (c : Dev nD) : (n : ℕ) → n ≤ cfg0.N → sProp 𝕄
  | 0, _ => iprop((∃ d, owns (c : Thread nD τ) scM0 fullShare d) ∗ (∃ d, owns (c : Thread nD τ) scM1 fullShare d))
  | n + 1, hn => iprop(owns (c : Thread nD τ) scM0 fullShare (outsAt m c n hn).2.2.1 ∗ owns (c : Thread nD τ) scM1 fullShare (outsAt m c n hn).2.2.2)

theorem PhiS_zero (c : Dev nD) (n : ℕ) (h : n ≤ cfg0.N) (hz : n = 0) :
    PhiS m c n h = iprop((∃ d, owns (c : Thread nD τ) scM0 fullShare d) ∗ (∃ d, owns (c : Thread nD τ) scM1 fullShare d)) := by
  subst hz; rfl

theorem PhiS_succ (c : Dev nD) (n : ℕ) (hn : n < cfg0.N) :
    PhiS m c (n + 1) hn = iprop(owns (c : Thread nD τ) scM0 fullShare (outsAt m c n hn).2.2.1 ∗ owns (c : Thread nD τ) scM1 fullShare (outsAt m c n hn).2.2.2) := rfl

theorem PhiS_pos (c : Dev nD) (n : ℕ) (h : n ≤ cfg0.N) (hz : n ≠ 0) :
    PhiS m c n h = iprop(owns (c : Thread nD τ) scM0 fullShare (outsAt m c (n - 1) (by omega)).2.2.1 ∗ owns (c : Thread nD τ) scM1 fullShare (outsAt m c (n - 1) (by omega)).2.2.2) := by
  cases n with
  | zero => exact absurd rfl hz
  | succ n => rfl

/-! ## The proof data -/

/-- On core `c`: the arrays as the call finds them; after the body at a point every input window's buffer at its block,
    the results' and the maxima as the sweep says; the invariant the two maxima; the array read twice held half by each
    reader; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt m c t.val t.isLt).1
    | ⟨9, _⟩ => (outsAt m c t.val t.isLt).2.1
  Φ t := PhiS m c t.val (Nat.le_of_lt_succ t.isLt)
  q := Shared.qOf
  owed _ := 0

theorem A_eq (c : Dev nD) (w : Fin cfg0.W) : (dats m 0 c).A w = V m c (Pipeline.arrRef spec0 w) := by
  dsimp only [dats]

theorem q_eq (c : Dev nD) : (dats m 0 c).q = Shared.qOf := by dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (outsAt m c t.val t.isLt).1 := by dsimp only [dats]
theorem after9 (c : Dev nD) (t : Fin cfg0.N) : (dats m 0 c).after 9 t = (outsAt m c t.val t.isLt).2.1 := by dsimp only [dats]

/-! ## Every input window's buffer holds its block when the body runs, fetched at that point or not -/

theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl)
    (fun t => by rw [after7]; unfold Dat.blockOf iblk; rw [A_eq]; try rfl) t d).trans
    (by unfold Dat.fetched Dat.blockOf iblk; rw [A_eq]; try rfl)

end Cert.Kernel.Body

end
-- ==== Proof.K.Sound.lean ====
/-
  (The program as printed, read at the word level: the same account as for its idealization, which differs from it in
  no operation.)
  The body obligation.  At every grid point, from the two maxima as the invariant holds them and every window's buffer
  as the pipeline hands it over, the body runs to the invariant of the next point and every buffer as the proof data
  says: by the point's place in its sweep — first, last, or in between — it is one of the three runs.  The stores a run
  found into a buffer tile it, so what the buffer holds afterwards does not depend on what it held before.
-/
import proofs.«167525_j15710990369518_2_alg».proof.Proof.K.Data
import Idealize.ShloMosaic.Lib.Ring

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The found stores tile their buffers -/

/-- At a first column block the stores into the first maximum's buffer cover it. -/
theorem coverFirst0 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : atFirst i) (hL : ¬atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) (y : S2048x1.Idx) :
    ∃ pc ∈ (runFirst c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9).1, y ∈ pc.1.set :=
  View.cover_of_tiledL (runFirst c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9).1 S2048x1.size (by sl_kernel_rfl) y
/-- At a first column block the stores into the second maximum's buffer cover it. -/
theorem coverFirst1 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : atFirst i) (hL : ¬atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) (y : S2048x1.Idx) :
    ∃ pc ∈ (runFirst c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9).2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9).2.1 S2048x1.size (by sl_kernel_rfl) y
/-- In the middle of a sweep the stores into the first maximum's buffer cover it. -/
theorem coverMid0 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : ¬atFirst i) (hL : ¬atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) (xs0 xs1 : Vec F S2048x1 .f32) (y : S2048x1.Idx) :
    ∃ pc ∈ (runMid c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).1, y ∈ pc.1.set :=
  View.cover_of_tiledL (runMid c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).1 S2048x1.size (by sl_kernel_rfl) y
/-- In the middle of a sweep the stores into the second maximum's buffer cover it. -/
theorem coverMid1 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : ¬atFirst i) (hL : ¬atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) (xs0 xs1 : Vec F S2048x1 .f32) (y : S2048x1.Idx) :
    ∃ pc ∈ (runMid c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).2.1, y ∈ pc.1.set :=
  View.cover_of_tiledL (runMid c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).2.1 S2048x1.size (by sl_kernel_rfl) y
/-- At a last column block the stores into the first result's buffer cover it. -/
theorem coverLastO0 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : ¬atFirst i) (hL : atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) (xs0 xs1 : Vec F S2048x1 .f32) (y : S2048x1.Idx) :
    ∃ pc ∈ (runLast c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).1, y ∈ pc.1.set :=
  View.cover_of_tiledL (runLast c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).1 S2048x1.size (by sl_kernel_rfl) y
/-- At a last column block the stores into the second result's buffer cover it. -/
theorem coverLastO1 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : ¬atFirst i) (hL : atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) (xs0 xs1 : Vec F S2048x1 .f32) (y : S2048x1.Idx) :
    ∃ pc ∈ (runLast c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).2.1, y ∈ pc.1.set :=
  View.cover_of_tiledL (runLast c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).2.1 S2048x1.size (by sl_kernel_rfl) y
/-- At a last column block the stores into the first maximum's buffer cover it. -/
theorem coverLast0 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : ¬atFirst i) (hL : atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) (xs0 xs1 : Vec F S2048x1 .f32) (y : S2048x1.Idx) :
    ∃ pc ∈ (runLast c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).2.2.1 S2048x1.size (by sl_kernel_rfl) y
/-- At a last column block the stores into the second maximum's buffer cover it. -/
theorem coverLast1 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : ¬atFirst i) (hL : atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) (xs0 xs1 : Vec F S2048x1 .f32) (y : S2048x1.Idx) :
    ∃ pc ∈ (runLast c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).2.2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).2.2.2.1 S2048x1.size (by sl_kernel_rfl) y

/-! ## Where the windows are idle -/

theorem live_in0 : ∀ t : Fin cfg0.N, cfg0.idle 0 (grid0.coords t) = false := fun _ => rfl
theorem live_in1 : ∀ t : Fin cfg0.N, cfg0.idle 1 (grid0.coords t) = false := fun _ => rfl
theorem live_in2 : ∀ t : Fin cfg0.N, cfg0.idle 2 (grid0.coords t) = false := fun _ => rfl
theorem live_in3 : ∀ t : Fin cfg0.N, cfg0.idle 3 (grid0.coords t) = false := fun _ => rfl
theorem live_in4 : ∀ t : Fin cfg0.N, cfg0.idle 4 (grid0.coords t) = false := fun _ => rfl
theorem live_in5 : ∀ t : Fin cfg0.N, cfg0.idle 5 (grid0.coords t) = false := fun _ => rfl
theorem live_in6 : ∀ t : Fin cfg0.N, cfg0.idle 6 (grid0.coords t) = false := fun _ => rfl
theorem live_in7 : ∀ t : Fin cfg0.N, cfg0.idle 7 (grid0.coords t) = false := fun _ => rfl
/-- Away from the last column block a result's window is idle (the body stores nothing into it) and is not written back. -/
theorem idle8 : ∀ t : Fin cfg0.N, ¬atLast (grid0.coords t) → cfg0.idle 8 (grid0.coords t) = true := by decide +kernel
theorem idle9 : ∀ t : Fin cfg0.N, ¬atLast (grid0.coords t) → cfg0.idle 9 (grid0.coords t) = true := by decide +kernel
theorem noFlush8 : ∀ t : Fin cfg0.N, ¬atLast (grid0.coords t) → (cfg0.win 8).flush t = false := by decide +kernel
theorem noFlush9 : ∀ t : Fin cfg0.N, ¬atLast (grid0.coords t) → (cfg0.win 9).flush t = false := by decide +kernel
/-- At the last column block it is live. -/
theorem live8 : ∀ t : Fin cfg0.N, atLast (grid0.coords t) → cfg0.idle 8 (grid0.coords t) = false := by decide +kernel
theorem live9 : ∀ t : Fin cfg0.N, atLast (grid0.coords t) → cfg0.idle 9 (grid0.coords t) = false := by decide +kernel

/-! ## The obligation at a point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 8000000 in
/-- The body at any point: its place in the sweep says which run applies; the invariant hands it the two maxima at what
    the point before left (at anything, at the call's first point) and takes them back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live_in0 t], after0]
  rw [show (dats m 0 c).leavesExact 1 t = owns (c : Thread nD τ) (ms1 t) fullShare ((dats m 0 c).after 1 t) from by
    unfold Dat.leavesExact; rw [live_in1 t], after1]
  rw [show (dats m 0 c).leavesExact 2 t = owns (c : Thread nD τ) (ms2 t) fullShare ((dats m 0 c).after 2 t) from by
    unfold Dat.leavesExact; rw [live_in2 t], after2]
  rw [show (dats m 0 c).leavesExact 3 t = owns (c : Thread nD τ) (ms3 t) fullShare ((dats m 0 c).after 3 t) from by
    unfold Dat.leavesExact; rw [live_in3 t], after3]
  rw [show (dats m 0 c).leavesExact 4 t = owns (c : Thread nD τ) (ms4 t) fullShare ((dats m 0 c).after 4 t) from by
    unfold Dat.leavesExact; rw [live_in4 t], after4]
  rw [show (dats m 0 c).leavesExact 5 t = owns (c : Thread nD τ) (ms5 t) fullShare ((dats m 0 c).after 5 t) from by
    unfold Dat.leavesExact; rw [live_in5 t], after5]
  rw [show (dats m 0 c).leavesExact 6 t = owns (c : Thread nD τ) (ms6 t) fullShare ((dats m 0 c).after 6 t) from by
    unfold Dat.leavesExact; rw [live_in6 t], after6]
  rw [show (dats m 0 c).leavesExact 7 t = owns (c : Thread nD τ) (ms7 t) fullShare ((dats m 0 c).after 7 t) from by
    unfold Dat.leavesExact; rw [live_in7 t], after7]
  by_cases h0 : t.val % 16 = 0
  · have hnl : ¬atLast (grid0.coords t) := fun h => by have := (atLast_iff t).mp h; omega
    rw [Dat.leavesExact_idle (dats m 0 c) 8 t (idle8 t hnl) (noFlush8 t hnl), Dat.leavesExact_idle (dats m 0 c) 9 t (idle9 t hnl) (noFlush9 t hnl)]
    rw [outsAt_first m c t h0]
    unfold stepFirst; (try dsimp only)
    by_cases hz : t.val = 0
    · rw [Phi_castSucc m c t, PhiS_zero m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runFirst c (grid0.coords t) _ _ _ _ _ _ _ _ _ _ _ _ _ _ _ _ _ _ _ _ _ _ _ _ ((atFirst_iff t).mpr h0) (fun h => by have := (atLast_iff t).mp h; omega) (iblk m c 0 t) (iblk m c 1 t) (iblk m c 2 t) (iblk m c 3 t) (iblk m c 4 t) (iblk m c 5 t) (iblk m c 6 t) (iblk m c 7 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, ⟨%es0, HS0⟩, ⟨%es1, HS1⟩⟩
      isplitl [HS0 HS1]
      · isplitl [HS0]
        · unfold owns; iexists _; isplitr
          swap; · iexact HS0
          ipureintro; exact View.read_writes_of_cover _ _ _ _ _ (coverFirst0 c _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (coverFirst1 c _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
    · rw [Phi_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runFirst c (grid0.coords t) _ _ _ _ _ _ _ _ _ _ _ _ _ _ _ _ _ _ _ _ _ _ _ _ ((atFirst_iff t).mpr h0) (fun h => by have := (atLast_iff t).mp h; omega) (iblk m c 0 t) (iblk m c 1 t) (iblk m c 2 t) (iblk m c 3 t) (iblk m c 4 t) (iblk m c 5 t) (iblk m c 6 t) (iblk m c 7 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexists _; iexact HS0
      isplitl [HS1]; · iexists _; iexact HS1
      iintro ⟨H0, H1, H2, H3, H4, H5, H6, H7, H8, H9, ⟨%es0, HS0⟩, ⟨%es1, HS1⟩⟩
      isplitl [HS0 HS1]
      · isplitl [HS0]
        · unfold owns; iexists _; isplitr
          swap; · iexact HS0
          ipureintro; exact View.read_writes_of_cover _ _ _ _ _ (coverFirst0 c _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (coverFirst1 c _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
  · have hz : t.val ≠ 0 := fun h => h0 (by rw [h])
    have hnf : ¬atFirst (grid0.coords t) := fun h => h0 ((atFirst_iff t).mp h)
    by_cases h1 : t.val % 16 = 15
    · have hl : atLast (grid0.coords t) := (atLast_iff t).mpr h1
      rw [show (dats m 0 c).leavesExact 8 t = owns (c : Thread nD τ) (ms8 t) fullShare ((dats m 0 c).after 8 t) from by
        unfold Dat.leavesExact; rw [live8 t hl], after8]
      rw [show (dats m 0 c).leavesExact 9 t = owns (c : Thread nD τ) (ms9 t) fullShare ((dats m 0 c).after 9 t) from by
        unfold Dat.leavesExact; rw [live9 t hl], after9]
      rw [outsAt_last m c t h0 h1]
      unfold stepLast; (try dsimp only)
      rw [Phi_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runLast c (grid0.coords t) _ _ _ _ _ _ _ _ _ _ _ _ _ _ _ _ _ _ _ _ _ _ _ _ hnf hl (iblk m c 0 t) (iblk m c 1 t) (iblk m c 2 t) (iblk m c 3 t) (iblk m c 4 t) (iblk m c 5 t) (iblk m c 6 t) (iblk m c 7 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      iintro ⟨H0, H1, H2, H3, H4, H5, H6, H7, ⟨%e8, H8⟩, ⟨%e9, H9⟩, ⟨%es0, HS0⟩, ⟨%es1, HS1⟩⟩
      isplitl [HS0 HS1]
      · isplitl [HS0]
        · unfold owns; iexists _; isplitr
          swap; · iexact HS0
          ipureintro; exact View.read_writes_of_cover _ _ _ _ _ (coverLast0 c _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (coverLast1 c _ _ _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (coverLastO0 c _ _ _ _ _ _ _ _ _ _ _ _ _ _ _ _ _ _ _ _ _ _ _ _ _ _ _ _ _ _ _ _ _ _ _ _ _)
      · unfold owns; iexists _; isplitr
        swap; · iexact H9
        ipureintro; exact View.read_writes_of_cover _ _ _ _ _ (coverLastO1 c _ _ _ _ _ _ _ _ _ _ _ _ _ _ _ _ _ _ _ _ _ _ _ _ _ _ _ _ _ _ _ _ _ _ _ _ _)
    · have hnl : ¬atLast (grid0.coords t) := fun h => h1 ((atLast_iff t).mp h)
      rw [Dat.leavesExact_idle (dats m 0 c) 8 t (idle8 t hnl) (noFlush8 t hnl), Dat.leavesExact_idle (dats m 0 c) 9 t (idle9 t hnl) (noFlush9 t hnl)]
      rw [outsAt_mid m c t h0 h1]
      unfold stepMid; (try dsimp only)
      rw [Phi_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runMid c (grid0.coords t) _ _ _ _ _ _ _ _ _ _ _ _ _ _ _ _ _ _ _ _ _ _ _ _ hnf hnl (iblk m c 0 t) (iblk m c 1 t) (iblk m c 2 t) (iblk m c 3 t) (iblk m c 4 t) (iblk m c 5 t) (iblk m c 6 t) (iblk m c 7 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, ⟨%es0, HS0⟩, ⟨%es1, HS1⟩⟩
      isplitl [HS0 HS1]
      · isplitl [HS0]
        · unfold owns; iexists _; isplitr
          swap; · iexact HS0
          ipureintro; exact View.read_writes_of_cover _ _ _ _ _ (coverMid0 c _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (coverMid1 c _ _ _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Body

end
-- ==== Proof.K.Region.lean ====
/-
  (The program as printed, read at the word level: the same account as for its idealization, which differs from it in
  no operation.)
  The run of @main.  @main is ten host operations (two reshapes of each id vector, the squared row norms, the cast of q
  to bf16), the pallas_call, and fourteen host operations on its two results (the hinge on their difference, the mean).
  The call is entered from every unscoped buffer held whole at what the first stretch left: the buffers behind the
  windows' arrays go to the pipeline — the one read twice cut in halves between its two readers —, the rest wait
  beside it; it is left with the halves put together again and the two results' buffers at what the write-backs made
  them.  The second stretch then runs on that, and the last state is read off against the final memory.
-/
import proofs.«167525_j15710990369518_2_alg».proof.Proof.K.Sound
import Idealize.ShloMosaic.Lib.Pipeline.Regions
import Idealize.ShloMosaic.Lib.Pipeline.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuations between the three parts -/

/-- Core `c`'s buffers at launch. -/
abbrev Vl (c : Dev nD) : Valuation τ sig (Elt F) := fun b => m (c, b)

/-- The two results' arrays after the last write-back. -/
def res0 (c : Dev nD) : Buf (Elt F) ((c : Thread nD τ).loc main_v9_0) := (dats m 0 c).arrAt 8 cfg0.N
def res1 (c : Dev nD) : Buf (Elt F) ((c : Thread nD τ).loc main_v9_1) := (dats m 0 c).arrAt 9 cfg0.N

/-- Core `c`'s buffers when the call is left: as it found them, but for its two results. -/
def V1 (c : Dev nD) : Valuation τ sig (Elt F) :=
  Function.update (Function.update (V0 m c) (Proc.devRef .tc main_v9_0) (res0 m c)) (Proc.devRef .tc main_v9_1) (res1 m c)

/-- And at the end: the fourteen operations after the call have run. -/
abbrev V2 (c : Dev nD) : Valuation τ sig (Elt F) := StableHlo.after hostOps1 (V1 m c)

/-! ## The host stretches -/

theorem ops0_sub : ∀ op ∈ (hostOps0 : List (HloOp τ sig (Elt F))), op.bufs ⊆ Pipeline.ucRefs τ sig :=
  fun op h => Pipeline.sub_ucRefs op ((List.forall_iff_forall_mem.mp hostOps0_sub) op h)
theorem ops1_sub : ∀ op ∈ (hostOps1 : List (HloOp τ sig (Elt F))), op.bufs ⊆ Pipeline.ucRefs τ sig :=
  fun op h => Pipeline.sub_ucRefs op ((List.forall_iff_forall_mem.mp hostOps1_sub) op h)
theorem ops0_fresh : ∀ op ∈ (hostOps0 : List (HloOp τ sig (Elt F))), op.fresh = ∅ := by
  intro _ h; (repeat (cases h with | head => rfl | tail _ h => ?_)); exact nomatch h
theorem ops1_fresh : ∀ op ∈ (hostOps1 : List (HloOp τ sig (Elt F))), op.fresh = ∅ := by
  intro _ h; (repeat (cases h with | head => rfl | tail _ h => ?_)); exact nomatch h

abbrev 𝒱₀ : Variants := Variants.none
/-- No core owes another anything: no level is assigned. -/
abbrev L : GSem nD τ sig → Finset Unit := fun _ => ∅
abbrev lv : GSem nD τ sig → Unit → ℕ := fun _ _ => 0
/-- No table is prefetched. -/
abbrev adm : (p : Fin 1) → (pcfgs (F := F) p).Adm := fun p => (cfgs p).toPCfg_adm

/-- What rides beside the buffers through all three parts: the core owing nothing. -/
abbrev R (c : Dev nD) : sProp 𝕄 := iprop(∃ W, owes (c : Thread nD τ) (0 : CellTallies nD τ sig Unit) W)

/-- The ten operations before the call. -/
def seg0 : Pipeline.HostSeg (Name := ℕ) (U := UR sig nD τ) (pcfgs (F := F)) defs₀ 𝒱₀ L lv :=
  Pipeline.HostSeg.ofOps _ _ _ _ _ (Pipeline.ucRefs τ sig) hostOps0 ops0_sub ops0_fresh (Vl m) R

/-- The fourteen after it. -/
def seg1 : Pipeline.HostSeg (Name := ℕ) (U := UR sig nD τ) (pcfgs (F := F)) defs₀ 𝒱₀ L lv :=
  Pipeline.HostSeg.ofOps _ _ _ _ _ (Pipeline.ucRefs τ sig) hostOps1 ops1_sub ops1_fresh (V1 m) R

/-! ## The call -/

/-- Off the windows' arrays nothing changed across the call. -/
theorem V1_rest (c : Dev nD) (b : Ref sig .tc) (h8 : b ≠ main_v9_0) (h9 : b ≠ main_v9_1) :
    V1 m c (Proc.devRef .tc b) = V m c b := by
  unfold V1
  rw [Function.update_of_ne (StableHlo.devRef_ne_of_ne h9), Function.update_of_ne (StableHlo.devRef_ne_of_ne h8)]

theorem V1_res0 (c : Dev nD) : V1 m c (Proc.devRef .tc main_v9_0) = res0 m c := by
  unfold V1
  rw [Function.update_of_ne (StableHlo.devRef_ne_of_ne (by decide)), Function.update_self]

theorem V1_res1 (c : Dev nD) : V1 m c (Proc.devRef .tc main_v9_1) = res1 m c := by
  unfold V1
  rw [Function.update_self]

/-- Every window's array after the call is what the valuation at its exit says. -/
theorem final_eq (c : Dev nD) (w : Fin cfg0.W) :
    (dats m 0 c).arrAt w cfg0.N = V1 m c (Proc.devRef .tc (Pipeline.arrRef spec0 w)) := by
  match w with
  | ⟨0, _⟩ => exact ((dats m 0 c).arrAt_in 0 rfl _).trans ((A_eq m c 0).trans (V1_rest m c main_v8 (by decide) (by decide)).symm)
  | ⟨1, _⟩ => exact ((dats m 0 c).arrAt_in 1 rfl _).trans ((A_eq m c 1).trans (V1_rest m c main_v8 (by decide) (by decide)).symm)
  | ⟨2, _⟩ => exact ((dats m 0 c).arrAt_in 2 rfl _).trans ((A_eq m c 2).trans (V1_rest m c main_v6 (by decide) (by decide)).symm)
  | ⟨3, _⟩ => exact ((dats m 0 c).arrAt_in 3 rfl _).trans ((A_eq m c 3).trans (V1_rest m c main_v7 (by decide) (by decide)).symm)
  | ⟨4, _⟩ => exact ((dats m 0 c).arrAt_in 4 rfl _).trans ((A_eq m c 4).trans (V1_rest m c main_v0 (by decide) (by decide)).symm)
  | ⟨5, _⟩ => exact ((dats m 0 c).arrAt_in 5 rfl _).trans ((A_eq m c 5).trans (V1_rest m c main_v2 (by decide) (by decide)).symm)
  | ⟨6, _⟩ => exact ((dats m 0 c).arrAt_in 6 rfl _).trans ((A_eq m c 6).trans (V1_rest m c main_v1 (by decide) (by decide)).symm)
  | ⟨7, _⟩ => exact ((dats m 0 c).arrAt_in 7 rfl _).trans ((A_eq m c 7).trans (V1_rest m c main_v3 (by decide) (by decide)).symm)
  | ⟨8, _⟩ => exact (V1_res0 m c).symm
  | ⟨9, _⟩ => exact (V1_res1 m c).symm

/-- The buffers that are no window's array are, when the call is left, as when it was entered. -/
theorem rest_eq (c : Dev nD) :
    (Pipeline.unscopedRest spec0 c (fun b => V1 m c (Proc.devRef .tc b)) : sProp 𝕄) = Pipeline.unscopedRest spec0 c (V m c) := by
  unfold Pipeline.unscopedRest
  refine bigSep_congr fun b hb => ?_
  have hni := (Finset.mem_sdiff.mp hb).2
  beta_reduce
  rw [V1_rest m c b (fun h => hni (h ▸ Finset.mem_image.mpr ⟨8, Finset.mem_univ _, rfl⟩))
    (fun h => hni (h ▸ Finset.mem_image.mpr ⟨9, Finset.mem_univ _, rfl⟩))]

/-- After any point but the first the invariant gives the two scratch buffers back at some contents. -/
theorem Phi_out (c : Dev nD) (t : Fin (cfg0.N + 1)) (ht : t.val ≠ 0) :
    (dats m 0 c).Φ t ⊢ (Pipeline.scopedRest (Ix := Unit) (Name := ℕ) (U := UR sig nD τ) (Lvl := ℕ) (Val := Elt F) spec0 c : sProp 𝕄) := by
  rw [show (dats m 0 c).Φ t = PhiS m c t.val (Nat.le_of_lt_succ t.isLt) from rfl, PhiS_pos m c _ _ ht, scopedRest0_eq]
  simp only [scM0, scM1, owns_whole]
  iintro ⟨H0, H1⟩
  isplitl [H0]; · iexists _; iexact H0
  iexists _; iexact H1

-- the entailments below apply library lemmas stated over `cfgs p` at the pinned configuration: unification has to
-- unfold plain definitions in a metavariable's type
set_option maxHeartbeats 2000000 in
set_option backward.isDefEq.respectTransparency.types false in
/-- THE CALL: the decided layout (the arrays need not be distinct), no semaphore of the kernel's own, the body
    obligation; entered from the unscoped buffers as the first stretch left them, left with them as `V1` says. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m c) ∗ R c)
  X c := iprop(emp)
  Y c := iprop(emp)
  Z c := Pipeline.unscopedRest spec0 c (V m c)
  hentry c := by
    rw [show StableHlo.held (c : Thread nD τ) (Pipeline.ucRefs τ sig) (V0 m c) = unscopedBufs c (V m c) from (Pipeline.unscopedBufs_held c _).symm,
      Pipeline.unscopedBufs_split₀ cfgs 0 winFacts₀0.arr_unscoped c (V m c),
      Shared.arrays_eq c (dats m 0 c) (q_eq m c) (V m c) ((dats m 0 c).arrAt · 0)
        (fun w => (show (dats m 0 c).arrAt w 0 = (dats m 0 c).A w from rfl).trans (A_eq m c w))]
    iintro ⟨⟨⟨Ha, Hz⟩, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (dats m 0 c).Φ 0 = PhiS m c 0 (Nat.zero_le _) from rfl, PhiS_zero m c 0 _ rfl, scopedRest0_eq]
    simp only [scM0, scM1, owns_whole]
    iintro ⟨-, -, ⟨H0, H1⟩⟩
    isplitl [H0]; · iexact H0
    iexact H1
  hout c := by
    rw [Pipeline.ownSems0_none]
    refine (Phi_out m c _ (fun h => by rw [Fin.val_last, show cfg0.N = 64 from N_0] at h; exact absurd h (by decide))).trans ?_
    iintro H
    isplitr; · iempintro
    isplitr; · iempintro
    iexact H
  hexit c := by
    rw [show StableHlo.held (c : Thread nD τ) (Pipeline.ucRefs τ sig) (V1 m c) = unscopedBufs c (fun b => V1 m c (Proc.devRef .tc b)) from (Pipeline.unscopedBufs_held c _).symm,
      Pipeline.unscopedBufs_split₀ cfgs 0 winFacts₀0.arr_unscoped c (fun b => V1 m c (Proc.devRef .tc b)),
      Shared.arrays_eq c (dats m 0 c) (q_eq m c) (fun b => V1 m c (Proc.devRef .tc b)) ((dats m 0 c).arrAt · cfg0.N) (final_eq m c),
      rest_eq m c]
    iintro ⟨Ha, HO, -, HZ⟩
    imodintro
    isplitr [HO]
    · isplitl [Ha]; · iexact Ha
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- What every final memory holds: each unscoped buffer at the valuation after the second stretch. -/
def QC : PUnit × MemSt nD τ sig (Elt F) → Prop := fun r =>
  ∀ c : Dev nD, ∀ b ∈ Pipeline.ucRefs τ sig, r.2.mem ((c : Dev nD), b) = V2 m c b

-- the launch theorem's implicit arguments are found by unifying its conclusion with this one
set_option maxHeartbeats 2000000 in
set_option backward.isDefEq.respectTransparency.types false in
/-- At the compiled mesh, for any float values, from any memory with zero counters: every weakly fair execution of
    @main on the TensorCores terminates, nothing faulting, and every final memory holds each unscoped buffer at what the
    three parts compute of the launch memory. -/
theorem run_main : θ_run defs (onTc (τ := τ) (main (F := F))) (s₀ m ρ) (QC m) :=
  Pipeline.θ_run_regions_kit (pcfgs (F := F)) adm (dats m) () cellOf_inj emb₁ defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu
      imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c))
    (Tₙ := fun c => StableHlo.held (c : Thread nD τ) (Pipeline.ucRefs τ sig) (V2 m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Vl m c) from Pipeline.unscopedBufs_held c (Vl m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = V2 m c b)
    (hfin := fun c s' => by
      unfold StableHlo.held
      iintro ⟨Hh, HSI⟩
      ihave Hr := (pointsTo_read_all (Pipeline.ucRefs τ sig) (fun b => ((c : Dev nD), b)) (V2 m c) s') $$ [Hh HSI]
      · isplitl [Hh] <;> iassumption
      icases Hr with ⟨%h, HSI⟩
      imodintro
      isplitr; · ipureintro; exact h
      iexact HSI)
    (hQ := fun _ h => h)

end Cert.Kernel.Body

end
-- ==== Proof.LibWrites.lean ====
/-
  Host operations that write only buffers numbered from `n` on.

  A straight line of host operations each of which writes one result buffer of its own, all of them
  numbered `n` or higher among the TensorCore references, leaves every reference numbered below `n` as
  it found it. With the program's arguments numbered first, this is "no host operation writes an
  argument".
-/
import Idealize.ShloMosaic.Lib.StableHlo.Run

noncomputable section

namespace Idealize.ShloMosaic.StableHlo

open Idealize.ShloMosaic.TcCoe

variable {τ : Topo} {sig : RefSig} {Val : EltTy → Type}

/-- Every buffer the operation writes is a TensorCore reference whose index is at least `n`. -/
def WritesFrom (n : ℕ) (op : HloOp τ sig Val) : Prop :=
  ∀ b ∈ op.writes, ∃ y : Ref sig .tc, b = Proc.devRef .tc y ∧ n ≤ y.idx.val

/-- A line of such operations leaves every reference numbered below `n` as it found it. -/
theorem after_below (n : ℕ) (ops : List (HloOp τ sig Val)) (W : Valuation τ sig Val)
    (h : ops.Forall (WritesFrom n)) (r : Ref sig .tc) (hr : r.idx.val < n) :
    after ops W (Proc.devRef .tc r) = W (Proc.devRef .tc r) :=
  after_of_forall_not_mem ops W fun op hop hb => by
    obtain ⟨y, e, hy⟩ := (List.forall_iff_forall_mem.mp h) op hop _ hb
    obtain rfl : r = y := Proc.devRef_injective _ e
    omega

/-- Any stretch cut from the front or the back of such a line is such a line. -/
theorem WritesFrom.take (n k : ℕ) (ops : List (HloOp τ sig Val)) (h : ops.Forall (WritesFrom n)) :
    (ops.take k).Forall (WritesFrom n) :=
  List.forall_iff_forall_mem.mpr fun op hop => (List.forall_iff_forall_mem.mp h) op (List.mem_of_mem_take hop)

theorem WritesFrom.drop (n k : ℕ) (ops : List (HloOp τ sig Val)) (h : ops.Forall (WritesFrom n)) :
    (ops.drop k).Forall (WritesFrom n) :=
  List.forall_iff_forall_mem.mpr fun op hop => (List.forall_iff_forall_mem.mp h) op (List.mem_of_mem_drop hop)

/-- One operation at a time over a literal line: the buffer written is the operation's own result. -/
macro "writes_own" : tactic =>
  `(tactic| (simp only [List.Forall]; repeat' constructor
             all_goals exact fun b hb => ⟨_, Finset.mem_singleton.mp hb, by decide⟩))

/-- Two lines one after the other. -/
theorem after_two : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_two l₁ l₂]

/-- A line run in two stretches. -/
theorem after_take_drop (k : ℕ) (ops : List (HloOp τ sig Val)) (W : Valuation τ sig Val) :
    after ops W = after (ops.drop k) (after (ops.take k) W) := by
  rw [← after_two, List.take_append_drop]

end Idealize.ShloMosaic.StableHlo

end
-- ==== Proof.K.Frame.lean ====
/-
  (The program as printed, read at the word level: the same account as for its idealization, which differs from it in
  no operation.)
  The arguments end as they began.  Neither host stretch writes an argument (each operation writes its own result
  buffer, and the three arguments are numbered before every result), and the call changes only its two results'
  arrays; so in every final memory the three argument arrays hold what they held at launch.
-/
import proofs.«167525_j15710990369518_2_alg».proof.Proof.K.Region
import proofs.«167525_j15710990369518_2_alg».proof.Proof.LibWrites

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every operation of the first stretch writes a buffer numbered from 3 on; -/
theorem ops0_from : (hostOps0 : List (HloOp τ sig (Elt F))).Forall (StableHlo.WritesFrom 3) := by writes_own
/-- so does every operation of the second. -/
theorem ops1_from : (hostOps1 : List (HloOp τ sig (Elt F))).Forall (StableHlo.WritesFrom 3) := by writes_own

/-- A reference numbered below 3 — an argument — holds at the end what it held at launch. -/
theorem V2_arg (c : Dev nD) (r : Ref sig .tc) (hr : r.idx.val < 3) :
    V2 m c (Proc.devRef .tc r) = m ((c : Thread nD τ).loc r) := by
  have h8 : r ≠ main_v9_0 := by rintro rfl; exact absurd hr (by decide)
  have h9 : r ≠ main_v9_1 := by rintro rfl; exact absurd hr (by decide)
  show StableHlo.after hostOps1 (V1 m c) (Proc.devRef .tc r) = _
  rw [StableHlo.after_below 3 hostOps1 (V1 m c) ops1_from r hr, V1_rest m c r h8 h9]
  exact StableHlo.after_below 3 hostOps0 (Vl m c) ops0_from r hr

/-- An unscoped TensorCore reference is among the buffers the run accounts for. -/
theorem mem_uc (r : Ref sig .tc) (hr : (Proc.devRef (τ := τ) .tc r).isScoped = false) : Proc.devRef .tc r ∈ Pipeline.ucRefs τ sig := by
  unfold Pipeline.ucRefs StableHlo.tcRefs
  exact Finset.mem_filter.mpr ⟨Finset.mem_map.mpr ⟨r, Finset.mem_univ _, rfl⟩, by simp [hr]⟩

/-- THE FRAME: every weakly fair execution of @main terminates, nothing faulting, the three arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 rfl)).trans (V2_arg m c main_arg0 (by decide)),
     (h c _ (mem_uc main_arg1 rfl)).trans (V2_arg m c main_arg1 (by decide)),
     (h c _ (mem_uc main_arg2 rfl)).trans (V2_arg m c main_arg2 (by decide))⟩) (run_main m ρ)

end Cert.Kernel.Body

end
-- ==== Proof.Cases.lean ====
/-
  Where in the sweep a grid point stands.  The grid is 4 row blocks by 16 column blocks, the column block running
  fastest; the body resets its two running maxima when the column block is the first of a row block's sweep and
  finishes the row block (clip, square root, the two selections) when it is the last.  Both conditions are scalar chains
  over the second grid coordinate; here they are in closed form over the 64 points.
-/
import proofs.«167525_j15710990369518_2_alg».proof.Proof.Gen.KernelIdeal.Launch
import proofs.«167525_j15710990369518_2_alg».proof.Proof.Gen.KernelIdeal.Skeleton
import proofs.«167525_j15710990369518_2_alg».proof.Proof.Gen.KernelIdeal.Points
import Idealize.ShloMosaic.Lib.Pipeline.FrameBody
import Idealize.ShloMosaic.Lib.Tactic

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The column block is the first of the sweep (`j == 0`): the running maxima are reset. -/
abbrev atFirst (i : grid0.Coords) : Prop :=
  (Scalar.cmpi .ne (Scalar.extui (Scalar.cmpi .eq (BitVec.ofNat 32 (i 1).val) 0#32)) 0#32) = 1#1
/-- That is, the point's number is a multiple of 16. -/
theorem atFirst_iff : ∀ t : Fin cfg0.N, atFirst (grid0.coords t) ↔ t.val % 16 = 0 :=
  (by decide +kernel : ∀ t : Fin grid0.N, atFirst (grid0.coords t) ↔ t.val % 16 = 0)

/-- The column block is the last of the sweep (`j == 15`): the row block is finished. -/
abbrev atLast (i : grid0.Coords) : Prop := k0_cond2 i = 1#1
/-- That is, the point's number is 15 modulo 16. -/
theorem atLast_iff : ∀ t : Fin cfg0.N, atLast (grid0.coords t) ↔ t.val % 16 = 15 :=
  (by decide +kernel : ∀ t : Fin grid0.N, atLast (grid0.coords t) ↔ t.val % 16 = 15)

end Cert.KernelIdeal.Body

end
-- ==== Proof.RunFirst.lean ====
/-
  The body at the first column block of a sweep: the two running maxima are reset to the sentinel before anything is
  read of them, so what they held on entry does not matter; then the point goes on as in the middle of a sweep.
-/
import proofs.«167525_j15710990369518_2_alg».proof.Proof.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first column block: with the inputs' buffers at their blocks, the results' at whatever they held, and the two
    running maxima at anything, the body runs to the inputs and results as they were and the two maxima written; the
    stores into each, in order (last first), are found by running it. -/
noncomputable def runFirst (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : atFirst i) (hL : ¬atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) :
    Σ' (LS0 : List (View.Piece (Elt F) S2048x1 .f32)), { LS1 : List (View.Piece (Elt F) S2048x1 .f32) //
      ∀ (xo0 xo1 : Vec F S2048x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xo0 ∗ owns (c : Thread nD τ) arg11 fullShare xo1
            ∗ (∃ d, owns (c : Thread nD τ) arg12 fullShare d) ∗ (∃ d, owns (c : Thread nD τ) arg13 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xo0 ∗ owns (c : Thread nD τ) arg11 fullShare xo1
                ∗ (∃ f, arg12.view.loc (c : Thread nD τ) ↦[arg12.view.set]{fullShare} arg12.view.writes (Elt F) f LS0)
                ∗ (∃ f, arg13.view.loc (c : Thread nD τ) ↦[arg13.view.set]{fullShare} arg13.view.writes (Elt F) f LS1)) -∗ K ⟨⟩))
          ⊢ wp frame (wpE (defs₀ (F := F)) Variants.none c none) E (cc0__pairwise_hardmine_kernel i arg2 harg2 arg3 harg3 arg4 harg4 arg5 harg5 arg6 harg6 arg7 harg7 arg8 harg8 arg9 harg9 arg10 harg10 arg11 harg11 arg12 harg12 arg13 harg13) K } := by
  refine ⟨?_, ?_, fun xo0 xo1 E K => ?run⟩
  case run =>
    simp only [cc0__pairwise_hardmine_kernel_eq_skeleton]; unfold cc0__pairwise_hardmine_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    obtain rfl := harg10.eq_unread hf10; obtain rfl := harg11.eq_unread hf11
    sl_exec (disch := first | exact hF | exact hL)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexists _; iexact H12
    iexists _; iexact H13

end Cert.KernelIdeal.Body

end
-- ==== Proof.RunMid.lean ====
/-
  The body at a point in the middle of a sweep (neither the first nor the last column block): it reads the eight input
  blocks and the two running maxima, and stores the two maxima anew; the two result blocks are not touched.
-/
import proofs.«167525_j15710990369518_2_alg».proof.Proof.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- In the middle of a sweep: with the inputs' buffers at their blocks, the results' at whatever they held, and the two
    running maxima at what the point before left, the body runs to the inputs and results as they were and the two
    maxima rewritten; what it wrote into each, as stores in order (last first), is found by running it. -/
noncomputable def runMid (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : ¬atFirst i) (hL : ¬atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) (xs0 xs1 : Vec F S2048x1 .f32) :
    Σ' (LS0 : List (View.Piece (Elt F) S2048x1 .f32)), { LS1 : List (View.Piece (Elt F) S2048x1 .f32) //
      ∀ (xo0 xo1 : Vec F S2048x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xo0 ∗ owns (c : Thread nD τ) arg11 fullShare xo1
            ∗ owns (c : Thread nD τ) arg12 fullShare xs0 ∗ owns (c : Thread nD τ) arg13 fullShare xs1
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xo0 ∗ owns (c : Thread nD τ) arg11 fullShare xo1
                ∗ (∃ f, arg12.view.loc (c : Thread nD τ) ↦[arg12.view.set]{fullShare} arg12.view.writes (Elt F) f LS0)
                ∗ (∃ f, arg13.view.loc (c : Thread nD τ) ↦[arg13.view.set]{fullShare} arg13.view.writes (Elt F) f LS1)) -∗ K ⟨⟩))
          ⊢ wp frame (wpE (defs₀ (F := F)) Variants.none c none) E (cc0__pairwise_hardmine_kernel i arg2 harg2 arg3 harg3 arg4 harg4 arg5 harg5 arg6 harg6 arg7 harg7 arg8 harg8 arg9 harg9 arg10 harg10 arg11 harg11 arg12 harg12 arg13 harg13) K } := by
  refine ⟨?_, ?_, fun xo0 xo1 E K => ?run⟩
  case run =>
    simp only [cc0__pairwise_hardmine_kernel_eq_skeleton]; unfold cc0__pairwise_hardmine_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    obtain rfl := harg10.eq_unread hf10; obtain rfl := harg11.eq_unread hf11; obtain rfl := harg12.eq_unread hf12; obtain rfl := harg13.eq_unread hf13
    sl_exec (disch := first | exact hF | exact hL)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexists _; iexact H12
    iexists _; iexact H13

end Cert.KernelIdeal.Body

end
-- ==== Proof.RunLast.lean ====
/-
  The body at the last column block of a sweep: after the two running maxima are brought up to date, the row block is
  finished — each maximum is clipped from below, its square root taken, and the two results selected and stored whole
  into the two result blocks, whatever those held.
-/
import proofs.«167525_j15710990369518_2_alg».proof.Proof.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the last column block: with the inputs' buffers at their blocks, the results' at anything, and the two running
    maxima at what the point before left, the body runs to the inputs as they were and the results and the maxima
    written; the stores into each, in order (last first), are found by running it. -/
noncomputable def runLast (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : ¬atFirst i) (hL : atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) (xs0 xs1 : Vec F S2048x1 .f32) :
    Σ' (LO0 : List (View.Piece (Elt F) S2048x1 .f32)) (LO1 : List (View.Piece (Elt F) S2048x1 .f32))
       (LS0 : List (View.Piece (Elt F) S2048x1 .f32)), { LS1 : List (View.Piece (Elt F) S2048x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d)
            ∗ owns (c : Thread nD τ) arg12 fullShare xs0 ∗ owns (c : Thread nD τ) arg13 fullShare xs1
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f LO0) ∗ (∃ f, arg11.view.loc (c : Thread nD τ) ↦[arg11.view.set]{fullShare} arg11.view.writes (Elt F) f LO1)
                ∗ (∃ f, arg12.view.loc (c : Thread nD τ) ↦[arg12.view.set]{fullShare} arg12.view.writes (Elt F) f LS0)
                ∗ (∃ f, arg13.view.loc (c : Thread nD τ) ↦[arg13.view.set]{fullShare} arg13.view.writes (Elt F) f LS1)) -∗ K ⟨⟩))
          ⊢ wp frame (wpE (defs₀ (F := F)) Variants.none c none) E (cc0__pairwise_hardmine_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0__pairwise_hardmine_kernel_eq_skeleton]; unfold cc0__pairwise_hardmine_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    obtain rfl := harg12.eq_unread hf12; obtain rfl := harg13.eq_unread hf13
    sl_exec (disch := first | exact hF | exact hL)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    iexists _; iexact H13

end Cert.KernelIdeal.Body

end
-- ==== Proof.Shared.lean ====
/-
  The array the kernel is handed twice.  The pallas_call receives q (cast to bf16) both as the row-block operand
  (window 0, blocks of 2048 rows) and as the column-block operand (window 1, blocks of 512 rows).  Both windows only
  read it, so the one buffer behind them is held half by each: the buffers behind the ten windows' arrays, each whole at
  the full share, are the windows' arrays with that buffer's points-to cut in its left and right halves, and back.
-/
import proofs.«167525_j15710990369518_2_alg».proof.Proof.Gen.KernelIdeal.Launch
import Idealize.ShloMosaic.Lib.Pipeline.Regions

noncomputable section

namespace Cert.KernelIdeal.Shared

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shares the two readers of the common array hold it at, and the full share for every other input. -/
def qOf : Fin cfg0.W → PosShare TreeShare := fun
  | ⟨0, _⟩ => fullShare.left
  | ⟨1, _⟩ => fullShare.right
  | _ => fullShare

/-- The nine distinct buffers behind the ten windows' arrays. -/
theorem arrRefs_list : Finset.univ.image (Pipeline.arrRef spec0)
    = [main_v8, main_v6, main_v7, main_v0, main_v2, main_v1, main_v3, main_v9_0, main_v9_1].toFinset := by decide

variable (c : Dev nD) (dat : Dat τ (Elt F) Unit ℕ (UR sig nD τ) ℕ cfg0 c)

/-- A whole buffer at the full share, beside anything, is its left half, then its right half, then that thing: the
    share's two halves compose to the whole. -/
theorem halves (b : Ref sig .tc) (f : Buf (Elt F) ((c : Thread nD τ).loc b)) (P : sProp 𝕄) :
    BI.sep (((c : Thread nD τ).loc b) ↦{fullShare} f : sProp 𝕄) P
      = BI.sep (((c : Thread nD τ).loc b) ↦{fullShare.left} f) (BI.sep (((c : Thread nD τ).loc b) ↦{fullShare.right} f) P) :=
  Entails.antisymm
    ((sep_mono (pointsTo_share (PosShare.mem_left_op_right fullShare)).1 .rfl).trans Idealize.SL.BI.sep_assoc)
    (Idealize.SL.BI.sep_assoc'.trans (sep_mono (pointsTo_share (PosShare.mem_left_op_right fullShare)).2 .rfl))

set_option maxHeartbeats 2000000 in
/-- The buffers behind the arrays, each whole at the full share at the contents `V`, are the windows' arrays at those
    contents, the common buffer cut in halves between windows 0 and 1 — and back (an equation). -/
theorem arrays_eq (hq : dat.q = qOf)
    (V : (b : Ref sig .tc) → Buf (Elt F) ((c : Thread nD τ).loc b))
    (A : (w : Fin cfg0.W) → Buf (Elt F) ((cfg0.win w).arr.view.loc (c : Thread nD τ)))
    (hA : ∀ w, A w = V (Pipeline.arrRef spec0 w)) :
    (Pipeline.arrBufs spec0 c V : sProp 𝕄) = dat.arrays A := by
  unfold Pipeline.arrBufs Dat.arrays
  rw [bigSep_eq_bigSepL_of_eq _ arrRefs_list (by decide), bigSep_W0]
  simp only [bigSepL_cons_cons, bigSepL_singleton, Dat.share, hq, qOf, View.set_whole, Bool.false_eq_true, if_false, if_true, ite_self]
  rw [hA 0, hA 1, hA 2, hA 3, hA 4, hA 5, hA 6, hA 7, hA 8, hA 9]
  rw [halves c main_v8 (V main_v8)]
  rfl

end Cert.KernelIdeal.Shared

end
-- ==== Proof.Data.lean ====
/-
  What the kernel holds after each grid point.  The two running maxima live in two scratch buffers that persist over a
  row block's sweep of the sixteen column blocks: reset at the first, brought up to date at every one, and at the last
  turned into the row block's two results.  So the contents after a point are defined by recursion on the point, through
  what the body stores in the case the point is in; the results' buffers hold something definite only after a last point.
  The proof data of the pallas_call follows: every input window's buffer at its block of the array as the call finds it,
  the results and the maxima as just said, the array read by two windows held half by each.
-/
import proofs.«167525_j15710990369518_2_alg».proof.Proof.RunFirst
import proofs.«167525_j15710990369518_2_alg».proof.Proof.RunMid
import proofs.«167525_j15710990369518_2_alg».proof.Proof.RunLast
import proofs.«167525_j15710990369518_2_alg».proof.Proof.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the call finds them -/

/-- Core `c`'s buffers when the call is entered: the ten host operations before it have run. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The memrefs the body is called with -/

abbrev ms0 (t : Fin cfg0.N) : Memref sig .tc .vmem S2048x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2048x1 .i32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x512 .i32 := win0_7.stage (cfg0.slots t 7)
abbrev hs7 (t : Fin cfg0.N) : (ms7 t).IsWhole := hstage0_7 ((cfg0.slots t 7).cast nbuf0_7)
abbrev ms8 (t : Fin cfg0.N) : Memref sig .tc .vmem S2048x1 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S2048x1 .f32 := win0_9.stage (cfg0.slots t 9)
abbrev hs9 (t : Fin cfg0.N) : (ms9 t).IsWhole := hstage0_9 ((cfg0.slots t 9).cast nbuf0_9)
/-- The two scratch operands (the running maxima), whole buffers of the kernel's own. -/
abbrev scM0 : Memref sig .tc .vmem S2048x1 .f32 := Memref.whole cc0_scratch0
abbrev scM1 : Memref sig .tc .vmem S2048x1 .f32 := Memref.whole cc0_scratch1
/-- Views through which a buffer's contents are stated from the stores into it (any whole view of the shape serves). -/
abbrev VR : View sig .tc .vmem S2048x1 .f32 := scM0.view

/-- What a list of stores covering a buffer leaves in it. -/
abbrev left (L : List (View.Piece (Elt F) S2048x1 .f32)) : Vec F S2048x1 .f32 := VR.read (Elt F) (VR.writes (Elt F) VR.junk L)
/-- Contents nothing depends on (a result's buffer away from the last column block). -/
abbrev idleOut : Vec F S2048x1 .f32 := VR.read (Elt F) VR.junk

/-! ## One point's step, case by case: (first result, second result, first maximum, second maximum) -/

abbrev Quad (F : FTy → Type) [FloatOps F] := Vec F S2048x1 .f32 × Vec F S2048x1 .f32 × Vec F S2048x1 .f32 × Vec F S2048x1 .f32

def stepFirst (c : Dev nD) (t : Fin cfg0.N) (hF : atFirst (grid0.coords t)) (hL : ¬atLast (grid0.coords t)) : Quad F :=
  (idleOut, idleOut,
   left (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) hF hL (iblk m c 0 t) (iblk m c 1 t) (iblk m c 2 t) (iblk m c 3 t) (iblk m c 4 t) (iblk m c 5 t) (iblk m c 6 t) (iblk m c 7 t)).1,
   left (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) hF hL (iblk m c 0 t) (iblk m c 1 t) (iblk m c 2 t) (iblk m c 3 t) (iblk m c 4 t) (iblk m c 5 t) (iblk m c 6 t) (iblk m c 7 t)).2.1)

def stepMid (c : Dev nD) (t : Fin cfg0.N) (hF : ¬atFirst (grid0.coords t)) (hL : ¬atLast (grid0.coords t)) (s0 s1 : Vec F S2048x1 .f32) : Quad F :=
  (idleOut, idleOut,
   left (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) hF hL (iblk m c 0 t) (iblk m c 1 t) (iblk m c 2 t) (iblk m c 3 t) (iblk m c 4 t) (iblk m c 5 t) (iblk m c 6 t) (iblk m c 7 t) s0 s1).1,
   left (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) hF hL (iblk m c 0 t) (iblk m c 1 t) (iblk m c 2 t) (iblk m c 3 t) (iblk m c 4 t) (iblk m c 5 t) (iblk m c 6 t) (iblk m c 7 t) s0 s1).2.1)

def stepLast (c : Dev nD) (t : Fin cfg0.N) (hF : ¬atFirst (grid0.coords t)) (hL : atLast (grid0.coords t)) (s0 s1 : Vec F S2048x1 .f32) : Quad F :=
  (left (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) hF hL (iblk m c 0 t) (iblk m c 1 t) (iblk m c 2 t) (iblk m c 3 t) (iblk m c 4 t) (iblk m c 5 t) (iblk m c 6 t) (iblk m c 7 t) s0 s1).1,
   left (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) hF hL (iblk m c 0 t) (iblk m c 1 t) (iblk m c 2 t) (iblk m c 3 t) (iblk m c 4 t) (iblk m c 5 t) (iblk m c 6 t) (iblk m c 7 t) s0 s1).2.1,
   left (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) hF hL (iblk m c 0 t) (iblk m c 1 t) (iblk m c 2 t) (iblk m c 3 t) (iblk m c 4 t) (iblk m c 5 t) (iblk m c 6 t) (iblk m c 7 t) s0 s1).2.2.1,
   left (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) hF hL (iblk m c 0 t) (iblk m c 1 t) (iblk m c 2 t) (iblk m c 3 t) (iblk m c 4 t) (iblk m c 5 t) (iblk m c 6 t) (iblk m c 7 t) s0 s1).2.2.2.1)

/-! ## After each point -/

/-- THE SWEEP.  What the results' buffers and the two maxima hold after the body at point `n`: the first column block
    starts afresh, every other one continues from what the point before left. -/
def outsAt (c : Dev nD) : (n : ℕ) → n < cfg0.N → Quad F
  | 0, hn => stepFirst m c ⟨0, hn⟩ ((atFirst_iff ⟨0, hn⟩).mpr (Nat.zero_mod _)) (fun h => by have := (atLast_iff ⟨0, hn⟩).mp h; simp at this)
  | n + 1, hn =>
    if h0 : (n + 1) % 16 = 0 then
      stepFirst m c ⟨n + 1, hn⟩ ((atFirst_iff ⟨n + 1, hn⟩).mpr h0) (fun h => by have := (atLast_iff ⟨n + 1, hn⟩).mp h; (try dsimp only at this); omega)
    else if h1 : (n + 1) % 16 = 15 then
      stepLast m c ⟨n + 1, hn⟩ (fun h => h0 ((atFirst_iff ⟨n + 1, hn⟩).mp h)) ((atLast_iff ⟨n + 1, hn⟩).mpr h1)
        (outsAt c n (Nat.lt_of_succ_lt hn)).2.2.1 (outsAt c n (Nat.lt_of_succ_lt hn)).2.2.2
    else
      stepMid m c ⟨n + 1, hn⟩ (fun h => h0 ((atFirst_iff ⟨n + 1, hn⟩).mp h)) (fun h => h1 ((atLast_iff ⟨n + 1, hn⟩).mp h))
        (outsAt c n (Nat.lt_of_succ_lt hn)).2.2.1 (outsAt c n (Nat.lt_of_succ_lt hn)).2.2.2

/-- At a first column block. -/
theorem outsAt_first (c : Dev nD) (t : Fin cfg0.N) (h0 : t.val % 16 = 0) :
    outsAt m c t.val t.isLt = stepFirst m c t ((atFirst_iff t).mpr h0) (fun h => by have := (atLast_iff t).mp h; omega) := by
  obtain ⟨n, hn⟩ := t
  cases n with
  | zero => rfl
  | succ n => exact (dif_pos h0).trans rfl

/-- At a last column block: from what the point before left. -/
theorem outsAt_last (c : Dev nD) (t : Fin cfg0.N) (h0 : ¬t.val % 16 = 0) (h1 : t.val % 16 = 15) :
    outsAt m c t.val t.isLt = stepLast m c t (fun h => h0 ((atFirst_iff t).mp h)) ((atLast_iff t).mpr h1)
      (outsAt m c (t.val - 1) (Nat.lt_of_le_of_lt (Nat.sub_le _ _) t.isLt)).2.2.1
      (outsAt m c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-- In the middle of a sweep: from what the point before left. -/
theorem outsAt_mid (c : Dev nD) (t : Fin cfg0.N) (h0 : ¬t.val % 16 = 0) (h1 : ¬t.val % 16 = 15) :
    outsAt m c t.val t.isLt = stepMid m c t (fun h => h0 ((atFirst_iff t).mp h)) (fun h => h1 ((atLast_iff t).mp h))
      (outsAt m c (t.val - 1) (Nat.lt_of_le_of_lt (Nat.sub_le _ _) t.isLt)).2.2.1
      (outsAt m c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

/-! ## The invariant: the two maxima between points -/

/-- Before point `n`: at the call's entry the two scratch buffers hold anything; afterwards what the point before left. -/
def PhiS (c : Dev nD) : (n : ℕ) → n ≤ cfg0.N → sProp 𝕄
  | 0, _ => iprop((∃ d, owns (c : Thread nD τ) scM0 fullShare d) ∗ (∃ d, owns (c : Thread nD τ) scM1 fullShare d))
  | n + 1, hn => iprop(owns (c : Thread nD τ) scM0 fullShare (outsAt m c n hn).2.2.1 ∗ owns (c : Thread nD τ) scM1 fullShare (outsAt m c n hn).2.2.2)

theorem PhiS_zero (c : Dev nD) (n : ℕ) (h : n ≤ cfg0.N) (hz : n = 0) :
    PhiS m c n h = iprop((∃ d, owns (c : Thread nD τ) scM0 fullShare d) ∗ (∃ d, owns (c : Thread nD τ) scM1 fullShare d)) := by
  subst hz; rfl

theorem PhiS_succ (c : Dev nD) (n : ℕ) (hn : n < cfg0.N) :
    PhiS m c (n + 1) hn = iprop(owns (c : Thread nD τ) scM0 fullShare (outsAt m c n hn).2.2.1 ∗ owns (c : Thread nD τ) scM1 fullShare (outsAt m c n hn).2.2.2) := rfl

theorem PhiS_pos (c : Dev nD) (n : ℕ) (h : n ≤ cfg0.N) (hz : n ≠ 0) :
    PhiS m c n h = iprop(owns (c : Thread nD τ) scM0 fullShare (outsAt m c (n - 1) (by omega)).2.2.1 ∗ owns (c : Thread nD τ) scM1 fullShare (outsAt m c (n - 1) (by omega)).2.2.2) := by
  cases n with
  | zero => exact absurd rfl hz
  | succ n => rfl

/-! ## The proof data -/

/-- On core `c`: the arrays as the call finds them; after the body at a point every input window's buffer at its block,
    the results' and the maxima as the sweep says; the invariant the two maxima; the array read twice held half by each
    reader; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt m c t.val t.isLt).1
    | ⟨9, _⟩ => (outsAt m c t.val t.isLt).2.1
  Φ t := PhiS m c t.val (Nat.le_of_lt_succ t.isLt)
  q := Shared.qOf
  owed _ := 0

theorem A_eq (c : Dev nD) (w : Fin cfg0.W) : (dats m 0 c).A w = V m c (Pipeline.arrRef spec0 w) := by
  dsimp only [dats]

theorem q_eq (c : Dev nD) : (dats m 0 c).q = Shared.qOf := by dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (outsAt m c t.val t.isLt).1 := by dsimp only [dats]
theorem after9 (c : Dev nD) (t : Fin cfg0.N) : (dats m 0 c).after 9 t = (outsAt m c t.val t.isLt).2.1 := by dsimp only [dats]

/-! ## Every input window's buffer holds its block when the body runs, fetched at that point or not -/

theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl)
    (fun t => by rw [after7]; unfold Dat.blockOf iblk; rw [A_eq]; try rfl) t d).trans
    (by unfold Dat.fetched Dat.blockOf iblk; rw [A_eq]; try rfl)

end Cert.KernelIdeal.Body

end
-- ==== Proof.Sound.lean ====
/-
  The body obligation.  At every grid point, from the two maxima as the invariant holds them and every window's buffer
  as the pipeline hands it over, the body runs to the invariant of the next point and every buffer as the proof data
  says: by the point's place in its sweep — first, last, or in between — it is one of the three runs.  The stores a run
  found into a buffer tile it, so what the buffer holds afterwards does not depend on what it held before.
-/
import proofs.«167525_j15710990369518_2_alg».proof.Proof.Data
import Idealize.ShloMosaic.Lib.Ring

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The found stores tile their buffers -/

/-- At a first column block the stores into the first maximum's buffer cover it. -/
theorem coverFirst0 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : atFirst i) (hL : ¬atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) (y : S2048x1.Idx) :
    ∃ pc ∈ (runFirst c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9).1, y ∈ pc.1.set :=
  View.cover_of_tiledL (runFirst c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9).1 S2048x1.size (by sl_kernel_rfl) y
/-- At a first column block the stores into the second maximum's buffer cover it. -/
theorem coverFirst1 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : atFirst i) (hL : ¬atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) (y : S2048x1.Idx) :
    ∃ pc ∈ (runFirst c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9).2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9).2.1 S2048x1.size (by sl_kernel_rfl) y
/-- In the middle of a sweep the stores into the first maximum's buffer cover it. -/
theorem coverMid0 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : ¬atFirst i) (hL : ¬atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) (xs0 xs1 : Vec F S2048x1 .f32) (y : S2048x1.Idx) :
    ∃ pc ∈ (runMid c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).1, y ∈ pc.1.set :=
  View.cover_of_tiledL (runMid c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).1 S2048x1.size (by sl_kernel_rfl) y
/-- In the middle of a sweep the stores into the second maximum's buffer cover it. -/
theorem coverMid1 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : ¬atFirst i) (hL : ¬atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) (xs0 xs1 : Vec F S2048x1 .f32) (y : S2048x1.Idx) :
    ∃ pc ∈ (runMid c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).2.1, y ∈ pc.1.set :=
  View.cover_of_tiledL (runMid c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).2.1 S2048x1.size (by sl_kernel_rfl) y
/-- At a last column block the stores into the first result's buffer cover it. -/
theorem coverLastO0 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : ¬atFirst i) (hL : atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) (xs0 xs1 : Vec F S2048x1 .f32) (y : S2048x1.Idx) :
    ∃ pc ∈ (runLast c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).1, y ∈ pc.1.set :=
  View.cover_of_tiledL (runLast c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).1 S2048x1.size (by sl_kernel_rfl) y
/-- At a last column block the stores into the second result's buffer cover it. -/
theorem coverLastO1 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : ¬atFirst i) (hL : atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) (xs0 xs1 : Vec F S2048x1 .f32) (y : S2048x1.Idx) :
    ∃ pc ∈ (runLast c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).2.1, y ∈ pc.1.set :=
  View.cover_of_tiledL (runLast c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).2.1 S2048x1.size (by sl_kernel_rfl) y
/-- At a last column block the stores into the first maximum's buffer cover it. -/
theorem coverLast0 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : ¬atFirst i) (hL : atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) (xs0 xs1 : Vec F S2048x1 .f32) (y : S2048x1.Idx) :
    ∃ pc ∈ (runLast c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).2.2.1 S2048x1.size (by sl_kernel_rfl) y
/-- At a last column block the stores into the second maximum's buffer cover it. -/
theorem coverLast1 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : ¬atFirst i) (hL : atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) (xs0 xs1 : Vec F S2048x1 .f32) (y : S2048x1.Idx) :
    ∃ pc ∈ (runLast c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).2.2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).2.2.2.1 S2048x1.size (by sl_kernel_rfl) y

/-! ## Where the windows are idle -/

theorem live_in0 : ∀ t : Fin cfg0.N, cfg0.idle 0 (grid0.coords t) = false := fun _ => rfl
theorem live_in1 : ∀ t : Fin cfg0.N, cfg0.idle 1 (grid0.coords t) = false := fun _ => rfl
theorem live_in2 : ∀ t : Fin cfg0.N, cfg0.idle 2 (grid0.coords t) = false := fun _ => rfl
theorem live_in3 : ∀ t : Fin cfg0.N, cfg0.idle 3 (grid0.coords t) = false := fun _ => rfl
theorem live_in4 : ∀ t : Fin cfg0.N, cfg0.idle 4 (grid0.coords t) = false := fun _ => rfl
theorem live_in5 : ∀ t : Fin cfg0.N, cfg0.idle 5 (grid0.coords t) = false := fun _ => rfl
theorem live_in6 : ∀ t : Fin cfg0.N, cfg0.idle 6 (grid0.coords t) = false := fun _ => rfl
theorem live_in7 : ∀ t : Fin cfg0.N, cfg0.idle 7 (grid0.coords t) = false := fun _ => rfl
/-- Away from the last column block a result's window is idle (the body stores nothing into it) and is not written back. -/
theorem idle8 : ∀ t : Fin cfg0.N, ¬atLast (grid0.coords t) → cfg0.idle 8 (grid0.coords t) = true := by decide +kernel
theorem idle9 : ∀ t : Fin cfg0.N, ¬atLast (grid0.coords t) → cfg0.idle 9 (grid0.coords t) = true := by decide +kernel
theorem noFlush8 : ∀ t : Fin cfg0.N, ¬atLast (grid0.coords t) → (cfg0.win 8).flush t = false := by decide +kernel
theorem noFlush9 : ∀ t : Fin cfg0.N, ¬atLast (grid0.coords t) → (cfg0.win 9).flush t = false := by decide +kernel
/-- At the last column block it is live. -/
theorem live8 : ∀ t : Fin cfg0.N, atLast (grid0.coords t) → cfg0.idle 8 (grid0.coords t) = false := by decide +kernel
theorem live9 : ∀ t : Fin cfg0.N, atLast (grid0.coords t) → cfg0.idle 9 (grid0.coords t) = false := by decide +kernel

/-! ## The obligation at a point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 8000000 in
/-- The body at any point: its place in the sweep says which run applies; the invariant hands it the two maxima at what
    the point before left (at anything, at the call's first point) and takes them back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live_in0 t], after0]
  rw [show (dats m 0 c).leavesExact 1 t = owns (c : Thread nD τ) (ms1 t) fullShare ((dats m 0 c).after 1 t) from by
    unfold Dat.leavesExact; rw [live_in1 t], after1]
  rw [show (dats m 0 c).leavesExact 2 t = owns (c : Thread nD τ) (ms2 t) fullShare ((dats m 0 c).after 2 t) from by
    unfold Dat.leavesExact; rw [live_in2 t], after2]
  rw [show (dats m 0 c).leavesExact 3 t = owns (c : Thread nD τ) (ms3 t) fullShare ((dats m 0 c).after 3 t) from by
    unfold Dat.leavesExact; rw [live_in3 t], after3]
  rw [show (dats m 0 c).leavesExact 4 t = owns (c : Thread nD τ) (ms4 t) fullShare ((dats m 0 c).after 4 t) from by
    unfold Dat.leavesExact; rw [live_in4 t], after4]
  rw [show (dats m 0 c).leavesExact 5 t = owns (c : Thread nD τ) (ms5 t) fullShare ((dats m 0 c).after 5 t) from by
    unfold Dat.leavesExact; rw [live_in5 t], after5]
  rw [show (dats m 0 c).leavesExact 6 t = owns (c : Thread nD τ) (ms6 t) fullShare ((dats m 0 c).after 6 t) from by
    unfold Dat.leavesExact; rw [live_in6 t], after6]
  rw [show (dats m 0 c).leavesExact 7 t = owns (c : Thread nD τ) (ms7 t) fullShare ((dats m 0 c).after 7 t) from by
    unfold Dat.leavesExact; rw [live_in7 t], after7]
  by_cases h0 : t.val % 16 = 0
  · have hnl : ¬atLast (grid0.coords t) := fun h => by have := (atLast_iff t).mp h; omega
    rw [Dat.leavesExact_idle (dats m 0 c) 8 t (idle8 t hnl) (noFlush8 t hnl), Dat.leavesExact_idle (dats m 0 c) 9 t (idle9 t hnl) (noFlush9 t hnl)]
    rw [outsAt_first m c t h0]
    unfold stepFirst; (try dsimp only)
    by_cases hz : t.val = 0
    · rw [Phi_castSucc m c t, PhiS_zero m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runFirst c (grid0.coords t) _ _ _ _ _ _ _ _ _ _ _ _ _ _ _ _ _ _ _ _ _ _ _ _ ((atFirst_iff t).mpr h0) (fun h => by have := (atLast_iff t).mp h; omega) (iblk m c 0 t) (iblk m c 1 t) (iblk m c 2 t) (iblk m c 3 t) (iblk m c 4 t) (iblk m c 5 t) (iblk m c 6 t) (iblk m c 7 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, ⟨%es0, HS0⟩, ⟨%es1, HS1⟩⟩
      isplitl [HS0 HS1]
      · isplitl [HS0]
        · unfold owns; iexists _; isplitr
          swap; · iexact HS0
          ipureintro; exact View.read_writes_of_cover _ _ _ _ _ (coverFirst0 c _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (coverFirst1 c _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
    · rw [Phi_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runFirst c (grid0.coords t) _ _ _ _ _ _ _ _ _ _ _ _ _ _ _ _ _ _ _ _ _ _ _ _ ((atFirst_iff t).mpr h0) (fun h => by have := (atLast_iff t).mp h; omega) (iblk m c 0 t) (iblk m c 1 t) (iblk m c 2 t) (iblk m c 3 t) (iblk m c 4 t) (iblk m c 5 t) (iblk m c 6 t) (iblk m c 7 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexists _; iexact HS0
      isplitl [HS1]; · iexists _; iexact HS1
      iintro ⟨H0, H1, H2, H3, H4, H5, H6, H7, H8, H9, ⟨%es0, HS0⟩, ⟨%es1, HS1⟩⟩
      isplitl [HS0 HS1]
      · isplitl [HS0]
        · unfold owns; iexists _; isplitr
          swap; · iexact HS0
          ipureintro; exact View.read_writes_of_cover _ _ _ _ _ (coverFirst0 c _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (coverFirst1 c _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
  · have hz : t.val ≠ 0 := fun h => h0 (by rw [h])
    have hnf : ¬atFirst (grid0.coords t) := fun h => h0 ((atFirst_iff t).mp h)
    by_cases h1 : t.val % 16 = 15
    · have hl : atLast (grid0.coords t) := (atLast_iff t).mpr h1
      rw [show (dats m 0 c).leavesExact 8 t = owns (c : Thread nD τ) (ms8 t) fullShare ((dats m 0 c).after 8 t) from by
        unfold Dat.leavesExact; rw [live8 t hl], after8]
      rw [show (dats m 0 c).leavesExact 9 t = owns (c : Thread nD τ) (ms9 t) fullShare ((dats m 0 c).after 9 t) from by
        unfold Dat.leavesExact; rw [live9 t hl], after9]
      rw [outsAt_last m c t h0 h1]
      unfold stepLast; (try dsimp only)
      rw [Phi_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runLast c (grid0.coords t) _ _ _ _ _ _ _ _ _ _ _ _ _ _ _ _ _ _ _ _ _ _ _ _ hnf hl (iblk m c 0 t) (iblk m c 1 t) (iblk m c 2 t) (iblk m c 3 t) (iblk m c 4 t) (iblk m c 5 t) (iblk m c 6 t) (iblk m c 7 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      iintro ⟨H0, H1, H2, H3, H4, H5, H6, H7, ⟨%e8, H8⟩, ⟨%e9, H9⟩, ⟨%es0, HS0⟩, ⟨%es1, HS1⟩⟩
      isplitl [HS0 HS1]
      · isplitl [HS0]
        · unfold owns; iexists _; isplitr
          swap; · iexact HS0
          ipureintro; exact View.read_writes_of_cover _ _ _ _ _ (coverLast0 c _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (coverLast1 c _ _ _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (coverLastO0 c _ _ _ _ _ _ _ _ _ _ _ _ _ _ _ _ _ _ _ _ _ _ _ _ _ _ _ _ _ _ _ _ _ _ _ _ _)
      · unfold owns; iexists _; isplitr
        swap; · iexact H9
        ipureintro; exact View.read_writes_of_cover _ _ _ _ _ (coverLastO1 c _ _ _ _ _ _ _ _ _ _ _ _ _ _ _ _ _ _ _ _ _ _ _ _ _ _ _ _ _ _ _ _ _ _ _ _ _)
    · have hnl : ¬atLast (grid0.coords t) := fun h => h1 ((atLast_iff t).mp h)
      rw [Dat.leavesExact_idle (dats m 0 c) 8 t (idle8 t hnl) (noFlush8 t hnl), Dat.leavesExact_idle (dats m 0 c) 9 t (idle9 t hnl) (noFlush9 t hnl)]
      rw [outsAt_mid m c t h0 h1]
      unfold stepMid; (try dsimp only)
      rw [Phi_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runMid c (grid0.coords t) _ _ _ _ _ _ _ _ _ _ _ _ _ _ _ _ _ _ _ _ _ _ _ _ hnf hnl (iblk m c 0 t) (iblk m c 1 t) (iblk m c 2 t) (iblk m c 3 t) (iblk m c 4 t) (iblk m c 5 t) (iblk m c 6 t) (iblk m c 7 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, ⟨%es0, HS0⟩, ⟨%es1, HS1⟩⟩
      isplitl [HS0 HS1]
      · isplitl [HS0]
        · unfold owns; iexists _; isplitr
          swap; · iexact HS0
          ipureintro; exact View.read_writes_of_cover _ _ _ _ _ (coverMid0 c _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (coverMid1 c _ _ _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Body

end
-- ==== Proof.Region.lean ====
/-
  The run of @main.  @main is ten host operations (two reshapes of each id vector, the squared row norms, the cast of q
  to bf16), the pallas_call, and fourteen host operations on its two results (the hinge on their difference, the mean).
  The call is entered from every unscoped buffer held whole at what the first stretch left: the buffers behind the
  windows' arrays go to the pipeline — the one read twice cut in halves between its two readers —, the rest wait
  beside it; it is left with the halves put together again and the two results' buffers at what the write-backs made
  them.  The second stretch then runs on that, and the last state is read off against the final memory.
-/
import proofs.«167525_j15710990369518_2_alg».proof.Proof.Sound
import Idealize.ShloMosaic.Lib.Pipeline.Regions
import Idealize.ShloMosaic.Lib.Pipeline.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuations between the three parts -/

/-- Core `c`'s buffers at launch. -/
abbrev Vl (c : Dev nD) : Valuation τ sig (Elt F) := fun b => m (c, b)

/-- The two results' arrays after the last write-back. -/
def res0 (c : Dev nD) : Buf (Elt F) ((c : Thread nD τ).loc main_v9_0) := (dats m 0 c).arrAt 8 cfg0.N
def res1 (c : Dev nD) : Buf (Elt F) ((c : Thread nD τ).loc main_v9_1) := (dats m 0 c).arrAt 9 cfg0.N

/-- Core `c`'s buffers when the call is left: as it found them, but for its two results. -/
def V1 (c : Dev nD) : Valuation τ sig (Elt F) :=
  Function.update (Function.update (V0 m c) (Proc.devRef .tc main_v9_0) (res0 m c)) (Proc.devRef .tc main_v9_1) (res1 m c)

/-- And at the end: the fourteen operations after the call have run. -/
abbrev V2 (c : Dev nD) : Valuation τ sig (Elt F) := StableHlo.after hostOps1 (V1 m c)

/-! ## The host stretches -/

theorem ops0_sub : ∀ op ∈ (hostOps0 : List (HloOp τ sig (Elt F))), op.bufs ⊆ Pipeline.ucRefs τ sig :=
  fun op h => Pipeline.sub_ucRefs op ((List.forall_iff_forall_mem.mp hostOps0_sub) op h)
theorem ops1_sub : ∀ op ∈ (hostOps1 : List (HloOp τ sig (Elt F))), op.bufs ⊆ Pipeline.ucRefs τ sig :=
  fun op h => Pipeline.sub_ucRefs op ((List.forall_iff_forall_mem.mp hostOps1_sub) op h)
theorem ops0_fresh : ∀ op ∈ (hostOps0 : List (HloOp τ sig (Elt F))), op.fresh = ∅ := by
  intro _ h; (repeat (cases h with | head => rfl | tail _ h => ?_)); exact nomatch h
theorem ops1_fresh : ∀ op ∈ (hostOps1 : List (HloOp τ sig (Elt F))), op.fresh = ∅ := by
  intro _ h; (repeat (cases h with | head => rfl | tail _ h => ?_)); exact nomatch h

abbrev 𝒱₀ : Variants := Variants.none
/-- No core owes another anything: no level is assigned. -/
abbrev L : GSem nD τ sig → Finset Unit := fun _ => ∅
abbrev lv : GSem nD τ sig → Unit → ℕ := fun _ _ => 0
/-- No table is prefetched. -/
abbrev adm : (p : Fin 1) → (pcfgs (F := F) p).Adm := fun p => (cfgs p).toPCfg_adm

/-- What rides beside the buffers through all three parts: the core owing nothing. -/
abbrev R (c : Dev nD) : sProp 𝕄 := iprop(∃ W, owes (c : Thread nD τ) (0 : CellTallies nD τ sig Unit) W)

/-- The ten operations before the call. -/
def seg0 : Pipeline.HostSeg (Name := ℕ) (U := UR sig nD τ) (pcfgs (F := F)) defs₀ 𝒱₀ L lv :=
  Pipeline.HostSeg.ofOps _ _ _ _ _ (Pipeline.ucRefs τ sig) hostOps0 ops0_sub ops0_fresh (Vl m) R

/-- The fourteen after it. -/
def seg1 : Pipeline.HostSeg (Name := ℕ) (U := UR sig nD τ) (pcfgs (F := F)) defs₀ 𝒱₀ L lv :=
  Pipeline.HostSeg.ofOps _ _ _ _ _ (Pipeline.ucRefs τ sig) hostOps1 ops1_sub ops1_fresh (V1 m) R

/-! ## The call -/

/-- Off the windows' arrays nothing changed across the call. -/
theorem V1_rest (c : Dev nD) (b : Ref sig .tc) (h8 : b ≠ main_v9_0) (h9 : b ≠ main_v9_1) :
    V1 m c (Proc.devRef .tc b) = V m c b := by
  unfold V1
  rw [Function.update_of_ne (StableHlo.devRef_ne_of_ne h9), Function.update_of_ne (StableHlo.devRef_ne_of_ne h8)]

theorem V1_res0 (c : Dev nD) : V1 m c (Proc.devRef .tc main_v9_0) = res0 m c := by
  unfold V1
  rw [Function.update_of_ne (StableHlo.devRef_ne_of_ne (by decide)), Function.update_self]

theorem V1_res1 (c : Dev nD) : V1 m c (Proc.devRef .tc main_v9_1) = res1 m c := by
  unfold V1
  rw [Function.update_self]

/-- Every window's array after the call is what the valuation at its exit says. -/
theorem final_eq (c : Dev nD) (w : Fin cfg0.W) :
    (dats m 0 c).arrAt w cfg0.N = V1 m c (Proc.devRef .tc (Pipeline.arrRef spec0 w)) := by
  match w with
  | ⟨0, _⟩ => exact ((dats m 0 c).arrAt_in 0 rfl _).trans ((A_eq m c 0).trans (V1_rest m c main_v8 (by decide) (by decide)).symm)
  | ⟨1, _⟩ => exact ((dats m 0 c).arrAt_in 1 rfl _).trans ((A_eq m c 1).trans (V1_rest m c main_v8 (by decide) (by decide)).symm)
  | ⟨2, _⟩ => exact ((dats m 0 c).arrAt_in 2 rfl _).trans ((A_eq m c 2).trans (V1_rest m c main_v6 (by decide) (by decide)).symm)
  | ⟨3, _⟩ => exact ((dats m 0 c).arrAt_in 3 rfl _).trans ((A_eq m c 3).trans (V1_rest m c main_v7 (by decide) (by decide)).symm)
  | ⟨4, _⟩ => exact ((dats m 0 c).arrAt_in 4 rfl _).trans ((A_eq m c 4).trans (V1_rest m c main_v0 (by decide) (by decide)).symm)
  | ⟨5, _⟩ => exact ((dats m 0 c).arrAt_in 5 rfl _).trans ((A_eq m c 5).trans (V1_rest m c main_v2 (by decide) (by decide)).symm)
  | ⟨6, _⟩ => exact ((dats m 0 c).arrAt_in 6 rfl _).trans ((A_eq m c 6).trans (V1_rest m c main_v1 (by decide) (by decide)).symm)
  | ⟨7, _⟩ => exact ((dats m 0 c).arrAt_in 7 rfl _).trans ((A_eq m c 7).trans (V1_rest m c main_v3 (by decide) (by decide)).symm)
  | ⟨8, _⟩ => exact (V1_res0 m c).symm
  | ⟨9, _⟩ => exact (V1_res1 m c).symm

/-- The buffers that are no window's array are, when the call is left, as when it was entered. -/
theorem rest_eq (c : Dev nD) :
    (Pipeline.unscopedRest spec0 c (fun b => V1 m c (Proc.devRef .tc b)) : sProp 𝕄) = Pipeline.unscopedRest spec0 c (V m c) := by
  unfold Pipeline.unscopedRest
  refine bigSep_congr fun b hb => ?_
  have hni := (Finset.mem_sdiff.mp hb).2
  beta_reduce
  rw [V1_rest m c b (fun h => hni (h ▸ Finset.mem_image.mpr ⟨8, Finset.mem_univ _, rfl⟩))
    (fun h => hni (h ▸ Finset.mem_image.mpr ⟨9, Finset.mem_univ _, rfl⟩))]

/-- After any point but the first the invariant gives the two scratch buffers back at some contents. -/
theorem Phi_out (c : Dev nD) (t : Fin (cfg0.N + 1)) (ht : t.val ≠ 0) :
    (dats m 0 c).Φ t ⊢ (Pipeline.scopedRest (Ix := Unit) (Name := ℕ) (U := UR sig nD τ) (Lvl := ℕ) (Val := Elt F) spec0 c : sProp 𝕄) := by
  rw [show (dats m 0 c).Φ t = PhiS m c t.val (Nat.le_of_lt_succ t.isLt) from rfl, PhiS_pos m c _ _ ht, scopedRest0_eq]
  simp only [scM0, scM1, owns_whole]
  iintro ⟨H0, H1⟩
  isplitl [H0]; · iexists _; iexact H0
  iexists _; iexact H1

-- the entailments below apply library lemmas stated over `cfgs p` at the pinned configuration: unification has to
-- unfold plain definitions in a metavariable's type
set_option maxHeartbeats 2000000 in
set_option backward.isDefEq.respectTransparency.types false in
/-- THE CALL: the decided layout (the arrays need not be distinct), no semaphore of the kernel's own, the body
    obligation; entered from the unscoped buffers as the first stretch left them, left with them as `V1` says. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m c) ∗ R c)
  X c := iprop(emp)
  Y c := iprop(emp)
  Z c := Pipeline.unscopedRest spec0 c (V m c)
  hentry c := by
    rw [show StableHlo.held (c : Thread nD τ) (Pipeline.ucRefs τ sig) (V0 m c) = unscopedBufs c (V m c) from (Pipeline.unscopedBufs_held c _).symm,
      Pipeline.unscopedBufs_split₀ cfgs 0 winFacts₀0.arr_unscoped c (V m c),
      Shared.arrays_eq c (dats m 0 c) (q_eq m c) (V m c) ((dats m 0 c).arrAt · 0)
        (fun w => (show (dats m 0 c).arrAt w 0 = (dats m 0 c).A w from rfl).trans (A_eq m c w))]
    iintro ⟨⟨⟨Ha, Hz⟩, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (dats m 0 c).Φ 0 = PhiS m c 0 (Nat.zero_le _) from rfl, PhiS_zero m c 0 _ rfl, scopedRest0_eq]
    simp only [scM0, scM1, owns_whole]
    iintro ⟨-, -, ⟨H0, H1⟩⟩
    isplitl [H0]; · iexact H0
    iexact H1
  hout c := by
    rw [Pipeline.ownSems0_none]
    refine (Phi_out m c _ (fun h => by rw [Fin.val_last, show cfg0.N = 64 from N_0] at h; exact absurd h (by decide))).trans ?_
    iintro H
    isplitr; · iempintro
    isplitr; · iempintro
    iexact H
  hexit c := by
    rw [show StableHlo.held (c : Thread nD τ) (Pipeline.ucRefs τ sig) (V1 m c) = unscopedBufs c (fun b => V1 m c (Proc.devRef .tc b)) from (Pipeline.unscopedBufs_held c _).symm,
      Pipeline.unscopedBufs_split₀ cfgs 0 winFacts₀0.arr_unscoped c (fun b => V1 m c (Proc.devRef .tc b)),
      Shared.arrays_eq c (dats m 0 c) (q_eq m c) (fun b => V1 m c (Proc.devRef .tc b)) ((dats m 0 c).arrAt · cfg0.N) (final_eq m c),
      rest_eq m c]
    iintro ⟨Ha, HO, -, HZ⟩
    imodintro
    isplitr [HO]
    · isplitl [Ha]; · iexact Ha
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- What every final memory holds: each unscoped buffer at the valuation after the second stretch. -/
def QC : PUnit × MemSt nD τ sig (Elt F) → Prop := fun r =>
  ∀ c : Dev nD, ∀ b ∈ Pipeline.ucRefs τ sig, r.2.mem ((c : Dev nD), b) = V2 m c b

-- the launch theorem's implicit arguments are found by unifying its conclusion with this one
set_option maxHeartbeats 2000000 in
set_option backward.isDefEq.respectTransparency.types false in
/-- At the compiled mesh, for any float values, from any memory with zero counters: every weakly fair execution of
    @main on the TensorCores terminates, nothing faulting, and every final memory holds each unscoped buffer at what the
    three parts compute of the launch memory. -/
theorem run_main : θ_run defs (onTc (τ := τ) (main (F := F))) (s₀ m ρ) (QC m) :=
  Pipeline.θ_run_regions_kit (pcfgs (F := F)) adm (dats m) () cellOf_inj emb₁ defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu
      imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c))
    (Tₙ := fun c => StableHlo.held (c : Thread nD τ) (Pipeline.ucRefs τ sig) (V2 m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Vl m c) from Pipeline.unscopedBufs_held c (Vl m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = V2 m c b)
    (hfin := fun c s' => by
      unfold StableHlo.held
      iintro ⟨Hh, HSI⟩
      ihave Hr := (pointsTo_read_all (Pipeline.ucRefs τ sig) (fun b => ((c : Dev nD), b)) (V2 m c) s') $$ [Hh HSI]
      · isplitl [Hh] <;> iassumption
      icases Hr with ⟨%h, HSI⟩
      imodintro
      isplitr; · ipureintro; exact h
      iexact HSI)
    (hQ := fun _ h => h)

end Cert.KernelIdeal.Body

end
-- ==== Proof.Frame.lean ====
/-
  The arguments end as they began.  Neither host stretch writes an argument (each operation writes its own result
  buffer, and the three arguments are numbered before every result), and the call changes only its two results'
  arrays; so in every final memory the three argument arrays hold what they held at launch.
-/
import proofs.«167525_j15710990369518_2_alg».proof.Proof.Region
import proofs.«167525_j15710990369518_2_alg».proof.Proof.LibWrites

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every operation of the first stretch writes a buffer numbered from 3 on; -/
theorem ops0_from : (hostOps0 : List (HloOp τ sig (Elt F))).Forall (StableHlo.WritesFrom 3) := by writes_own
/-- so does every operation of the second. -/
theorem ops1_from : (hostOps1 : List (HloOp τ sig (Elt F))).Forall (StableHlo.WritesFrom 3) := by writes_own

/-- A reference numbered below 3 — an argument — holds at the end what it held at launch. -/
theorem V2_arg (c : Dev nD) (r : Ref sig .tc) (hr : r.idx.val < 3) :
    V2 m c (Proc.devRef .tc r) = m ((c : Thread nD τ).loc r) := by
  have h8 : r ≠ main_v9_0 := by rintro rfl; exact absurd hr (by decide)
  have h9 : r ≠ main_v9_1 := by rintro rfl; exact absurd hr (by decide)
  show StableHlo.after hostOps1 (V1 m c) (Proc.devRef .tc r) = _
  rw [StableHlo.after_below 3 hostOps1 (V1 m c) ops1_from r hr, V1_rest m c r h8 h9]
  exact StableHlo.after_below 3 hostOps0 (Vl m c) ops0_from r hr

/-- An unscoped TensorCore reference is among the buffers the run accounts for. -/
theorem mem_uc (r : Ref sig .tc) (hr : (Proc.devRef (τ := τ) .tc r).isScoped = false) : Proc.devRef .tc r ∈ Pipeline.ucRefs τ sig := by
  unfold Pipeline.ucRefs StableHlo.tcRefs
  exact Finset.mem_filter.mpr ⟨Finset.mem_map.mpr ⟨r, Finset.mem_univ _, rfl⟩, by simp [hr]⟩

/-- THE FRAME: every weakly fair execution of @main terminates, nothing faulting, the three arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 rfl)).trans (V2_arg m c main_arg0 (by decide)),
     (h c _ (mem_uc main_arg1 rfl)).trans (V2_arg m c main_arg1 (by decide)),
     (h c _ (mem_uc main_arg2 rfl)).trans (V2_arg m c main_arg2 (by decide))⟩) (run_main m ρ)

end Cert.KernelIdeal.Body

end
-- ==== Proof.RefLine.lean ====
/-
  The reference's @main is a straight line of 65 host operations: no kernel is launched.  Every weakly fair execution
  of such a line terminates with each buffer at the fold of the operations' results over the launch contents; each
  operation writes its own result buffer, and the three arguments are numbered before every result, so they end as they
  began.  (The list of the operations is the program's own text as a list; the rest is the library's run of a list.)
-/
import proofs.«167525_j15710990369518_2_alg».proof.Proof.Gen.ReferenceIdeal
import proofs.«167525_j15710990369518_2_alg».proof.Proof.LibWrites
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's 65 operations, in order (a called function's operations stand in its call's place, spelt `TRef.…`). -/
abbrev ops : List (HloOp τ sig (Elt F)) :=
  [ binary main_arg0 main_arg0 main_v0 (mulf : (⟨S8192x256, .f32⟩ : BufTy).Contents (Elt F) → (⟨S8192x256, .f32⟩ : BufTy).Contents (Elt F) → (⟨S8192x256, .f32⟩ : BufTy).Contents (Elt F)),
    nullary main_cst (constant S_ .f32 0x00000000#32),
    binary main_v0 main_cst main_v1 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v1 main_v2 (broadcastInDim S8192x1 ![0] bcast_S8192_S8192x1_0 : (⟨S8192, .f32⟩ : BufTy).Contents (Elt F) → (⟨S8192x1, .f32⟩ : BufTy).Contents (Elt F)),
    unary main_v1 main_v3 (broadcastInDim S1x8192 ![1] bcast_S8192_S1x8192_1 : (⟨S8192, .f32⟩ : BufTy).Contents (Elt F) → (⟨S1x8192, .f32⟩ : BufTy).Contents (Elt F)),
    unary main_v2 main_v4 (broadcastInDim S8192x8192 ![0, 1] bcast_S8192x1_S8192x8192_0_1 : (⟨S8192x1, .f32⟩ : BufTy).Contents (Elt F) → (⟨S8192x8192, .f32⟩ : BufTy).Contents (Elt F)),
    unary main_v3 main_v5 (broadcastInDim S8192x8192 ![0, 1] bcast_S1x8192_S8192x8192_0_1 : (⟨S1x8192, .f32⟩ : BufTy).Contents (Elt F) → (⟨S8192x8192, .f32⟩ : BufTy).Contents (Elt F)),
    binary main_v4 main_v5 main_v6 (addf : (⟨S8192x8192, .f32⟩ : BufTy).Contents (Elt F) → (⟨S8192x8192, .f32⟩ : BufTy).Contents (Elt F) → (⟨S8192x8192, .f32⟩ : BufTy).Contents (Elt F)),
    unary main_arg0 main_v7 ((transpose S256x8192 [1, 0] · transposes_S8192x256_S256x8192_1_0) : (⟨S8192x256, .f32⟩ : BufTy).Contents (Elt F) → (⟨S256x8192, .f32⟩ : BufTy).Contents (Elt F)),
    binary main_arg0 main_v7 main_v8 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst_0 (constant S_ .f32 0x40000000#32),
    unary main_cst_0 main_v9 (broadcastInDim S8192x8192 ![] bcast_S_S8192x8192 : (⟨S_, .f32⟩ : BufTy).Contents (Elt F) → (⟨S8192x8192, .f32⟩ : BufTy).Contents (Elt F)),
    binary main_v9 main_v8 main_v10 (mulf : (⟨S8192x8192, .f32⟩ : BufTy).Contents (Elt F) → (⟨S8192x8192, .f32⟩ : BufTy).Contents (Elt F) → (⟨S8192x8192, .f32⟩ : BufTy).Contents (Elt F)),
    binary main_v6 main_v10 main_v11 (subf : (⟨S8192x8192, .f32⟩ : BufTy).Contents (Elt F) → (⟨S8192x8192, .f32⟩ : BufTy).Contents (Elt F) → (⟨S8192x8192, .f32⟩ : BufTy).Contents (Elt F)),
    nullary main_cst_1 (constant S_ .f32 0x2B8CBCCC#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S8192x8192, .f32⟩) main_call0_v1) (broadcastInDim S8192x8192 ![] bcast_S_S8192x8192),
    TRef.binary (TRef.of (T := ⟨S8192x8192, .f32⟩) main_call0_v1) (TRef.of (T := ⟨S8192x8192, .f32⟩) main_v11) (TRef.of (T := ⟨S8192x8192, .f32⟩) main_v12) maximumf,
    unary main_v12 main_v13 (Host.sqrt : (⟨S8192x8192, .f32⟩ : BufTy).Contents (Elt F) → (⟨S8192x8192, .f32⟩ : BufTy).Contents (Elt F)),
    unary main_arg1 main_v14 (broadcastInDim S8192x1 ![0] bcast_S8192_S8192x1_0 : (⟨S8192, .i32⟩ : BufTy).Contents (Elt F) → (⟨S8192x1, .i32⟩ : BufTy).Contents (Elt F)),
    unary main_arg1 main_v15 (broadcastInDim S1x8192 ![1] bcast_S8192_S1x8192_1 : (⟨S8192, .i32⟩ : BufTy).Contents (Elt F) → (⟨S1x8192, .i32⟩ : BufTy).Contents (Elt F)),
    unary main_v14 main_v16 (broadcastInDim S8192x8192 ![0, 1] bcast_S8192x1_S8192x8192_0_1 : (⟨S8192x1, .i32⟩ : BufTy).Contents (Elt F) → (⟨S8192x8192, .i32⟩ : BufTy).Contents (Elt F)),
    unary main_v15 main_v17 (broadcastInDim S8192x8192 ![0, 1] bcast_S1x8192_S8192x8192_0_1 : (⟨S1x8192, .i32⟩ : BufTy).Contents (Elt F) → (⟨S8192x8192, .i32⟩ : BufTy).Contents (Elt F)),
    binary main_v16 main_v17 main_v18 (cmpi .eq : (⟨S8192x8192, .i32⟩ : BufTy).Contents (Elt F) → (⟨S8192x8192, .i32⟩ : BufTy).Contents (Elt F) → (⟨S8192x8192, .i1⟩ : BufTy).Contents (Elt F)),
    unary main_arg2 main_v19 (broadcastInDim S8192x1 ![0] bcast_S8192_S8192x1_0 : (⟨S8192, .i32⟩ : BufTy).Contents (Elt F) → (⟨S8192x1, .i32⟩ : BufTy).Contents (Elt F)),
    unary main_arg2 main_v20 (broadcastInDim S1x8192 ![1] bcast_S8192_S1x8192_1 : (⟨S8192, .i32⟩ : BufTy).Contents (Elt F) → (⟨S1x8192, .i32⟩ : BufTy).Contents (Elt F)),
    unary main_v19 main_v21 (broadcastInDim S8192x8192 ![0, 1] bcast_S8192x1_S8192x8192_0_1 : (⟨S8192x1, .i32⟩ : BufTy).Contents (Elt F) → (⟨S8192x8192, .i32⟩ : BufTy).Contents (Elt F)),
    unary main_v20 main_v22 (broadcastInDim S8192x8192 ![0, 1] bcast_S1x8192_S8192x8192_0_1 : (⟨S1x8192, .i32⟩ : BufTy).Contents (Elt F) → (⟨S8192x8192, .i32⟩ : BufTy).Contents (Elt F)),
    binary main_v21 main_v22 main_v23 (cmpi .eq : (⟨S8192x8192, .i32⟩ : BufTy).Contents (Elt F) → (⟨S8192x8192, .i32⟩ : BufTy).Contents (Elt F) → (⟨S8192x8192, .i1⟩ : BufTy).Contents (Elt F)),
    binary main_v18 main_v23 main_v24 (andi : (⟨S8192x8192, .i1⟩ : BufTy).Contents (Elt F) → (⟨S8192x8192, .i1⟩ : BufTy).Contents (Elt F) → (⟨S8192x8192, .i1⟩ : BufTy).Contents (Elt F)),
    unary main_v23 main_v25 (noti : (⟨S8192x8192, .i1⟩ : BufTy).Contents (Elt F) → (⟨S8192x8192, .i1⟩ : BufTy).Contents (Elt F)),
    binary main_v18 main_v25 main_v26 (andi : (⟨S8192x8192, .i1⟩ : BufTy).Contents (Elt F) → (⟨S8192x8192, .i1⟩ : BufTy).Contents (Elt F) → (⟨S8192x8192, .i1⟩ : BufTy).Contents (Elt F)),
    nullary main_cst_2 (constant S_ .f32 0xF149F2CA#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v24) (TRef.of (T := ⟨S8192x8192, .f32⟩) main_v13) (TRef.of (T := ⟨S8192x8192, .f32⟩) main_call1_v1) (TRef.of (T := ⟨S8192x8192, .f32⟩) main_v27) select,
    nullary main_cst_3 (constant S_ .f32 0xFF800000#32),
    binary main_v27 main_cst_3 main_v28 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_c (constantI S_ 1 0#1),
    binary main_v24 main_c main_v29 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    nullary main_cst_4 (constant S_ .f32 0x3F800000#32),
    TRef.unary (TRef.of (T := ⟨S_, .f32⟩) main_cst_4) (TRef.of (T := ⟨S_, .f32⟩) main_call2_v0) id,
    TRef.unary (TRef.of (T := ⟨S_, .f32⟩) main_call2_v0) (TRef.of (T := ⟨S8192, .f32⟩) main_call2_v1) (broadcastInDim S8192 ![] bcast_S_S8192),
    TRef.ternary (TRef.of (T := ⟨S8192, .i1⟩) main_v29) (TRef.of (T := ⟨S8192, .f32⟩) main_v28) (TRef.of (T := ⟨S8192, .f32⟩) main_call2_v1) (TRef.of (T := ⟨S8192, .f32⟩) main_v30) select,
    nullary main_cst_5 (constant S_ .f32 0xF149F2CA#32),
    TRef.unary (TRef.of (T := ⟨S_, .f32⟩) main_cst_5) (TRef.of (T := ⟨S_, .f32⟩) main_call3_v0) id,
    TRef.unary (TRef.of (T := ⟨S_, .f32⟩) main_call3_v0) (TRef.of (T := ⟨S8192x8192, .f32⟩) main_call3_v1) (broadcastInDim S8192x8192 ![] bcast_S_S8192x8192),
    TRef.ternary (TRef.of (T := ⟨S8192x8192, .i1⟩) main_v26) (TRef.of (T := ⟨S8192x8192, .f32⟩) main_v13) (TRef.of (T := ⟨S8192x8192, .f32⟩) main_call3_v1) (TRef.of (T := ⟨S8192x8192, .f32⟩) main_v31) select,
    nullary main_cst_6 (constant S_ .f32 0xFF800000#32),
    binary main_v31 main_cst_6 main_v32 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_c_7 (constantI S_ 1 0#1),
    binary main_v26 main_c_7 main_v33 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    TRef.ternary (TRef.of (T := ⟨S8192, .i1⟩) main_v33) (TRef.of (T := ⟨S8192, .f32⟩) main_v32) (TRef.of (T := ⟨S8192, .f32⟩) main_v30) (TRef.of (T := ⟨S8192, .f32⟩) main_v34) select,
    binary main_v30 main_v34 main_v35 (subf : (⟨S8192, .f32⟩ : BufTy).Contents (Elt F) → (⟨S8192, .f32⟩ : BufTy).Contents (Elt F) → (⟨S8192, .f32⟩ : BufTy).Contents (Elt F)),
    unary main_v35 main_v36 (Host.negf : (⟨S8192, .f32⟩ : BufTy).Contents (Elt F) → (⟨S8192, .f32⟩ : BufTy).Contents (Elt F)),
    nullary main_cst_8 (constant S_ .f32 0x3DCCCCCD#32),
    unary main_cst_8 main_v37 (broadcastInDim S8192 ![] bcast_S_S8192 : (⟨S_, .f32⟩ : BufTy).Contents (Elt F) → (⟨S8192, .f32⟩ : BufTy).Contents (Elt F)),
    binary main_v36 main_v37 main_v38 (addf : (⟨S8192, .f32⟩ : BufTy).Contents (Elt F) → (⟨S8192, .f32⟩ : BufTy).Contents (Elt F) → (⟨S8192, .f32⟩ : BufTy).Contents (Elt F)),
    nullary main_cst_9 (constant S_ .f32 0x00000000#32),
    unary main_cst_9 main_v39 (broadcastInDim S8192 ![] bcast_S_S8192 : (⟨S_, .f32⟩ : BufTy).Contents (Elt F) → (⟨S8192, .f32⟩ : BufTy).Contents (Elt F)),
    binary main_v39 main_v38 main_v40 (maximumf : (⟨S8192, .f32⟩ : BufTy).Contents (Elt F) → (⟨S8192, .f32⟩ : BufTy).Contents (Elt F) → (⟨S8192, .f32⟩ : BufTy).Contents (Elt F)),
    nullary main_cst_10 (constant S_ .f32 0x00000000#32),
    binary main_v40 main_cst_10 main_v41 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_11 (constant S_ .f32 0x46000000#32),
    binary main_v41 main_cst_11 main_v42 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., unary_bufs_sub .., binary_bufs_sub .., unary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., unary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., binary_bufs_sub .., nullary_bufs_sub .., binary_bufs_sub .., ternary_bufs_sub .., binary_bufs_sub .., unary_bufs_sub .., nullary_bufs_sub .., unary_bufs_sub .., binary_bufs_sub .., nullary_bufs_sub .., unary_bufs_sub .., binary_bufs_sub .., nullary_bufs_sub .., binary_bufs_sub .., nullary_bufs_sub .., binary_bufs_sub ..⟩

/-- Every operation writes a buffer numbered from 3 on: none writes an argument. -/
theorem ops_from : (ops : List (HloOp τ sig (Elt F))).Forall (WritesFrom 3) := by writes_own

/-- The run of the line: every weakly fair execution terminates, each buffer at the fold of the operations. -/
theorem run_line (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-- THE FRAME of the reference: it terminates, nothing faulting, the three arguments unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c main_arg0).trans (after_below 3 ops (launchContents m c) ops_from main_arg0 (by decide)),
     (h c main_arg1).trans (after_below 3 ops (launchContents m c) ops_from main_arg1 (by decide)),
     (h c main_arg2).trans (after_below 3 ops (launchContents m c) ops_from main_arg2 (by decide))⟩) (run_line m ρ)

end Cert.ReferenceIdeal.Line

end
-- ==== Proof.Spec.lean ====
/-
  What both programs compute, as functions of the three argument arrays over the extended reals.

  For rows i, j of q (8192 rows of 256 entries): the squared norm sq i, the Gram entry g i j, and the squared distance
  d2 i j = sq i + sq j - 2 g i j.  Row j is a positive of row i when their labels agree; it is an intra-camera positive
  when their cameras agree too, an inter-camera positive otherwise.

  THE KERNEL'S ORDER: mask the squared distances to the sentinel NEG, take the maximum over all columns starting from
  NEG, and only then clip from below by EPS and take the square root — but only if the maximum rose above THR, half the
  sentinel; otherwise 1 for the intra-camera result, and the intra-camera result for the inter-camera one.
  THE REFERENCE'S ORDER: clip and take the square root of every squared distance, mask those to NEG, take the maximum
  over the columns, and fall back (to 1, resp. to the intra-camera result) when the row has no positive of the kind.
  Both end with the same mean of a hinge of the two results.
-/
import Idealize.ShloMosaic.PureOps.Ideal
import Idealize.ShloMosaic.Lib.ValueIdx

noncomputable section

namespace Cert.Spec

open Idealize.ShloMosaic Idealize.ShloMosaic.ValueIdx

/-- The shapes of the arguments: q, and the two id vectors. -/
abbrev SQ : Shape := ⟨2, ![8192, 256]⟩
abbrev SV : Shape := ⟨1, ![8192]⟩
abbrev S0 : Shape := ⟨0, ![]⟩

/-! ## The literal words, as both programs print them -/

/-- The sentinel for masked entries, `-1e30` as an f32 word. -/
abbrev NEG : EReal := Ideal.ofBits .f32 0xF149F2CA#32
/-- The threshold the kernel compares a maximum with, `-5e29` as an f32 word. -/
abbrev THR : EReal := Ideal.ofBits .f32 0xF0C9F2CA#32
/-- The lower clip of a squared distance, `1e-12` as an f32 word. -/
abbrev EPS : EReal := Ideal.ofBits .f32 0x2B8CBCCC#32
/-- `1.0`, `2.0`, `0.0`, the margin `0.1` and the count `8192.0` as f32 words. -/
abbrev ONE : EReal := Ideal.ofBits .f32 0x3F800000#32
abbrev TWO : EReal := Ideal.ofBits .f32 0x40000000#32
abbrev ZERO : EReal := Ideal.ofBits .f32 0x00000000#32
abbrev MARGIN : EReal := Ideal.ofBits .f32 0x3DCCCCCD#32
abbrev CNT : EReal := Ideal.ofBits .f32 0x46000000#32

variable (q : SQ.Idx → EReal) (lbl cam : SV.Idx → BitVec 32)

/-! ## Squared distances -/

/-- The squared norm of row `i`, as the host sum computes it: the zero word plus the sum of the squares. -/
def sq (i : Fin 8192) : EReal := ZERO + ∑ k : Fin 256, q (ix2 i k) * q (ix2 i k)
/-- The Gram entry of rows `i` and `j`. -/
def gram (i j : Fin 8192) : EReal := ∑ k : Fin 256, q (ix2 i k) * q (ix2 j k)
/-- The squared distance of rows `i` and `j`. -/
def d2 (i j : Fin 8192) : EReal := (sq q i + sq q j) - TWO * gram q i j

/-- Rows `i` and `j` carry the same label / were taken by the same camera. -/
abbrev sameL (i j : Fin 8192) : Prop := lbl (ix1 i) = lbl (ix1 j)
abbrev sameC (i j : Fin 8192) : Prop := cam (ix1 i) = cam (ix1 j)

/-! ## The kernel's order: maximize the masked squared distances, then clip and take the root -/

/-- The squared distance where `j` is an intra-camera positive of `i`, the sentinel elsewhere. -/
def mI (i j : Fin 8192) : EReal := if sameC cam i j then (if sameL lbl i j then d2 q i j else NEG) else NEG
/-- The same for inter-camera positives. -/
def mE (i j : Fin 8192) : EReal := if sameC cam i j then NEG else (if sameL lbl i j then d2 q i j else NEG)
/-- The running maximum after the whole sweep: from the sentinel, over all columns. -/
def KI (i : Fin 8192) : EReal := max NEG (Finset.univ.sup (mI q lbl cam i))
def KE (i : Fin 8192) : EReal := max NEG (Finset.univ.sup (mE q lbl cam i))
/-- The kernel's intra-camera result: the root of the clipped maximum if it rose above the threshold, else 1. -/
def hI (i : Fin 8192) : EReal :=
  if Ideal.cmp .ogt (KI q lbl cam i) THR = 1#1 then Ideal.sqrt (max EPS (KI q lbl cam i)) else ONE
/-- Its inter-camera result: likewise, falling back to the intra-camera result. -/
def hE (i : Fin 8192) : EReal :=
  if Ideal.cmp .ogt (KE q lbl cam i) THR = 1#1 then Ideal.sqrt (max EPS (KE q lbl cam i)) else hI q lbl cam i

/-! ## The reference's order: clip and take the root of every squared distance, then maximize -/

/-- The distance of rows `i` and `j`: the root of the clipped squared distance. -/
def dist (i j : Fin 8192) : EReal := Ideal.sqrt (max EPS (d2 q i j))
/-- The distance where `j` is an intra-camera positive of `i`, the sentinel elsewhere; its maximum over the columns
    (from `-∞`, which a supremum starts at); whether the row has such a positive. -/
def rI (i : Fin 8192) : EReal := Finset.univ.sup fun j => if sameL lbl i j ∧ sameC cam i j then dist q i j else NEG
def anyI (i : Fin 8192) : Prop := ∃ j, sameL lbl i j ∧ sameC cam i j
/-- The same for inter-camera positives. -/
def rE (i : Fin 8192) : EReal := Finset.univ.sup fun j => if sameL lbl i j ∧ ¬sameC cam i j then dist q i j else NEG
def anyE (i : Fin 8192) : Prop := ∃ j, sameL lbl i j ∧ ¬sameC cam i j
open Classical in
/-- The reference's intra-camera result, -/
def pI (i : Fin 8192) : EReal := if anyI lbl cam i then rI q lbl cam i else ONE
open Classical in
/-- and its inter-camera result. -/
def pE (i : Fin 8192) : EReal := if anyE lbl cam i then rE q lbl cam i else pI q lbl cam i

/-! ## The common end: the mean of the hinge -/

/-- From the two results per row: the mean over the 8192 rows of `max 0 (-(intra - inter) + margin)`, as the host
    computes it (the zero word plus the sum, divided by the count). -/
def loss (a b : Fin 8192 → EReal) : EReal :=
  Ideal.div (ZERO + ∑ i : Fin 8192, max ZERO (-(a i - b i) + MARGIN)) CNT

/-- The kernel's result, as a rank-0 array. -/
def kernelResult : S0.Idx → EReal := fun _ => loss (hI q lbl cam) (hE q lbl cam)
/-- The reference's. -/
def referenceResult : S0.Idx → EReal := fun _ => loss (pI q lbl cam) (pE q lbl cam)

end Cert.Spec

end
-- ==== Proof.Pieces.lean ====
/-
  What the found stores amount to.  In each case the stores into a buffer are whole-buffer stores, so what the buffer
  holds afterwards is the last store's value; a read of a buffer stored earlier in the same run reads that store's value.
  So: in the middle of a sweep each running maximum becomes `max (old, this tile's row maxima)`; at the first column
  block `old` is the sentinel block just stored; at the last, the two results are computed from the two new maxima.
-/
import proofs.«167525_j15710990369518_2_alg».proof.Proof.Sound
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- In the middle of a sweep the first maximum becomes the old one maxed with this tile's intra-camera row maxima. -/
theorem mid_max0 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : ¬atFirst i) (hL : ¬atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) (xs0 xs1 : Vec F S2048x1 .f32) :
    left (runMid c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).1
      = k0_pay1 (k0_pay7 x8 x9) (k0_pay8 x2 x3 x4 x5 x6 x7) (Scalar.ofBits .f32 0xF149F2CA#32) xs0 := by
  unfold left
  rw [View.read_writes_eq_canon _ _ _ (coverMid0 c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1)]
  unfold runMid
  dsimp only
  sl_unfold_words
  simp only [View.canon_unit_zero (S := S2048x1) hz, View.canon_cons_unit_zero (S := S2048x1) hz, View.readCov_unit_zero (S := S2048x1) _ hz,
    View.readAt_eq_ld, harg2.read_unread, harg3.read_unread, harg4.read_unread, harg5.read_unread, harg6.read_unread, harg7.read_unread,
    harg8.read_unread, harg9.read_unread, harg12.read_unread, harg13.read_unread,
    View.ld_unit_zero (S := S2048x1) hz, View.ld_unit_zero (S := S1x512) hz, View.ld_unit_zero (S := S2048x256) hz, View.ld_unit_zero (S := S512x256) hz]

/-- Likewise the second, with the inter-camera row maxima. -/
theorem mid_max1 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : ¬atFirst i) (hL : ¬atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) (xs0 xs1 : Vec F S2048x1 .f32) :
    left (runMid c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).2.1
      = k0_pay2 (k0_pay7 x8 x9) (k0_pay8 x2 x3 x4 x5 x6 x7) xs1 := by
  unfold left
  rw [View.read_writes_eq_canon _ _ _ (coverMid1 c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1)]
  unfold runMid
  dsimp only
  sl_unfold_words
  simp only [View.canon_unit_zero (S := S2048x1) hz, View.canon_cons_unit_zero (S := S2048x1) hz, View.readCov_unit_zero (S := S2048x1) _ hz,
    View.readAt_eq_ld, harg2.read_unread, harg3.read_unread, harg4.read_unread, harg5.read_unread, harg6.read_unread, harg7.read_unread,
    harg8.read_unread, harg9.read_unread, harg12.read_unread, harg13.read_unread,
    View.ld_unit_zero (S := S2048x1) hz, View.ld_unit_zero (S := S1x512) hz, View.ld_unit_zero (S := S2048x256) hz, View.ld_unit_zero (S := S512x256) hz]

/-- At the first column block the old maximum is the sentinel block stored just before. -/
theorem first_max0 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : atFirst i) (hL : ¬atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) :
    left (runFirst c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9).1
      = k0_pay1 (k0_pay7 x8 x9) (k0_pay8 x2 x3 x4 x5 x6 x7) (Scalar.ofBits .f32 0xF149F2CA#32) (k0_pay5 (F := F)) := by
  unfold left
  rw [View.read_writes_eq_canon _ _ _ (coverFirst0 c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9)]
  unfold runFirst
  dsimp only
  sl_unfold_words
  simp only [View.canon_unit_zero (S := S2048x1) hz, View.canon_cons_unit_zero (S := S2048x1) hz, View.readCov_unit_zero (S := S2048x1) _ hz,
    View.readAt_eq_ld, harg2.read_unread, harg3.read_unread, harg4.read_unread, harg5.read_unread, harg6.read_unread, harg7.read_unread,
    harg8.read_unread, harg9.read_unread, harg12.read_unread, harg13.read_unread,
    View.ld_unit_zero (S := S2048x1) hz, View.ld_unit_zero (S := S1x512) hz, View.ld_unit_zero (S := S2048x256) hz, View.ld_unit_zero (S := S512x256) hz]

/-- Likewise the second. -/
theorem first_max1 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : atFirst i) (hL : ¬atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) :
    left (runFirst c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9).2.1
      = k0_pay2 (k0_pay7 x8 x9) (k0_pay8 x2 x3 x4 x5 x6 x7) (k0_pay6 (F := F)) := by
  unfold left
  rw [View.read_writes_eq_canon _ _ _ (coverFirst1 c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9)]
  unfold runFirst
  dsimp only
  sl_unfold_words
  simp only [View.canon_unit_zero (S := S2048x1) hz, View.canon_cons_unit_zero (S := S2048x1) hz, View.readCov_unit_zero (S := S2048x1) _ hz,
    View.readAt_eq_ld, harg2.read_unread, harg3.read_unread, harg4.read_unread, harg5.read_unread, harg6.read_unread, harg7.read_unread,
    harg8.read_unread, harg9.read_unread, harg12.read_unread, harg13.read_unread,
    View.ld_unit_zero (S := S2048x1) hz, View.ld_unit_zero (S := S1x512) hz, View.ld_unit_zero (S := S2048x256) hz, View.ld_unit_zero (S := S512x256) hz]

/-- At the last column block the maxima are brought up to date as in the middle; -/
theorem last_max0 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : ¬atFirst i) (hL : atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) (xs0 xs1 : Vec F S2048x1 .f32) :
    left (runLast c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).2.2.1
      = k0_pay1 (k0_pay7 x8 x9) (k0_pay8 x2 x3 x4 x5 x6 x7) (Scalar.ofBits .f32 0xF149F2CA#32) xs0 := by
  unfold left
  rw [View.read_writes_eq_canon _ _ _ (coverLast0 c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1)]
  unfold runLast
  dsimp only
  sl_unfold_words
  simp only [View.canon_unit_zero (S := S2048x1) hz, View.canon_cons_unit_zero (S := S2048x1) hz, View.readCov_unit_zero (S := S2048x1) _ hz,
    View.readAt_eq_ld, harg2.read_unread, harg3.read_unread, harg4.read_unread, harg5.read_unread, harg6.read_unread, harg7.read_unread,
    harg8.read_unread, harg9.read_unread, harg12.read_unread, harg13.read_unread,
    View.ld_unit_zero (S := S2048x1) hz, View.ld_unit_zero (S := S1x512) hz, View.ld_unit_zero (S := S2048x256) hz, View.ld_unit_zero (S := S512x256) hz]

/-- both of them; -/
theorem last_max1 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : ¬atFirst i) (hL : atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) (xs0 xs1 : Vec F S2048x1 .f32) :
    left (runLast c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).2.2.2.1
      = k0_pay2 (k0_pay7 x8 x9) (k0_pay8 x2 x3 x4 x5 x6 x7) xs1 := by
  unfold left
  rw [View.read_writes_eq_canon _ _ _ (coverLast1 c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1)]
  unfold runLast
  dsimp only
  sl_unfold_words
  simp only [View.canon_unit_zero (S := S2048x1) hz, View.canon_cons_unit_zero (S := S2048x1) hz, View.readCov_unit_zero (S := S2048x1) _ hz,
    View.readAt_eq_ld, harg2.read_unread, harg3.read_unread, harg4.read_unread, harg5.read_unread, harg6.read_unread, harg7.read_unread,
    harg8.read_unread, harg9.read_unread, harg12.read_unread, harg13.read_unread,
    View.ld_unit_zero (S := S2048x1) hz, View.ld_unit_zero (S := S1x512) hz, View.ld_unit_zero (S := S2048x256) hz, View.ld_unit_zero (S := S512x256) hz]

/-- and the first result is computed from the new first maximum, -/
theorem last_res0 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : ¬atFirst i) (hL : atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) (xs0 xs1 : Vec F S2048x1 .f32) :
    left (runLast c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).1
      = k0_pay3 (k0_pay1 (k0_pay7 x8 x9) (k0_pay8 x2 x3 x4 x5 x6 x7) (Scalar.ofBits .f32 0xF149F2CA#32) xs0) (k0_pay1 (k0_pay7 x8 x9) (k0_pay8 x2 x3 x4 x5 x6 x7) (Scalar.ofBits .f32 0xF149F2CA#32) xs0) := by
  unfold left
  rw [View.read_writes_eq_canon _ _ _ (coverLastO0 c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1)]
  unfold runLast
  dsimp only
  sl_unfold_words
  simp only [View.canon_unit_zero (S := S2048x1) hz, View.canon_cons_unit_zero (S := S2048x1) hz, View.readCov_unit_zero (S := S2048x1) _ hz,
    View.readAt_eq_ld, harg2.read_unread, harg3.read_unread, harg4.read_unread, harg5.read_unread, harg6.read_unread, harg7.read_unread,
    harg8.read_unread, harg9.read_unread, harg12.read_unread, harg13.read_unread,
    View.ld_unit_zero (S := S2048x1) hz, View.ld_unit_zero (S := S1x512) hz, View.ld_unit_zero (S := S2048x256) hz, View.ld_unit_zero (S := S512x256) hz]

/-- the second from both new maxima. -/
theorem last_res1 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .i32) (harg8 : arg8.IsWhole) (arg9 : Memref sig .tc .vmem S1x512 .i32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hF : ¬atFirst i) (hL : atLast i)
    (x2 : Vec F S2048x256 .bf16) (x3 : Vec F S512x256 .bf16) (x4 : Vec F S2048x1 .f32) (x5 : Vec F S1x512 .f32) (x6 : Vec F S2048x1 .i32) (x7 : Vec F S1x512 .i32) (x8 : Vec F S2048x1 .i32) (x9 : Vec F S1x512 .i32) (xs0 xs1 : Vec F S2048x1 .f32) :
    left (runLast c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1).2.1
      = k0_pay4 (k0_pay1 (k0_pay7 x8 x9) (k0_pay8 x2 x3 x4 x5 x6 x7) (Scalar.ofBits .f32 0xF149F2CA#32) xs0) (k0_pay2 (k0_pay7 x8 x9) (k0_pay8 x2 x3 x4 x5 x6 x7) xs1) (k0_pay1 (k0_pay7 x8 x9) (k0_pay8 x2 x3 x4 x5 x6 x7) (Scalar.ofBits .f32 0xF149F2CA#32) xs0) (k0_pay2 (k0_pay7 x8 x9) (k0_pay8 x2 x3 x4 x5 x6 x7) xs1) := by
  unfold left
  rw [View.read_writes_eq_canon _ _ _ (coverLastO1 c i arg2 harg2 arg3 harg3 arg4 harg4 arg5 harg5 arg6 harg6 arg7 harg7 arg8 harg8 arg9 harg9 arg10 harg10 arg11 harg11 arg12 harg12 arg13 harg13 hF hL x2 x3 x4 x5 x6 x7 x8 x9 xs0 xs1)]
  unfold runLast
  dsimp only
  sl_unfold_words
  simp only [View.canon_unit_zero (S := S2048x1) hz, View.canon_cons_unit_zero (S := S2048x1) hz, View.readCov_unit_zero (S := S2048x1) _ hz,
    View.readAt_eq_ld, harg2.read_unread, harg3.read_unread, harg4.read_unread, harg5.read_unread, harg6.read_unread, harg7.read_unread,
    harg8.read_unread, harg9.read_unread, harg12.read_unread, harg13.read_unread,
    View.ld_unit_zero (S := S2048x1) hz, View.ld_unit_zero (S := S1x512) hz, View.ld_unit_zero (S := S2048x256) hz, View.ld_unit_zero (S := S512x256) hz]

end Cert.KernelIdeal.Body

end
-- ==== Proof.Sweep.lean ====
/-
  The sweep in closed form.  After every grid point the two scratch buffers hold: at a first column block, the sentinel
  block maxed with the tile's row maxima; at any other, what the point before left, maxed with the tile's row maxima.
  After a last column block the two result buffers hold the finishing expressions of those two maxima.  (By induction
  on the point, from what the three runs' stores amount to.)
-/
import proofs.«167525_j15710990369518_2_alg».proof.Proof.Pieces

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The tile at point `t`: where the cameras agree, and the squared distances where the labels agree (the sentinel
    elsewhere), of the point's row block against its column block. -/
abbrev camTile (c : Dev nD) (t : Fin cfg0.N) : IVec S2048x512 1 := k0_pay7 (iblk m c 6 t) (iblk m c 7 t)
abbrev posTile (c : Dev nD) (t : Fin cfg0.N) : FVec F S2048x512 .f32 :=
  k0_pay8 (iblk m c 0 t) (iblk m c 1 t) (iblk m c 2 t) (iblk m c 3 t) (iblk m c 4 t) (iblk m c 5 t)

/-- One update of the two maxima by the tile at `t`. -/
abbrev upd (c : Dev nD) (t : Fin cfg0.N) (s : Vec F S2048x1 .f32 × Vec F S2048x1 .f32) : Vec F S2048x1 .f32 × Vec F S2048x1 .f32 :=
  (k0_pay1 (camTile m c t) (posTile m c t) (Scalar.ofBits .f32 0xF149F2CA#32) s.1, k0_pay2 (camTile m c t) (posTile m c t) s.2)

/-- The two maxima after point `n`. -/
def maxes (c : Dev nD) : (n : ℕ) → n < cfg0.N → Vec F S2048x1 .f32 × Vec F S2048x1 .f32
  | 0, h => upd m c ⟨0, h⟩ (k0_pay5 (F := F), k0_pay6 (F := F))
  | n + 1, h =>
    if (n + 1) % 16 = 0 then upd m c ⟨n + 1, h⟩ (k0_pay5 (F := F), k0_pay6 (F := F))
    else upd m c ⟨n + 1, h⟩ (maxes c n (Nat.lt_of_succ_lt h))

theorem maxes_first (c : Dev nD) (t : Fin cfg0.N) (h0 : t.val % 16 = 0) :
    maxes m c t.val t.isLt = upd m c t (k0_pay5 (F := F), k0_pay6 (F := F)) := by
  obtain ⟨n, hn⟩ := t
  cases n with
  | zero => rfl
  | succ n => exact if_pos h0

theorem maxes_next (c : Dev nD) (t : Fin cfg0.N) (h0 : ¬t.val % 16 = 0) :
    maxes m c t.val t.isLt = upd m c t (maxes m c (t.val - 1) (Nat.lt_of_le_of_lt (Nat.sub_le _ _) t.isLt)) := by
  obtain ⟨n, hn⟩ := t
  cases n with
  | zero => exact absurd (Nat.zero_mod _) h0
  | succ n => exact if_neg h0

set_option maxHeartbeats 4000000 in
/-- What the scratch buffers hold after point `n` is the closed form. -/
theorem outsAt_maxes (c : Dev nD) : ∀ (n : ℕ) (h : n < cfg0.N),
    (outsAt m c n h).2.2.1 = (maxes m c n h).1 ∧ (outsAt m c n h).2.2.2 = (maxes m c n h).2
  | 0, h => by
    unfold outsAt maxes stepFirst
    dsimp only
    rw [first_max0, first_max1]
    exact ⟨rfl, rfl⟩
  | n + 1, h => by
    obtain ⟨ih0, ih1⟩ := outsAt_maxes c n (Nat.lt_of_succ_lt h)
    unfold outsAt maxes
    by_cases h0 : (n + 1) % 16 = 0
    · rw [dif_pos h0, if_pos h0]
      unfold stepFirst
      dsimp only
      rw [first_max0, first_max1]
      exact ⟨rfl, rfl⟩
    · rw [dif_neg h0, if_neg h0]
      by_cases h1 : (n + 1) % 16 = 15
      · rw [dif_pos h1]
        unfold stepLast
        dsimp only
        rw [last_max0, last_max1, ih0, ih1]
        exact ⟨rfl, rfl⟩
      · rw [dif_neg h1]
        unfold stepMid
        dsimp only
        rw [mid_max0, mid_max1, ih0, ih1]
        exact ⟨rfl, rfl⟩

set_option maxHeartbeats 4000000 in
/-- After a last column block the two result buffers hold the finishing expressions of that point's two maxima. -/
theorem outsAt_results (c : Dev nD) (t : Fin cfg0.N) (h1 : t.val % 16 = 15) :
    (outsAt m c t.val t.isLt).1 = k0_pay3 (maxes m c t.val t.isLt).1 (maxes m c t.val t.isLt).1
    ∧ (outsAt m c t.val t.isLt).2.1
        = k0_pay4 (maxes m c t.val t.isLt).1 (maxes m c t.val t.isLt).2 (maxes m c t.val t.isLt).1 (maxes m c t.val t.isLt).2 := by
  have h0 : ¬t.val % 16 = 0 := by omega
  have hp := outsAt_maxes m c (t.val - 1) (Nat.lt_of_le_of_lt (Nat.sub_le _ _) t.isLt)
  rw [outsAt_last m c t h0 h1, maxes_next m c t h0]
  unfold stepLast
  dsimp only
  rw [last_res0, last_res1, hp.1, hp.2]
  exact ⟨rfl, rfl⟩

end Cert.KernelIdeal.Body

end
-- ==== Proof.LibContract.lean ====
/-
  A matrix unit's product over ONE contracted axis, read at an output position.

  At the exact instance a product into a zero accumulator is the sum, over the contraction's index type, of
  the products of the operands at the positions the dimension record assigns. When the contraction has one
  axis of extent `K`, that index type is `Fin K` up to a bijection, and the sum can be written over `Fin K`
  with the two operand positions named as functions of `k` — whatever axes the record contracts.
-/
import Idealize.ShloMosaic.Lib.ValueIdx
import Idealize.ShloMosaic.PureOps.Ideal.Laws

noncomputable section

namespace Cert.LibContract

open Idealize.ShloMosaic Idealize.ShloMosaic.ValueIdx

/-- A product into the zero accumulator, contracted over one axis of extent `K`, at the output position `j`:
    the sum over `k : Fin K` of the left operand at `li k` times the right operand at `ri k`, where `li`, `ri` are
    the positions the dimension record gives for the `k`-th contracted coordinate. -/
theorem matmul_zero_entry {sl sr so : Shape} {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (li : Fin K → sl.Idx) (ri : Fin K → sr.Idx)
    (hl : ∀ k, d.lhsIdx j ((contrEquiv1 d K hr hs).symm k) = li k)
    (hr' : ∀ k, d.rhsIdx j ((contrEquiv1 d K hr hs).symm k) = ri k) :
    FloatOps.matmul d prec l r (constant (F := Ideal) so .f32 0x00000000#32) j = ∑ k : Fin K, l (li k) * r (ri k) := by
  rw [Ideal.matmul_constant_zero_apply, ← Equiv.sum_comp (contrEquiv1 d K hr hs).symm]
  exact Finset.sum_congr rfl fun k _ => by rw [hl k, hr' k]

end Cert.LibContract

end
-- ==== Proof.LibKeepdims.lean ====
/-
  The two layout steps of a sum that keeps its axis (`jnp.sum(…, axis=1, keepdims=True)`), read at an index:
  a vector of row statistics `[a]` cast to a column `[a, 1]`, and that column broadcast along the rows to
  `[a, b]`. In row-major order the entry (i, 0) of an `[a, 1]` array is entry i of the `[a]` array, and a
  broadcast reads the operand's unit axis at 0 and its full axis at the result's coordinate. General in the
  extents; they complement the leading-unit-axis casts and the row broadcast `[1, b] → [a, b]` of the library.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.PayIdeal.lean ====
/-
  The body's arithmetic read entry by entry over the extended reals.  A tile has 2048 rows (the row block) and 512
  columns (the column block).  Its camera mask at (r, k) compares the row's camera with the column's; its positive
  squared distances at (r, k) are |q_r|² + |q_k|² - 2 q_r·q_k where the labels agree and the sentinel elsewhere (the
  Gram entry a sum over the 256 features: the matrix unit's product into a zero accumulator); a running maximum at row r
  becomes the larger of itself and the supremum over the 512 columns of the masked tile (a lane maximum from -∞ is a
  supremum); a result at row r is the root of the clipped maximum where it exceeds the threshold.
-/
import proofs.«167525_j15710990369518_2_alg».proof.Proof.Gen.KernelIdeal.Skeleton
import proofs.«167525_j15710990369518_2_alg».proof.Proof.LibContract
import proofs.«167525_j15710990369518_2_alg».proof.Proof.LibKeepdims
import Idealize.ShloMosaic.Lib.ValueLayout
import Idealize.ShloMosaic.Lib.ValueIdx
import Idealize.ShloMosaic.Lib.Pipeline.Value
import Idealize.ShloMosaic.PureOps.Ideal.Laws
import Idealize.ShloMosaic.Lib.Affine

set_option maxRecDepth 16384

noncomputable section

namespace Cert.KernelIdeal.Pay

open Cert.KernelIdeal Cert.KernelIdeal.Gen Idealize.ShloMosaic Idealize.ShloMosaic.ValueIdx

/-- The word of -∞ denotes the bottom element. -/
theorem ofBits_ninf : Ideal.ofBits .f32 0xFF800000#32 = (⊥ : EReal) := by simp [Ideal.ofBits, Ideal.ieee]

/-- Inserting column `k` into row `r` of a 2048 x 512 tile. -/
theorem lift_row (r : Fin 2048) (k : Fin 512) :
    (reduces_S2048x512_S2048 : S2048x512.Reduces [1] S2048).lift (ix1 r) k = ix2 r k := by
  funext a
  apply Fin.ext
  match a with
  | ⟨0, _⟩ => rfl
  | ⟨1, _⟩ => rfl

/-- The camera mask of a tile at (r, k). -/
theorem cam_apply (x8 : Vec Ideal S2048x1 .i32) (x9 : Vec Ideal S1x512 .i32) (r : Fin 2048) (k : Fin 512) :
    k0_pay7 (F := Ideal) x8 x9 (ix2 r k) = IntOp.cmpi .eq (x8 (ix2 r (0 : Fin 1))) (x9 (ix2 (0 : Fin 1) k)) := by
  unfold k0_pay7
  (try dsimp only)
  simp only [shapeCast_self]
  show IntOp.cmpi .eq (broadcastTo S2048x512 x8 _ (ix2 r k)) (broadcastTo S2048x512 x9 _ (ix2 r k)) = _
  rw [Cert.LibKeepdims.broadcastTo_a1_ab_apply, broadcastTo_1b_ab_apply]

/-- The record of the tile's product contracts one axis, of extent 256. -/
theorem dot_rank : dot_S2048x256_S256x512_S2048x512_1_0_0_1_n_n.contr.rank = 1 := by decide
theorem dot_size : dot_S2048x256_S256x512_S2048x512_1_0_0_1_n_n.contr.size ⟨0, by decide⟩ = 256 := by decide

/-- The left operand's row is the output's row; its column the contracted coordinate. -/
theorem lhs_row (j : S2048x512.Idx) (p : dot_S2048x256_S256x512_S2048x512_1_0_0_1_n_n.contr.Idx) : (dot_S2048x256_S256x512_S2048x512_1_0_0_1_n_n.lhsIdx j p 0).val = (j 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
theorem lhs_col (j : S2048x512.Idx) (p : dot_S2048x256_S256x512_S2048x512_1_0_0_1_n_n.contr.Idx) : (dot_S2048x256_S256x512_S2048x512_1_0_0_1_n_n.lhsIdx j p 1).val = (p ⟨0, by decide⟩).val :=
  dot_S2048x256_S256x512_S2048x512_1_0_0_1_n_n.lhsIdx_val_of_single rfl j p
/-- The right operand's column is the output's column; its row the contracted coordinate. -/
theorem rhs_row (j : S2048x512.Idx) (p : dot_S2048x256_S256x512_S2048x512_1_0_0_1_n_n.contr.Idx) : (dot_S2048x256_S256x512_S2048x512_1_0_0_1_n_n.rhsIdx j p 0).val = (p ⟨0, by decide⟩).val :=
  dot_S2048x256_S256x512_S2048x512_1_0_0_1_n_n.rhsIdx_val_of_single rfl j p
theorem rhs_col (j : S2048x512.Idx) (p : dot_S2048x256_S256x512_S2048x512_1_0_0_1_n_n.contr.Idx) : (dot_S2048x256_S256x512_S2048x512_1_0_0_1_n_n.rhsIdx j p 1).val = (j 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

/-- The Gram entry of row r of the row block with row k of the column block. -/
theorem gram_apply (x2 : FVec Ideal S2048x256 .bf16) (x3 : FVec Ideal S512x256 .bf16) (r : Fin 2048) (k : Fin 512) :
    FloatOps.matmul dot_S2048x256_S256x512_S2048x512_1_0_0_1_n_n none x2
        (transpose S256x512 [1, 0] x3 transposes_S512x256_p1_0_S256x512) (constant (F := Ideal) S2048x512 .f32 0x00000000#32) (ix2 r k)
      = ∑ d : Fin 256, x2 (ix2 r d) * x3 (ix2 k d) := by
  rw [Cert.LibContract.matmul_zero_entry dot_S2048x256_S256x512_S2048x512_1_0_0_1_n_n none 256 dot_rank dot_size x2 _ (ix2 r k)
    (fun d => ix2 r d) (fun d => ix2 d k) ?_ ?_]
  · exact Finset.sum_congr rfl fun d _ => by rw [transpose_ix2_apply]
  · intro d
    have hk := contrEquiv1_symm_val dot_S2048x256_S256x512_S2048x512_1_0_0_1_n_n 256 dot_rank dot_size d
    funext a
    apply Fin.ext
    match a with
    | ⟨0, _⟩ => exact lhs_row _ _
    | ⟨1, _⟩ => exact (lhs_col _ _).trans hk
  · intro d
    have hk := contrEquiv1_symm_val dot_S2048x256_S256x512_S2048x512_1_0_0_1_n_n 256 dot_rank dot_size d
    funext a
    apply Fin.ext
    match a with
    | ⟨0, _⟩ => exact (rhs_row _ _).trans hk
    | ⟨1, _⟩ => exact rhs_col _ _

/-- The positive squared distances of a tile at (r, k). -/
theorem pos_apply (x2 : Vec Ideal S2048x256 .bf16) (x3 : Vec Ideal S512x256 .bf16) (x4 : Vec Ideal S2048x1 .f32) (x5 : Vec Ideal S1x512 .f32)
    (x6 : Vec Ideal S2048x1 .i32) (x7 : Vec Ideal S1x512 .i32) (r : Fin 2048) (k : Fin 512) :
    k0_pay8 (F := Ideal) x2 x3 x4 x5 x6 x7 (ix2 r k)
      = if x6 (ix2 r (0 : Fin 1)) = x7 (ix2 (0 : Fin 1) k)
        then (x4 (ix2 r (0 : Fin 1)) + x5 (ix2 (0 : Fin 1) k)) - Ideal.ofBits .f32 0x40000000#32 * ∑ d : Fin 256, x2 (ix2 r d) * x3 (ix2 k d)
        else Ideal.ofBits .f32 0xF149F2CA#32 := by
  unfold k0_pay8
  (try dsimp only)
  simp only [shapeCast_self]
  rw [select_apply]
  unfold Scalar.select
  refine if_congr ?_ ?_ ?_
  · show IntOp.cmpi .eq (broadcastTo S2048x512 x6 broadcasts_S2048x1_S2048x512 (ix2 r k)) (broadcastTo S2048x512 x7 broadcasts_S1x512_S2048x512 (ix2 r k)) = 1#1 ↔ _
    rw [Cert.LibKeepdims.broadcastTo_a1_ab_apply, broadcastTo_1b_ab_apply]
    exact IntOp.cmpi_eq
  · rw [subf_apply, addf_apply, mulf_apply, broadcast_apply, Cert.LibKeepdims.broadcastTo_a1_ab_apply, broadcastTo_1b_ab_apply]
    show _ - _ * FloatOps.matmul dot_S2048x256_S256x512_S2048x512_1_0_0_1_n_n none x2 (transpose S256x512 [1, 0] x3 transposes_S512x256_p1_0_S256x512) (constant (F := Ideal) S2048x512 .f32 0x00000000#32) (ix2 r k) = _
    rw [gram_apply]
    rfl
  · rfl

/-- One update of a running maximum at row r, with the masked tile given entry by entry. -/
theorem rowmax_apply (t : FVec Ideal S2048x512 .f32) (v43 : Vec Ideal S2048x1 .f32) (r : Fin 2048) :
    maximumf v43 (shapeCast S2048x1 (multiReduction .maximumf [1] S2048 t 0xFF800000#32 reduces_S2048x512_S2048 (.inl rfl) rfl) shapeCasts_S2048_S2048x1)
        (ix2 r (0 : Fin 1))
      = max (v43 (ix2 r (0 : Fin 1))) (Finset.univ.sup fun k : Fin 512 => t (ix2 r k)) := by
  rw [maximumf_apply, Cert.LibKeepdims.shapeCast_a_a1_apply]
  refine congrArg (max (v43 (ix2 r (0 : Fin 1)))) ?_
  refine (Ideal.multiReduction_maximumf_single t 0xFF800000#32 reduces_S2048x512_S2048 (.inl rfl) rfl (ix1 r)).trans ?_
  have e : (FloatOps.ofBits (F := Ideal) .f32 0xFF800000#32) = (⊥ : EReal) := ofBits_ninf
  rw [e]
  have hk : ∀ k : Fin 512, (t ∘ (reduces_S2048x512_S2048 : S2048x512.Reduces [1] S2048).lift (ix1 r)) k = t (ix2 r k) := fun k => by
    show t ((reduces_S2048x512_S2048 : S2048x512.Reduces [1] S2048).lift (ix1 r) k) = t (ix2 r k)
    rw [lift_row]
  apply le_antisymm
  · exact (Finset.fold_max_le _).mpr ⟨bot_le, fun k _ => (hk k).le.trans (Finset.le_sup (f := fun k : Fin 512 => t (ix2 r k)) (Finset.mem_univ k))⟩
  · exact Finset.sup_le fun k _ => (Finset.le_fold_max _).mpr (Or.inr ⟨k, Finset.mem_univ k, (hk k).ge⟩)

/-- The intra-camera maximum's update at row r. -/
theorem max0_apply (v32 : IVec S2048x512 1) (v34 : FVec Ideal S2048x512 .f32) (cst : Ideal .f32) (v43 : Vec Ideal S2048x1 .f32) (r : Fin 2048) :
    k0_pay1 (F := Ideal) v32 v34 cst v43 (ix2 r (0 : Fin 1))
      = max (v43 (ix2 r (0 : Fin 1))) (Finset.univ.sup fun k : Fin 512 => if v32 (ix2 r k) = 1 then v34 (ix2 r k) else cst) := by
  unfold k0_pay1
  (try dsimp only)
  simp only [shapeCast_self]
  rw [rowmax_apply]
  rfl

/-- The inter-camera maximum's update at row r. -/
theorem max1_apply (v32 : IVec S2048x512 1) (v34 : FVec Ideal S2048x512 .f32) (v48 : Vec Ideal S2048x1 .f32) (r : Fin 2048) :
    k0_pay2 (F := Ideal) v32 v34 v48 (ix2 r (0 : Fin 1))
      = max (v48 (ix2 r (0 : Fin 1))) (Finset.univ.sup fun k : Fin 512 => if v32 (ix2 r k) = 1 then Ideal.ofBits .f32 0xF149F2CA#32 else v34 (ix2 r k)) := by
  unfold k0_pay2
  (try dsimp only)
  simp only [shapeCast_self]
  rw [rowmax_apply]
  rfl

/-- The sentinel blocks the reset stores. -/
theorem reset0_apply (y : S2048x1.Idx) : k0_pay5 (F := Ideal) y = Ideal.ofBits .f32 0xF149F2CA#32 := by
  unfold k0_pay5; (try dsimp only); simp only [shapeCast_self]; rfl
theorem reset1_apply (y : S2048x1.Idx) : k0_pay6 (F := Ideal) y = Ideal.ofBits .f32 0xF149F2CA#32 := by
  unfold k0_pay6; (try dsimp only); simp only [shapeCast_self]; rfl

/-- The intra-camera result at a row, from the finished maximum. -/
theorem res0_apply (v56 v62 : Vec Ideal S2048x1 .f32) (y : S2048x1.Idx) :
    k0_pay3 (F := Ideal) v56 v62 y
      = if Ideal.cmp .ogt (v56 y) (Ideal.ofBits .f32 0xF0C9F2CA#32) = 1#1
        then Ideal.sqrt (max (Ideal.ofBits .f32 0x2B8CBCCC#32) (v62 y)) else Ideal.ofBits .f32 0x3F800000#32 := by
  unfold k0_pay3
  (try dsimp only)
  rfl

/-- The inter-camera result at a row. -/
theorem res1_apply (v56 v59 v62 v66 : Vec Ideal S2048x1 .f32) (y : S2048x1.Idx) :
    k0_pay4 (F := Ideal) v56 v59 v62 v66 y
      = if Ideal.cmp .ogt (v59 y) (Ideal.ofBits .f32 0xF0C9F2CA#32) = 1#1
        then Ideal.sqrt (max (Ideal.ofBits .f32 0x2B8CBCCC#32) (v66 y)) else k0_pay3 (F := Ideal) v56 v62 y := by
  unfold k0_pay4
  (try dsimp only)
  rfl

end Cert.KernelIdeal.Pay

end
-- ==== Proof.HostArrays.lean ====
/-
  What the call is handed.  The ten host operations before the call prepare seven arrays from the three arguments:
  q itself (the cast to bf16 is the identity over the extended reals), the column and the row of squared row norms
  (each the zero word plus the sum of a row's squares), and the labels and the cameras as a column and as a row.
  Each array is read here at an index, in terms of the arguments.
-/
import proofs.«167525_j15710990369518_2_alg».proof.Proof.Region
import proofs.«167525_j15710990369518_2_alg».proof.Proof.LibKeepdims
import proofs.«167525_j15710990369518_2_alg».proof.Proof.Spec
import Idealize.ShloMosaic.Lib.ValueLayout
import Idealize.ShloMosaic.Lib.ValueIdx
import Idealize.ShloMosaic.Lib.IdealHost
import Idealize.ShloMosaic.Lib.Pipeline.Value
import Idealize.ShloMosaic.PureOps.Ideal.Laws

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL.Sem

variable (W : Valuation τ sig (Elt Ideal))

/-- The three arguments as arrays. -/
abbrev argQ : FVec Ideal S8192x256 .f32 := W (Proc.devRef .tc main_arg0)
abbrev argL : IVec S8192 32 := W (Proc.devRef .tc main_arg1)
abbrev argC : IVec S8192 32 := W (Proc.devRef .tc main_arg2)

/-! ## The seven arrays as terms of the arguments -/

theorem pre_q : (StableHlo.after (hostOps0 (F := Ideal)) W (Proc.devRef .tc main_v8) : FVec Ideal S8192x256 .bf16)
    = truncf .bf16 (argQ W) bitsLt_bf16_f32 := by after_results <;> rfl
theorem pre_sqcol : (StableHlo.after (hostOps0 (F := Ideal)) W (Proc.devRef .tc main_v6) : FVec Ideal S8192x1 .f32)
    = broadcastInDim S8192x1 ![0] bcast_S8192_S8192x1_0
        (Host.reduceAdd (mulf (argQ W) (argQ W)) (constant (F := Ideal) S_ .f32 0x00000000#32)
          reducesTo_S8192x256_S8192_d1 h_S_) := by after_results <;> rfl
theorem pre_sqrow : (StableHlo.after (hostOps0 (F := Ideal)) W (Proc.devRef .tc main_v7) : FVec Ideal S1x8192 .f32)
    = shapeCast S1x8192 (broadcastInDim S8192x1 ![0] bcast_S8192_S8192x1_0
        (Host.reduceAdd (mulf (argQ W) (argQ W)) (constant (F := Ideal) S_ .f32 0x00000000#32)
          reducesTo_S8192x256_S8192_d1 h_S_)) shapeCasts_S8192x1_S1x8192 := by after_results <;> rfl
theorem pre_lblcol : (StableHlo.after (hostOps0 (F := Ideal)) W (Proc.devRef .tc main_v0) : IVec S8192x1 32)
    = shapeCast S8192x1 (argL W) shapeCasts_S8192_S8192x1 := by after_results <;> rfl
theorem pre_lblrow : (StableHlo.after (hostOps0 (F := Ideal)) W (Proc.devRef .tc main_v2) : IVec S1x8192 32)
    = shapeCast S1x8192 (shapeCast S8192x1 (argL W) shapeCasts_S8192_S8192x1) shapeCasts_S8192x1_S1x8192 := by
  after_results <;> rfl
theorem pre_camcol : (StableHlo.after (hostOps0 (F := Ideal)) W (Proc.devRef .tc main_v1) : IVec S8192x1 32)
    = shapeCast S8192x1 (argC W) shapeCasts_S8192_S8192x1 := by after_results <;> rfl
theorem pre_camrow : (StableHlo.after (hostOps0 (F := Ideal)) W (Proc.devRef .tc main_v3) : IVec S1x8192 32)
    = shapeCast S1x8192 (shapeCast S8192x1 (argC W) shapeCasts_S8192_S8192x1) shapeCasts_S8192x1_S1x8192 := by
  after_results <;> rfl

/-! ## The layout steps read at an index -/

/-- A column `[8192, 1]` read as a row `[1, 8192]`: the same entries. -/
theorem col_as_row {α : Type} (x : S8192x1.Idx → α) (j : Fin 8192) :
    shapeCast S1x8192 x shapeCasts_S8192x1_S1x8192 (ix2 (0 : Fin 1) j) = x (ix2 j (0 : Fin 1)) :=
  shapeCast_apply x _ _ _ (by
    rw [Shape.rowMajor_val_two, Shape.rowMajor_val_two]
    show j.val * 1 + 0 = 0 * 8192 + j.val
    omega)

/-- A vector `[8192]` cast to the column `[8192, 1]`: entry (i, 0) is the vector's i. -/
theorem vec_as_col {α : Type} (x : S8192.Idx → α) (i : Fin 8192) :
    shapeCast S8192x1 x shapeCasts_S8192_S8192x1 (ix2 i (0 : Fin 1)) = x (ix1 i) :=
  Cert.LibKeepdims.shapeCast_a_a1_apply x _ i 0

/-- A vector `[8192]` broadcast along axis 0 into the column `[8192, 1]`: entry (i, 0) is the vector's i. -/
theorem vec_bcast_col {α : Type} (x : S8192.Idx → α) (i : Fin 8192) :
    broadcastInDim S8192x1 ![0] bcast_S8192_S8192x1_0 x (ix2 i (0 : Fin 1)) = x (ix1 i) :=
  broadcastInDim_apply _ bcast_S8192_S8192x1_0 x (ix2 i (0 : Fin 1)) (ix1 i) (fun a => match a with
    | ⟨0, _⟩ => by show i.val = if (8192 : Nat) = 1 then 0 else i.val; rw [if_neg (by decide)])

/-- A row index with a column inserted is the pair. -/
theorem lift_q (h : S8192x256.Reduces [1] S8192) (i : Fin 8192) (k : Fin 256) : h.lift (ix1 i) k = ix2 i k :=
  funext fun a => Fin.ext (by match a with | ⟨0, _⟩ => rfl | ⟨1, _⟩ => rfl)

/-- The row sums of the squares, from the zero word, are the squared row norms. -/
theorem rows_apply (q : FVec Ideal S8192x256 .f32) (i : Fin 8192) :
    Host.reduceAdd (mulf q q) (constant (F := Ideal) S_ .f32 0x00000000#32) reducesTo_S8192x256_S8192_d1 h_S_ (ix1 i)
      = Cert.Spec.sq q i := by
  unfold Cert.Spec.sq
  rw [hostReduceAdd_apply, Ideal.hostReduceAdd_single reducesTo_S8192x256_S8192_d1 (by decide)]
  refine congrArg₂ (· + ·) rfl (Finset.sum_congr rfl fun k _ => ?_)
  exact congrArg (fun x => q x * q x) (lift_q _ i k)

/-! ## The seven arrays read at an index -/

theorem arr_q (i : Fin 8192) (d : Fin 256) :
    (StableHlo.after (hostOps0 (F := Ideal)) W (Proc.devRef .tc main_v8) : FVec Ideal S8192x256 .bf16) (ix2 i d)
      = argQ W (ix2 i d) := by
  rw [pre_q]; rfl
theorem arr_sqcol (i : Fin 8192) :
    (StableHlo.after (hostOps0 (F := Ideal)) W (Proc.devRef .tc main_v6) : FVec Ideal S8192x1 .f32) (ix2 i (0 : Fin 1))
      = Cert.Spec.sq (argQ W) i := by
  rw [pre_sqcol, vec_bcast_col, rows_apply]
theorem arr_sqrow (j : Fin 8192) :
    (StableHlo.after (hostOps0 (F := Ideal)) W (Proc.devRef .tc main_v7) : FVec Ideal S1x8192 .f32) (ix2 (0 : Fin 1) j)
      = Cert.Spec.sq (argQ W) j := by
  rw [pre_sqrow, col_as_row, vec_bcast_col, rows_apply]
theorem arr_lblcol (i : Fin 8192) :
    (StableHlo.after (hostOps0 (F := Ideal)) W (Proc.devRef .tc main_v0) : IVec S8192x1 32) (ix2 i (0 : Fin 1))
      = argL W (ix1 i) := by
  rw [pre_lblcol, vec_as_col]
theorem arr_lblrow (j : Fin 8192) :
    (StableHlo.after (hostOps0 (F := Ideal)) W (Proc.devRef .tc main_v2) : IVec S1x8192 32) (ix2 (0 : Fin 1) j)
      = argL W (ix1 j) := by
  rw [pre_lblrow, col_as_row, vec_as_col]
theorem arr_camcol (i : Fin 8192) :
    (StableHlo.after (hostOps0 (F := Ideal)) W (Proc.devRef .tc main_v1) : IVec S8192x1 32) (ix2 i (0 : Fin 1))
      = argC W (ix1 i) := by
  rw [pre_camcol, vec_as_col]
theorem arr_camrow (j : Fin 8192) :
    (StableHlo.after (hostOps0 (F := Ideal)) W (Proc.devRef .tc main_v3) : IVec S1x8192 32) (ix2 (0 : Fin 1) j)
      = argC W (ix1 j) := by
  rw [pre_camrow, col_as_row, vec_as_col]

end Cert.KernelIdeal.Body

end
-- ==== Proof.Coords.lean ====
/-
  Which rows of q a grid point works on.  Point t of the 4 x 16 grid has row block t / 16 (2048 rows) and column block
  t % 16 (512 rows of q, serving as columns of the distance matrix).
-/
import proofs.«167525_j15710990369518_2_alg».proof.Proof.Gen.KernelIdeal.Launch

namespace Cert.KernelIdeal.Body

open Cert.KernelIdeal Cert.KernelIdeal.Gen Idealize.ShloMosaic

/-- Row `r` of point `t`'s row block, as a row of q. -/
def rowOf (t : Fin cfg0.N) (r : Fin 2048) : Fin 8192 :=
  ⟨(t.val / 16) * 2048 + r.val, by have := t.isLt; have hN : cfg0.N = 64 := N_0; have := r.isLt; omega⟩

/-- Column `k` of point `t`'s column block, as a row of q. -/
def colOf (t : Fin cfg0.N) (k : Fin 512) : Fin 8192 :=
  ⟨(t.val % 16) * 512 + k.val, by have := k.isLt; omega⟩

end Cert.KernelIdeal.Body
-- ==== Proof.Blocks.lean ====
/-
  What the eight input windows hold at a grid point, entry by entry, in terms of the three arguments.

  Point t of the 4 x 16 grid has row block t / 16 and column block t % 16.  A window's block at t starts, on each axis,
  at its block index times the block's extent; so entry (r, d) of the block of rows is entry (t / 16 * 2048 + r, d) of
  the array, and entry (k, d) of the block of columns is entry (t % 16 * 512 + k, d).  The arrays themselves are the
  seven the host prepares: q, the column and the row of squared row norms, the labels and the cameras as a column and
  as a row.
-/
import proofs.«167525_j15710990369518_2_alg».proof.Proof.HostArrays
import proofs.«167525_j15710990369518_2_alg».proof.Proof.Coords

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL.Sem

/-! ## The block indices, over the 64 points -/

theorem idx0 : ∀ t : Fin grid0.N, win0_0.index t 0 = t.val / 16 ∧ win0_0.index t 1 = 0 := by decide +kernel
theorem idx1 : ∀ t : Fin grid0.N, win0_1.index t 0 = t.val % 16 ∧ win0_1.index t 1 = 0 := by decide +kernel
theorem idx2 : ∀ t : Fin grid0.N, win0_2.index t 0 = t.val / 16 ∧ win0_2.index t 1 = 0 := by decide +kernel
theorem idx3 : ∀ t : Fin grid0.N, win0_3.index t 0 = 0 ∧ win0_3.index t 1 = t.val % 16 := by decide +kernel
theorem idx4 : ∀ t : Fin grid0.N, win0_4.index t 0 = t.val / 16 ∧ win0_4.index t 1 = 0 := by decide +kernel
theorem idx5 : ∀ t : Fin grid0.N, win0_5.index t 0 = 0 ∧ win0_5.index t 1 = t.val % 16 := by decide +kernel
theorem idx6 : ∀ t : Fin grid0.N, win0_6.index t 0 = t.val / 16 ∧ win0_6.index t 1 = 0 := by decide +kernel
theorem idx7 : ∀ t : Fin grid0.N, win0_7.index t 0 = 0 ∧ win0_7.index t 1 = t.val % 16 := by decide +kernel

variable (m : (ℓ : Loc nD τ sig) → Buf (Elt Ideal) ℓ) (c : Dev nD)

/-! ## The blocks -/

/-- Window 0: the row block of q. -/
theorem blk0 (t : Fin cfg0.N) (r : Fin 2048) (d : Fin 256) :
    iblk m c 0 t (ix2 r d) = m ((c : Thread nD τ).loc main_arg0) (ix2 (rowOf t r) d) := by
  have hi := idx0 t
  unfold iblk
  rw [View.read_apply]
  show (StableHlo.after (hostOps0 (F := Ideal)) (fun b => m (c, b)) (Proc.devRef .tc main_v8) : FVec Ideal S8192x256 .bf16) _ = _
  refine Eq.trans (congrArg _ ?_) (arr_q (fun b => m (c, b)) (rowOf t r) d)
  funext a
  apply Fin.ext
  match a with
  | ⟨0, _⟩ => show win0_0.index t 0 * 2048 + 1 * r.val = (t.val / 16) * 2048 + r.val; rw [hi.1]; omega
  | ⟨1, _⟩ => show win0_0.index t 1 * 256 + 1 * d.val = d.val; rw [hi.2]; omega

/-- Window 1: the column block of q. -/
theorem blk1 (t : Fin cfg0.N) (k : Fin 512) (d : Fin 256) :
    iblk m c 1 t (ix2 k d) = m ((c : Thread nD τ).loc main_arg0) (ix2 (colOf t k) d) := by
  have hi := idx1 t
  unfold iblk
  rw [View.read_apply]
  show (StableHlo.after (hostOps0 (F := Ideal)) (fun b => m (c, b)) (Proc.devRef .tc main_v8) : FVec Ideal S8192x256 .bf16) _ = _
  refine Eq.trans (congrArg _ ?_) (arr_q (fun b => m (c, b)) (colOf t k) d)
  funext a
  apply Fin.ext
  match a with
  | ⟨0, _⟩ => show win0_1.index t 0 * 512 + 1 * k.val = (t.val % 16) * 512 + k.val; rw [hi.1]; omega
  | ⟨1, _⟩ => show win0_1.index t 1 * 256 + 1 * d.val = d.val; rw [hi.2]; omega

/-- Window 2: the squared norms of the row block. -/
theorem blk2 (t : Fin cfg0.N) (r : Fin 2048) :
    iblk m c 2 t (ix2 r (0 : Fin 1)) = Cert.Spec.sq (m ((c : Thread nD τ).loc main_arg0)) (rowOf t r) := by
  have hi := idx2 t
  unfold iblk
  rw [View.read_apply]
  show (StableHlo.after (hostOps0 (F := Ideal)) (fun b => m (c, b)) (Proc.devRef .tc main_v6) : FVec Ideal S8192x1 .f32) _ = _
  refine Eq.trans (congrArg _ ?_) (arr_sqcol (fun b => m (c, b)) (rowOf t r))
  funext a
  apply Fin.ext
  match a with
  | ⟨0, _⟩ => show win0_2.index t 0 * 2048 + 1 * r.val = (t.val / 16) * 2048 + r.val; rw [hi.1]; omega
  | ⟨1, _⟩ => show win0_2.index t 1 * 1 + 1 * 0 = 0; rw [hi.2]

/-- Window 3: the squared norms of the column block. -/
theorem blk3 (t : Fin cfg0.N) (k : Fin 512) :
    iblk m c 3 t (ix2 (0 : Fin 1) k) = Cert.Spec.sq (m ((c : Thread nD τ).loc main_arg0)) (colOf t k) := by
  have hi := idx3 t
  unfold iblk
  rw [View.read_apply]
  show (StableHlo.after (hostOps0 (F := Ideal)) (fun b => m (c, b)) (Proc.devRef .tc main_v7) : FVec Ideal S1x8192 .f32) _ = _
  refine Eq.trans (congrArg _ ?_) (arr_sqrow (fun b => m (c, b)) (colOf t k))
  funext a
  apply Fin.ext
  match a with
  | ⟨0, _⟩ => show win0_3.index t 0 * 1 + 1 * 0 = 0; rw [hi.1]
  | ⟨1, _⟩ => show win0_3.index t 1 * 512 + 1 * k.val = (t.val % 16) * 512 + k.val; rw [hi.2]; omega

/-- Window 4: the labels of the row block. -/
theorem blk4 (t : Fin cfg0.N) (r : Fin 2048) :
    iblk m c 4 t (ix2 r (0 : Fin 1)) = m ((c : Thread nD τ).loc main_arg1) (ix1 (rowOf t r)) := by
  have hi := idx4 t
  unfold iblk
  rw [View.read_apply]
  show (StableHlo.after (hostOps0 (F := Ideal)) (fun b => m (c, b)) (Proc.devRef .tc main_v0) : IVec S8192x1 32) _ = _
  refine Eq.trans (congrArg _ ?_) (arr_lblcol (fun b => m (c, b)) (rowOf t r))
  funext a
  apply Fin.ext
  match a with
  | ⟨0, _⟩ => show win0_4.index t 0 * 2048 + 1 * r.val = (t.val / 16) * 2048 + r.val; rw [hi.1]; omega
  | ⟨1, _⟩ => show win0_4.index t 1 * 1 + 1 * 0 = 0; rw [hi.2]

/-- Window 5: the labels of the column block. -/
theorem blk5 (t : Fin cfg0.N) (k : Fin 512) :
    iblk m c 5 t (ix2 (0 : Fin 1) k) = m ((c : Thread nD τ).loc main_arg1) (ix1 (colOf t k)) := by
  have hi := idx5 t
  unfold iblk
  rw [View.read_apply]
  show (StableHlo.after (hostOps0 (F := Ideal)) (fun b => m (c, b)) (Proc.devRef .tc main_v2) : IVec S1x8192 32) _ = _
  refine Eq.trans (congrArg _ ?_) (arr_lblrow (fun b => m (c, b)) (colOf t k))
  funext a
  apply Fin.ext
  match a with
  | ⟨0, _⟩ => show win0_5.index t 0 * 1 + 1 * 0 = 0; rw [hi.1]
  | ⟨1, _⟩ => show win0_5.index t 1 * 512 + 1 * k.val = (t.val % 16) * 512 + k.val; rw [hi.2]; omega

/-- Window 6: the cameras of the row block. -/
theorem blk6 (t : Fin cfg0.N) (r : Fin 2048) :
    iblk m c 6 t (ix2 r (0 : Fin 1)) = m ((c : Thread nD τ).loc main_arg2) (ix1 (rowOf t r)) := by
  have hi := idx6 t
  unfold iblk
  rw [View.read_apply]
  show (StableHlo.after (hostOps0 (F := Ideal)) (fun b => m (c, b)) (Proc.devRef .tc main_v1) : IVec S8192x1 32) _ = _
  refine Eq.trans (congrArg _ ?_) (arr_camcol (fun b => m (c, b)) (rowOf t r))
  funext a
  apply Fin.ext
  match a with
  | ⟨0, _⟩ => show win0_6.index t 0 * 2048 + 1 * r.val = (t.val / 16) * 2048 + r.val; rw [hi.1]; omega
  | ⟨1, _⟩ => show win0_6.index t 1 * 1 + 1 * 0 = 0; rw [hi.2]

/-- Window 7: the cameras of the column block. -/
theorem blk7 (t : Fin cfg0.N) (k : Fin 512) :
    iblk m c 7 t (ix2 (0 : Fin 1) k) = m ((c : Thread nD τ).loc main_arg2) (ix1 (colOf t k)) := by
  have hi := idx7 t
  unfold iblk
  rw [View.read_apply]
  show (StableHlo.after (hostOps0 (F := Ideal)) (fun b => m (c, b)) (Proc.devRef .tc main_v3) : IVec S1x8192 32) _ = _
  refine Eq.trans (congrArg _ ?_) (arr_camrow (fun b => m (c, b)) (colOf t k))
  funext a
  apply Fin.ext
  match a with
  | ⟨0, _⟩ => show win0_7.index t 0 * 1 + 1 * 0 = 0; rw [hi.1]
  | ⟨1, _⟩ => show win0_7.index t 1 * 512 + 1 * k.val = (t.val % 16) * 512 + k.val; rw [hi.2]; omega

end Cert.KernelIdeal.Body

end
-- ==== Proof.Regroup.lean ====
/-
  Regrouping a maximum over 8192 columns as 16 blocks of 512.

  If every index of a finite type is reached by a two-argument map, the supremum over the first argument of the suprema
  over the second is the supremum over the whole type: each inner term is one of the outer terms, and conversely.  The
  columns j = J * 512 + k with J < 16 and k < 512 are all of 0 … 8191 (quotient and remainder by 512).
-/
import Mathlib

namespace Cert.Spec

/-- A supremum of suprema along a map onto the index type is the supremum over the index type. -/
theorem sup_sup_eq_sup {α ι κ τ : Type*} [SemilatticeSup α] [OrderBot α] [Fintype ι] [Fintype κ] [Fintype τ]
    (e : ι → κ → τ) (he : ∀ t, ∃ a b, e a b = t) (f : τ → α) :
    (Finset.univ.sup fun a => Finset.univ.sup fun b => f (e a b)) = Finset.univ.sup f := by
  apply le_antisymm
  · exact Finset.sup_le fun a _ => Finset.sup_le fun b _ => Finset.le_sup (Finset.mem_univ _)
  · refine Finset.sup_le fun t _ => ?_
    obtain ⟨a, b, rfl⟩ := he t
    exact le_trans (Finset.le_sup (f := fun b => f (e a b)) (Finset.mem_univ b))
      (Finset.le_sup (f := fun a => Finset.univ.sup fun b => f (e a b)) (Finset.mem_univ a))

/-- Column J * 512 + k of block J. -/
def col (J : Fin 16) (k : Fin 512) : Fin 8192 := ⟨J.val * 512 + k.val, by omega⟩

theorem col_val (J : Fin 16) (k : Fin 512) : (col J k).val = J.val * 512 + k.val := rfl

theorem col_surj (t : Fin 8192) : ∃ J k, col J k = t :=
  ⟨⟨t.val / 512, by omega⟩, ⟨t.val % 512, by omega⟩, Fin.ext (by simp only [col_val]; omega)⟩

/-- The maximum over the 16 blocks of the maxima over their 512 columns is the maximum over all 8192 columns. -/
theorem regroup (f : Fin 8192 → EReal) :
    (Finset.univ.sup fun J : Fin 16 => Finset.univ.sup fun k : Fin 512 => f (col J k)) = Finset.univ.sup f :=
  sup_sup_eq_sup col col_surj f

/-- The same with the bound written at the use site: any proof of the bound gives the same column. -/
theorem regroup' (f : Fin 8192 → EReal) (hb : ∀ (J : Fin 16) (k : Fin 512), J.val * 512 + k.val < 8192) :
    (Finset.univ.sup fun J : Fin 16 => Finset.univ.sup fun k : Fin 512 => f ⟨J.val * 512 + k.val, hb J k⟩)
      = Finset.univ.sup f :=
  regroup f

end Cert.Spec
-- ==== Proof.Rows.lean ====
/-
  The sweep over the extended reals, row by row.  Fix a row of q.  A tile contributes, to each running maximum, the
  supremum over its 512 columns of the masked squared distances of that row; so after the column blocks 0..J the first
  maximum is the sentinel maxed with the supremum over those blocks of the tiles' suprema (induction on the point; the
  first block starts from the sentinel block), and after all sixteen it is the supremum over all 8192 columns: the
  kernel's order of the specification.  The finishing expressions at the last column block are then its two results.
-/
import proofs.«167525_j15710990369518_2_alg».proof.Proof.Sweep
import proofs.«167525_j15710990369518_2_alg».proof.Proof.PayIdeal
import proofs.«167525_j15710990369518_2_alg».proof.Proof.Blocks
import proofs.«167525_j15710990369518_2_alg».proof.Proof.Spec
import proofs.«167525_j15710990369518_2_alg».proof.Proof.Regroup

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

/-- The three arguments on core `c`. -/
abbrev qOn : Cert.Spec.SQ.Idx → EReal := m ((c : Thread nD τ).loc main_arg0)
abbrev lblOn : Cert.Spec.SV.Idx → BitVec 32 := m ((c : Thread nD τ).loc main_arg1)
abbrev camOn : Cert.Spec.SV.Idx → BitVec 32 := m ((c : Thread nD τ).loc main_arg2)

/-- An entry of the tile masked to intra-camera positives is the specification's masked squared distance. -/
theorem intra_entry (t : Fin cfg0.N) (r : Fin 2048) (k : Fin 512) :
    (if camTile m c t (ix2 r k) = 1 then posTile m c t (ix2 r k) else Ideal.ofBits .f32 0xF149F2CA#32)
      = Cert.Spec.mI (qOn m c) (lblOn m c) (camOn m c) (rowOf t r) (colOf t k) := by
  unfold camTile posTile
  rw [Pay.cam_apply (iblk m c 6 t) (iblk m c 7 t) r k, Pay.pos_apply (iblk m c 0 t) (iblk m c 1 t) (iblk m c 2 t) (iblk m c 3 t) (iblk m c 4 t) (iblk m c 5 t) r k]
  simp only [blk0, blk1, blk2, blk3, blk4, blk5, blk6, blk7]
  unfold Cert.Spec.mI Cert.Spec.d2 Cert.Spec.gram
  exact if_congr IntOp.cmpi_eq rfl rfl

/-- The same for inter-camera positives. -/
theorem inter_entry (t : Fin cfg0.N) (r : Fin 2048) (k : Fin 512) :
    (if camTile m c t (ix2 r k) = 1 then Ideal.ofBits .f32 0xF149F2CA#32 else posTile m c t (ix2 r k))
      = Cert.Spec.mE (qOn m c) (lblOn m c) (camOn m c) (rowOf t r) (colOf t k) := by
  unfold camTile posTile
  rw [Pay.cam_apply (iblk m c 6 t) (iblk m c 7 t) r k, Pay.pos_apply (iblk m c 0 t) (iblk m c 1 t) (iblk m c 2 t) (iblk m c 3 t) (iblk m c 4 t) (iblk m c 5 t) r k]
  simp only [blk0, blk1, blk2, blk3, blk4, blk5, blk6, blk7]
  unfold Cert.Spec.mE Cert.Spec.d2 Cert.Spec.gram
  exact if_congr IntOp.cmpi_eq rfl rfl

/-- A tile's contribution to a row's maxima: the suprema over its 512 columns; as a function of the column block's
    number (nothing beyond the sixteenth). -/
def gI (t : Fin cfg0.N) (r : Fin 2048) (j : ℕ) : EReal :=
  if h : j < 16 then Finset.univ.sup fun k : Fin 512 => Cert.Spec.mI (qOn m c) (lblOn m c) (camOn m c) (rowOf t r) (Cert.Spec.col ⟨j, h⟩ k) else ⊥
def gE (t : Fin cfg0.N) (r : Fin 2048) (j : ℕ) : EReal :=
  if h : j < 16 then Finset.univ.sup fun k : Fin 512 => Cert.Spec.mE (qOn m c) (lblOn m c) (camOn m c) (rowOf t r) (Cert.Spec.col ⟨j, h⟩ k) else ⊥

/-- One update of the two maxima at a row. -/
theorem upd_intra (t : Fin cfg0.N) (s : Vec Ideal S2048x1 .f32 × Vec Ideal S2048x1 .f32) (r : Fin 2048) :
    (upd m c t s).1 (ix2 r (0 : Fin 1)) = max (s.1 (ix2 r (0 : Fin 1))) (gI m c t r (t.val % 16)) := by
  show k0_pay1 (camTile m c t) (posTile m c t) (Ideal.ofBits .f32 0xF149F2CA#32) s.1 (ix2 r (0 : Fin 1)) = _
  rw [Pay.max0_apply (camTile m c t) (posTile m c t) _ s.1 r]
  congr 1
  unfold gI
  rw [dif_pos (Nat.mod_lt _ (by decide))]
  exact Finset.sup_congr rfl fun k _ => intra_entry m c t r k

theorem upd_inter (t : Fin cfg0.N) (s : Vec Ideal S2048x1 .f32 × Vec Ideal S2048x1 .f32) (r : Fin 2048) :
    (upd m c t s).2 (ix2 r (0 : Fin 1)) = max (s.2 (ix2 r (0 : Fin 1))) (gE m c t r (t.val % 16)) := by
  show k0_pay2 (camTile m c t) (posTile m c t) s.2 (ix2 r (0 : Fin 1)) = _
  rw [Pay.max1_apply (camTile m c t) (posTile m c t) s.2 r]
  congr 1
  unfold gE
  rw [dif_pos (Nat.mod_lt _ (by decide))]
  exact Finset.sup_congr rfl fun k _ => inter_entry m c t r k

/-- Within a row block the row of q does not change with the column block. -/
theorem rowOf_pred (n : ℕ) (h : n < cfg0.N) (h' : n - 1 < cfg0.N) (h0 : ¬n % 16 = 0) (r : Fin 2048) :
    rowOf ⟨n - 1, h'⟩ r = rowOf ⟨n, h⟩ r := Fin.ext (by simp only [rowOf]; omega)

set_option maxHeartbeats 4000000 in
/-- THE SWEEP AT A ROW: after point `n` each maximum is the sentinel maxed with the supremum of the tiles' contributions
    of the column blocks done so far in this row block. -/
theorem acc_eq : ∀ (n : ℕ) (h : n < cfg0.N) (r : Fin 2048),
    (maxes m c n h).1 (ix2 r (0 : Fin 1)) = max Cert.Spec.NEG ((Finset.range (n % 16 + 1)).sup (gI m c ⟨n, h⟩ r))
    ∧ (maxes m c n h).2 (ix2 r (0 : Fin 1)) = max Cert.Spec.NEG ((Finset.range (n % 16 + 1)).sup (gE m c ⟨n, h⟩ r)) := by
  intro n
  induction n using Nat.strong_induction_on with
  | _ n ih =>
    intro h r
    by_cases h0 : n % 16 = 0
    · rw [maxes_first m c ⟨n, h⟩ h0, upd_intra, upd_inter]
      show max (k0_pay5 (F := Ideal) (ix2 r (0 : Fin 1))) (gI m c ⟨n, h⟩ r (n % 16)) = _
        ∧ max (k0_pay6 (F := Ideal) (ix2 r (0 : Fin 1))) (gE m c ⟨n, h⟩ r (n % 16)) = _
      rw [Pay.reset0_apply, Pay.reset1_apply, h0]
      rw [Nat.zero_add, Finset.range_one, Finset.sup_singleton, Finset.sup_singleton]
      exact ⟨rfl, rfl⟩
    · have hn : n - 1 < n := by omega
      have h' : n - 1 < cfg0.N := by omega
      obtain ⟨ihI, ihE⟩ := ih (n - 1) hn h' r
      rw [maxes_next m c ⟨n, h⟩ h0, upd_intra, upd_inter]
      show max ((maxes m c (n - 1) _).1 (ix2 r (0 : Fin 1))) (gI m c ⟨n, h⟩ r (n % 16)) = _
        ∧ max ((maxes m c (n - 1) _).2 (ix2 r (0 : Fin 1))) (gE m c ⟨n, h⟩ r (n % 16)) = _
      rw [ihI, ihE]
      have e1 : (n - 1) % 16 + 1 = n % 16 := by omega
      have eI : gI m c ⟨n - 1, h'⟩ r = gI m c ⟨n, h⟩ r := by funext j; unfold gI; rw [rowOf_pred n h h' h0 r]
      have eE : gE m c ⟨n - 1, h'⟩ r = gE m c ⟨n, h⟩ r := by funext j; unfold gE; rw [rowOf_pred n h h' h0 r]
      rw [eI, eE, e1, Finset.range_add_one, Finset.sup_insert, Finset.sup_insert]
      have key : ∀ a b d : EReal, max (max a b) d = max a (d ⊔ b) := fun a b d => by
        show max (max a b) d = max a (max d b)
        rw [max_assoc, max_comm b d]
      exact ⟨key _ _ _, key _ _ _⟩

/-- The supremum over the first sixteen numbers is the supremum over the sixteen column blocks. -/
theorem sup_range16 (g : ℕ → EReal) : (Finset.range 16).sup g = Finset.univ.sup fun J : Fin 16 => g J.val := by
  apply le_antisymm
  · exact Finset.sup_le fun j hj => Finset.le_sup (f := fun J : Fin 16 => g J.val) (Finset.mem_univ ⟨j, Finset.mem_range.mp hj⟩)
  · exact Finset.sup_le fun J _ => Finset.le_sup (f := g) (Finset.mem_range.mpr J.isLt)

set_option maxHeartbeats 4000000 in
/-- After a row block's last column block the two maxima are the specification's. -/
theorem acc_last (t : Fin cfg0.N) (h1 : t.val % 16 = 15) (r : Fin 2048) :
    (maxes m c t.val t.isLt).1 (ix2 r (0 : Fin 1)) = Cert.Spec.KI (qOn m c) (lblOn m c) (camOn m c) (rowOf t r)
    ∧ (maxes m c t.val t.isLt).2 (ix2 r (0 : Fin 1)) = Cert.Spec.KE (qOn m c) (lblOn m c) (camOn m c) (rowOf t r) := by
  obtain ⟨tv, ht⟩ := t
  obtain ⟨hI, hE⟩ := acc_eq m c tv ht r
  have h1' : tv % 16 = 15 := h1
  show (maxes m c tv ht).1 (ix2 r (0 : Fin 1)) = _ ∧ (maxes m c tv ht).2 (ix2 r (0 : Fin 1)) = _
  rw [hI, hE, h1']
  unfold Cert.Spec.KI Cert.Spec.KE
  rw [sup_range16, sup_range16]
  constructor
  · refine congrArg (max Cert.Spec.NEG) ?_
    rw [← Cert.Spec.regroup (Cert.Spec.mI (qOn m c) (lblOn m c) (camOn m c) (rowOf ⟨tv, ht⟩ r))]
    exact Finset.sup_congr rfl fun J _ => by unfold gI; rw [dif_pos J.isLt]
  · refine congrArg (max Cert.Spec.NEG) ?_
    rw [← Cert.Spec.regroup (Cert.Spec.mE (qOn m c) (lblOn m c) (camOn m c) (rowOf ⟨tv, ht⟩ r))]
    exact Finset.sup_congr rfl fun J _ => by unfold gE; rw [dif_pos J.isLt]

set_option maxHeartbeats 4000000 in
/-- THE ROWS: after a last column block the two result buffers hold, at row `r`, the kernel's two results of the
    specification for that row of q. -/
theorem results_row (t : Fin cfg0.N) (h1 : t.val % 16 = 15) (r : Fin 2048) :
    (outsAt m c t.val t.isLt).1 (ix2 r (0 : Fin 1)) = Cert.Spec.hI (qOn m c) (lblOn m c) (camOn m c) (rowOf t r)
    ∧ (outsAt m c t.val t.isLt).2.1 (ix2 r (0 : Fin 1)) = Cert.Spec.hE (qOn m c) (lblOn m c) (camOn m c) (rowOf t r) := by
  obtain ⟨e0, e1⟩ := outsAt_results m c t h1
  obtain ⟨aI, aE⟩ := acc_last m c t h1 r
  rw [e0, e1, Pay.res1_apply, Pay.res0_apply, aI, aE]
  unfold Cert.Spec.hE Cert.Spec.hI
  exact ⟨rfl, rfl⟩

end Cert.KernelIdeal.Body

end
-- ==== Proof.End.lean ====
/-
  The common end.  Both programs finish the same way: from the two results per row, subtract, negate, add the margin,
  clamp at zero from below, sum over the 8192 rows and divide by 8192.  The kernel reaches it from its call's two result
  arrays (column vectors, reshaped to vectors); the reference from its 30th and 34th intermediate.  The end is never
  opened: equal results per row give equal losses.
-/
import proofs.«167525_j15710990369518_2_alg».proof.Proof.Region
import proofs.«167525_j15710990369518_2_alg».proof.Proof.RefLine
import proofs.«167525_j15710990369518_2_alg».proof.Proof.LibWrites
import Idealize.ShloMosaic.PureOps.Ideal

set_option maxRecDepth 16384

noncomputable section

namespace Cert.End

open Idealize.ShloMosaic

abbrev S8192 : Shape := ⟨1, ![8192]⟩
abbrev S_ : Shape := ⟨0, ![]⟩

/-- The mean over the rows of `max 0 (-(a - b) + 0.1)`, as the host operations compute it. -/
def hingeMean (hb : S_.BroadcastsInDim S8192 (![] : Fin 0 → Fin S8192.rank)) (hr : S8192.ReducesTo [0] S_) (h0 : 0 < S_.numel)
    (a b : FVec Ideal S8192 .f32) : FVec Ideal S_ .f32 :=
  Host.divf (Host.reduceAdd (maximumf (broadcastInDim S8192 ![] hb (constant (F := Ideal) S_ .f32 0x00000000#32))
      (addf (Host.negf (subf a b)) (broadcastInDim S8192 ![] hb (constant (F := Ideal) S_ .f32 0x3DCCCCCD#32))))
      (constant (F := Ideal) S_ .f32 0x00000000#32) hr h0)
    (constant (F := Ideal) S_ .f32 0x46000000#32)

end Cert.End

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel's second host stretch, from any contents of the call's two result arrays: the common end of the two
    column vectors read as vectors. -/
theorem kernel_end (W : Valuation τ sig (Elt Ideal)) :
    StableHlo.after (hostOps1 (F := Ideal)) W (Proc.devRef .tc main_v19)
      = Cert.End.hingeMean bcast_S_S8192 reducesTo_S8192_S_d0 h_S_
          (shapeCast S8192 (W (Proc.devRef .tc main_v9_0)) shapeCasts_S8192x1_S8192)
          (shapeCast S8192 (W (Proc.devRef .tc main_v9_1)) shapeCasts_S8192x1_S8192) := by
  after_results
  rfl

end Cert.KernelIdeal.Body

namespace Cert.ReferenceIdeal.Line

open Cert.ReferenceIdeal Cert.ReferenceIdeal.Gen Idealize.ShloMosaic Idealize.ShloMosaic.TcCoe Idealize.SL.Sem Idealize.ShloMosaic.StableHlo

/-- The reference's last twelve operations, from any contents of its two per-row results: the common end. -/
theorem ref_end (W : Valuation τ sig (Elt Ideal)) :
    after ((ops (F := Ideal)).drop 53) W (Proc.devRef .tc main_v42)
      = Cert.End.hingeMean bcast_S_S8192 reducesTo_S8192_S_d0 h_S_ (W (Proc.devRef .tc main_v30)) (W (Proc.devRef .tc main_v34)) := by
  simp only [ops, List.drop_succ_cons, List.drop_zero]
  after_results
  rfl

end Cert.ReferenceIdeal.Line

end
-- ==== Proof.Final.lean ====
/-
  The kernel's result.  Each of the two result arrays is a column of 8192 entries written back in four blocks of 2048
  rows, one per row block, after that row block's last column block; what is written at row r of row block I is the
  kernel's result of the specification for row 2048 I + r of q.  The four blocks cover the column, so each array ends
  holding the kernel's per-row results, and the second host stretch turns the two columns into the loss.
-/
import proofs.«167525_j15710990369518_2_alg».proof.Proof.Rows
import proofs.«167525_j15710990369518_2_alg».proof.Proof.End

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (c : Dev nD)

/-- The two result columns: the kernel's per-row results of the specification. -/
def colI : S8192x1.Idx → EReal := fun i => Cert.Spec.hI (qOn m c) (lblOn m c) (camOn m c) ⟨(i 0).val, (i 0).isLt⟩
def colE : S8192x1.Idx → EReal := fun i => Cert.Spec.hE (qOn m c) (lblOn m c) (camOn m c) ⟨(i 0).val, (i 0).isLt⟩

/-- Output window 8's block index at point `t`: row block `t / 16`, the one column. -/
theorem idx8 : ∀ t : Fin cfg0.N, win0_8.index t (0 : Fin 2) = t.val / 16 ∧ win0_8.index t (1 : Fin 2) = 0 :=
  (by decide +kernel : ∀ t : Fin grid0.N, win0_8.index t (0 : Fin 2) = t.val / 16 ∧ win0_8.index t (1 : Fin 2) = 0)

/-- What a last column block's write-back writes is its block of `colI`. -/
theorem flushed8_eq (t : Fin cfg0.N) (hf : (cfg0.win 8).flush t = true) :
    (dats m 0 c).flushed 8 t = ((cfg0.win 8).blk t).view.read (Elt Ideal) (colI m c) := by
  have h1 : t.val % 16 = 15 := (flush0_8 t).mp hf
  obtain ⟨e0, e1⟩ := idx8 t
  show (cfg0.win 8).cut (grid0.coords t) ((dats m 0 c).after 8 t) = _
  rw [after8]
  funext j
  revert j
  show ∀ j : S2048x1.Idx, (outsAt m c t.val t.isLt).1 j = colI m c (((cfg0.win 8).blk t).view.emb j)
  intro j
  obtain ⟨p, u, rfl⟩ : ∃ (p : Fin 2048) (u : Fin 1), j = ix2 p u := ⟨j 0, j 1, eq_ix2 j⟩
  obtain rfl : u = 0 := Subsingleton.elim _ _
  rw [(results_row m c t h1 p).1]
  unfold colI
  refine congrArg _ (Fin.ext ?_)
  show (t.val / 16) * 2048 + p.val = win0_8.index t (0 : Fin 2) * 2048 + 1 * p.val
  rw [e0]; omega

/-- An index of the result array is in point `t`'s block iff each coordinate is in the block's range. -/
theorem mem_blk8 (t : Fin cfg0.N) (i : S8192x1.Idx) :
    i ∈ ((cfg0.win 8).blk t).view.set ↔ ∀ a : Fin 2, win0_8.index t a * S2048x1.size a ≤ (i a).val ∧ (i a).val < win0_8.index t a * S2048x1.size a + S2048x1.size a := by
  show i ∈ ((View.whole main_v9_0).slice (win0_8.rect t)).set ↔ _
  rw [View.set_slice_whole, Rect.mem_set_unit]
  exact Iff.rfl

/-- Every row is in the block of its row block's last point. -/
theorem cover8 (i : S8192x1.Idx) : ∃ t : Fin cfg0.N, (cfg0.win 8).flush t = true ∧ i ∈ ((cfg0.win 8).blk t).view.set := by
  have hi0 : (i 0).val < 8192 := (i 0).isLt
  have hi1 : (i 1).val < 1 := (i 1).isLt
  have hN : cfg0.N = 64 := N_0
  have htv : 16 * ((i 0).val / 2048) + 15 < cfg0.N := by omega
  obtain ⟨e0, e1⟩ := idx8 ⟨16 * ((i 0).val / 2048) + 15, htv⟩
  refine ⟨⟨16 * ((i 0).val / 2048) + 15, htv⟩, (flush0_8 _).mpr (by show (16 * ((i 0).val / 2048) + 15) % 16 = 15; omega), ?_⟩
  rw [mem_blk8]
  intro a
  match a with
  | ⟨0, _⟩ =>
    show win0_8.index ⟨16 * ((i 0).val / 2048) + 15, htv⟩ (0 : Fin 2) * 2048 ≤ (i 0).val ∧ (i 0).val < win0_8.index ⟨16 * ((i 0).val / 2048) + 15, htv⟩ (0 : Fin 2) * 2048 + 2048
    rw [e0]; show (16 * ((i 0).val / 2048) + 15) / 16 * 2048 ≤ (i 0).val ∧ (i 0).val < (16 * ((i 0).val / 2048) + 15) / 16 * 2048 + 2048
    omega
  | ⟨1, _⟩ =>
    show win0_8.index ⟨16 * ((i 0).val / 2048) + 15, htv⟩ (1 : Fin 2) * 1 ≤ (i 1).val ∧ (i 1).val < win0_8.index ⟨16 * ((i 0).val / 2048) + 15, htv⟩ (1 : Fin 2) * 1 + 1
    rw [e1]; omega

/-- So the result array ends holding `colI`. -/
theorem final8 : (dats m 0 c).arrAt 8 cfg0.N = colI m c :=
  (dats m 0 c).arrAt_eq_of_cover 8 (colI m c) (flushed8_eq m c) (cover8)

/-- Output window 9's block index at point `t`: row block `t / 16`, the one column. -/
theorem idx9 : ∀ t : Fin cfg0.N, win0_9.index t (0 : Fin 2) = t.val / 16 ∧ win0_9.index t (1 : Fin 2) = 0 :=
  (by decide +kernel : ∀ t : Fin grid0.N, win0_9.index t (0 : Fin 2) = t.val / 16 ∧ win0_9.index t (1 : Fin 2) = 0)

/-- What a last column block's write-back writes is its block of `colE`. -/
theorem flushed9_eq (t : Fin cfg0.N) (hf : (cfg0.win 9).flush t = true) :
    (dats m 0 c).flushed 9 t = ((cfg0.win 9).blk t).view.read (Elt Ideal) (colE m c) := by
  have h1 : t.val % 16 = 15 := (flush0_9 t).mp hf
  obtain ⟨e0, e1⟩ := idx9 t
  show (cfg0.win 9).cut (grid0.coords t) ((dats m 0 c).after 9 t) = _
  rw [after9]
  funext j
  revert j
  show ∀ j : S2048x1.Idx, (outsAt m c t.val t.isLt).2.1 j = colE m c (((cfg0.win 9).blk t).view.emb j)
  intro j
  obtain ⟨p, u, rfl⟩ : ∃ (p : Fin 2048) (u : Fin 1), j = ix2 p u := ⟨j 0, j 1, eq_ix2 j⟩
  obtain rfl : u = 0 := Subsingleton.elim _ _
  rw [(results_row m c t h1 p).2]
  unfold colE
  refine congrArg _ (Fin.ext ?_)
  show (t.val / 16) * 2048 + p.val = win0_9.index t (0 : Fin 2) * 2048 + 1 * p.val
  rw [e0]; omega

/-- An index of the result array is in point `t`'s block iff each coordinate is in the block's range. -/
theorem mem_blk9 (t : Fin cfg0.N) (i : S8192x1.Idx) :
    i ∈ ((cfg0.win 9).blk t).view.set ↔ ∀ a : Fin 2, win0_9.index t a * S2048x1.size a ≤ (i a).val ∧ (i a).val < win0_9.index t a * S2048x1.size a + S2048x1.size a := by
  show i ∈ ((View.whole main_v9_1).slice (win0_9.rect t)).set ↔ _
  rw [View.set_slice_whole, Rect.mem_set_unit]
  exact Iff.rfl

/-- Every row is in the block of its row block's last point. -/
theorem cover9 (i : S8192x1.Idx) : ∃ t : Fin cfg0.N, (cfg0.win 9).flush t = true ∧ i ∈ ((cfg0.win 9).blk t).view.set := by
  have hi0 : (i 0).val < 8192 := (i 0).isLt
  have hi1 : (i 1).val < 1 := (i 1).isLt
  have hN : cfg0.N = 64 := N_0
  have htv : 16 * ((i 0).val / 2048) + 15 < cfg0.N := by omega
  obtain ⟨e0, e1⟩ := idx9 ⟨16 * ((i 0).val / 2048) + 15, htv⟩
  refine ⟨⟨16 * ((i 0).val / 2048) + 15, htv⟩, (flush0_9 _).mpr (by show (16 * ((i 0).val / 2048) + 15) % 16 = 15; omega), ?_⟩
  rw [mem_blk9]
  intro a
  match a with
  | ⟨0, _⟩ =>
    show win0_9.index ⟨16 * ((i 0).val / 2048) + 15, htv⟩ (0 : Fin 2) * 2048 ≤ (i 0).val ∧ (i 0).val < win0_9.index ⟨16 * ((i 0).val / 2048) + 15, htv⟩ (0 : Fin 2) * 2048 + 2048
    rw [e0]; show (16 * ((i 0).val / 2048) + 15) / 16 * 2048 ≤ (i 0).val ∧ (i 0).val < (16 * ((i 0).val / 2048) + 15) / 16 * 2048 + 2048
    omega
  | ⟨1, _⟩ =>
    show win0_9.index ⟨16 * ((i 0).val / 2048) + 15, htv⟩ (1 : Fin 2) * 1 ≤ (i 1).val ∧ (i 1).val < win0_9.index ⟨16 * ((i 0).val / 2048) + 15, htv⟩ (1 : Fin 2) * 1 + 1
    rw [e1]; omega

/-- So the result array ends holding `colE`. -/
theorem final9 : (dats m 0 c).arrAt 9 cfg0.N = colE m c :=
  (dats m 0 c).arrAt_eq_of_cover 9 (colE m c) (flushed9_eq m c) (cover9)

/-- A column read as a vector: the same entries. -/
theorem col_as_vec (x : S8192x1.Idx → EReal) (i : Fin 8192) :
    shapeCast S8192 x shapeCasts_S8192x1_S8192 (ix1 i) = x (ix2 i (0 : Fin 1)) :=
  shapeCast_apply x _ _ _ (by
    rw [Shape.rowMajor_val_two, Shape.rowMajor_val_one]
    show i.val * 1 + 0 = i.val
    omega)

/-- THE KERNEL'S RESULT: the common end of its per-row results. -/
theorem kernel_value :
    V2 m c (Proc.devRef .tc main_v19)
      = Cert.End.hingeMean bcast_S_S8192 reducesTo_S8192_S_d0 h_S_
          (fun x => Cert.Spec.hI (qOn m c) (lblOn m c) (camOn m c) ⟨(x 0).val, (x 0).isLt⟩) (fun x => Cert.Spec.hE (qOn m c) (lblOn m c) (camOn m c) ⟨(x 0).val, (x 0).isLt⟩) := by
  show StableHlo.after (hostOps1 (F := Ideal)) (V1 m c) (Proc.devRef .tc main_v19) = _
  rw [kernel_end, V1_res0, V1_res1]
  unfold res0 res1
  rw [final8, final9]
  have eI : shapeCast S8192 (colI m c) shapeCasts_S8192x1_S8192 = fun x => Cert.Spec.hI (qOn m c) (lblOn m c) (camOn m c) ⟨(x 0).val, (x 0).isLt⟩ := by
    funext x
    obtain ⟨i, rfl⟩ : ∃ i : Fin 8192, x = ix1 i := ⟨x 0, eq_ix1 x⟩
    rw [col_as_vec]
    rfl
  have eE : shapeCast S8192 (colE m c) shapeCasts_S8192x1_S8192 = fun x => Cert.Spec.hE (qOn m c) (lblOn m c) (camOn m c) ⟨(x 0).val, (x 0).isLt⟩ := by
    funext x
    obtain ⟨i, rfl⟩ : ∃ i : Fin 8192, x = ix1 i := ⟨x 0, eq_ix1 x⟩
    rw [col_as_vec]
    rfl
  rw [eI, eE]

end Cert.KernelIdeal.Body

end
-- ==== Proof.RefRowsMath.lean ====
/-
  The reference's per-row results as mathematics: a row's maximum over the columns of a masked array, taken from -∞,
  is the supremum of the masked entries; the "or" over a row of one-bit words is 1 exactly when some word is 1; and a
  select on that bit between the maximum and a fallback is the specification's "if the row has a positive then the
  supremum else the fallback".  The two masks (same label and same camera; same label and another camera) are read as
  the propositions they encode.
-/
import proofs.«167525_j15710990369518_2_alg».proof.Proof.Spec
import Idealize.ShloMosaic.PureOps.Ideal.Laws
import Idealize.ShloMosaic.PureOps.Reduce

noncomputable section

namespace Cert.ReferenceIdeal.Rows

open Idealize.ShloMosaic Idealize.ShloMosaic.ValueIdx Cert.Spec

/-! ## Folds -/

/-- A fold from `⊥` by an operation that is the binary supremum is the supremum. -/
theorem fold_eq_sup {ι : Type} (op : EReal → EReal → EReal) [Std.Commutative op] [Std.Associative op]
    (hop : ∀ a b, op a b = a ⊔ b) (s : Finset ι) (f : ι → EReal) : s.fold op ⊥ f = s.sup f := by
  classical
  induction s using Finset.induction_on with
  | empty => rw [Finset.fold_empty, Finset.sup_empty]
  | insert a s ha ih => rw [Finset.fold_insert ha, Finset.sup_insert, ih, hop]

/-- The "or" of two one-bit words is 1 exactly when one of them is. -/
theorem ori_eq_one_iff (x y : BitVec 1) : IntOp.ori x y = 1#1 ↔ x = 1#1 ∨ y = 1#1 := by
  revert x y; unfold IntOp.ori; decide

/-- A fold by "or" from the word 0 is 1 exactly when some word is 1. -/
theorem fold_ori_eq_one_iff {ι : Type} (s : Finset ι) (f : ι → BitVec 1) :
    s.fold IntOp.ori 0#1 f = 1#1 ↔ ∃ j ∈ s, f j = 1#1 := by
  classical
  induction s using Finset.induction_on with
  | empty => simp
  | insert a s ha ih =>
    rw [Finset.fold_insert ha, ori_eq_one_iff, ih]
    constructor
    · rintro (h | ⟨j, hj, h⟩)
      · exact ⟨a, Finset.mem_insert_self a s, h⟩
      · exact ⟨j, Finset.mem_insert_of_mem hj, h⟩
    · rintro ⟨j, hj, h⟩
      rcases Finset.mem_insert.mp hj with rfl | hj
      · exact Or.inl h
      · exact Or.inr ⟨j, hj, h⟩

/-- The word the reference starts a row's maximum from is `-∞`. -/
theorem negInf_word : Ideal.ofBits .f32 0xFF800000#32 = (⊥ : EReal) := by simp [Ideal.ofBits, Ideal.ieee]

/-! ## One row -/

/-- A row of the reference: `w j` the mask's bit at column `j`, encoding `P j`; `d j` the distance. The "or" of the
    bits is 1 exactly when some column has `P`. -/
theorem row_any (P : Fin 8192 → Prop) (w : Fin 8192 → BitVec 1) (hw : ∀ j, w j = 1#1 ↔ P j) :
    Finset.univ.fold IntOp.ori 0#1 w = 1#1 ↔ ∃ j, P j := by
  rw [fold_ori_eq_one_iff]
  exact ⟨fun ⟨j, _, h⟩ => ⟨j, (hw j).mp h⟩, fun ⟨j, h⟩ => ⟨j, Finset.mem_univ j, (hw j).mpr h⟩⟩

/-- The maximum over the columns of the masked distances, from `-∞`, is the supremum of the masked distances. -/
theorem row_max (P : Fin 8192 → Prop) [DecidablePred P] (w : Fin 8192 → BitVec 1) (hw : ∀ j, w j = 1#1 ↔ P j)
    (d : Fin 8192 → EReal) :
    Finset.univ.fold (FloatOps.maximumf (F := Ideal) (φ := .f32)) (Ideal.ofBits .f32 0xFF800000#32)
          (fun j => Scalar.select (w j) (d j) NEG)
      = Finset.univ.sup (fun j => if P j then d j else NEG) := by
  rw [negInf_word, fold_eq_sup (FloatOps.maximumf (F := Ideal) (φ := .f32)) (fun a b => rfl)]
  refine congrArg (Finset.sup Finset.univ) (funext fun j => ?_)
  exact if_congr (hw j) rfl rfl

/-- Selected against a fallback by the "or" of the bits: the supremum if some column has `P`, -/
theorem row_select_pos (P : Fin 8192 → Prop) [DecidablePred P] (w : Fin 8192 → BitVec 1) (hw : ∀ j, w j = 1#1 ↔ P j)
    (d : Fin 8192 → EReal) (fallback : EReal) (h : ∃ j, P j) :
    Scalar.select (Finset.univ.fold IntOp.ori 0#1 w)
        (Finset.univ.fold (FloatOps.maximumf (F := Ideal) (φ := .f32)) (Ideal.ofBits .f32 0xFF800000#32)
          (fun j => Scalar.select (w j) (d j) NEG)) fallback
      = Finset.univ.sup (fun j => if P j then d j else NEG) := by
  rw [(row_any P w hw).mpr h, select_one, row_max P w hw]

/-- and the fallback otherwise. -/
theorem row_select_neg (P : Fin 8192 → Prop) (w : Fin 8192 → BitVec 1) (hw : ∀ j, w j = 1#1 ↔ P j)
    (x fallback : EReal) (h : ¬∃ j, P j) :
    Scalar.select (Finset.univ.fold IntOp.ori 0#1 w) x fallback = fallback := by
  rw [eq_zero_of_ne_one (fun e => h ((row_any P w hw).mp e)), select_zero]

/-! ## The two masks -/

/-- The intra-camera mask's bit at `(i, j)`: the labels' equality bit "and" the cameras'. -/
def wI (lbl cam : SV.Idx → BitVec 32) (i j : Fin 8192) : BitVec 1 :=
  IntOp.andi (IntOp.cmpi .eq (lbl (ix1 i)) (lbl (ix1 j))) (IntOp.cmpi .eq (cam (ix1 i)) (cam (ix1 j)))
/-- The inter-camera mask's bit: the labels' equality bit "and" the complement of the cameras'. -/
def wE (lbl cam : SV.Idx → BitVec 32) (i j : Fin 8192) : BitVec 1 :=
  IntOp.andi (IntOp.cmpi .eq (lbl (ix1 i)) (lbl (ix1 j))) (~~~(IntOp.cmpi .eq (cam (ix1 i)) (cam (ix1 j))))

theorem wI_eq_one_iff (lbl cam : SV.Idx → BitVec 32) (i j : Fin 8192) :
    wI lbl cam i j = 1#1 ↔ sameL lbl i j ∧ sameC cam i j := by
  have key : ∀ a b : Bool, (BitVec.ofBool a &&& BitVec.ofBool b = 1#1) ↔ (a = true ∧ b = true) := by decide
  show BitVec.ofBool (lbl (ix1 i) == lbl (ix1 j)) &&& BitVec.ofBool (cam (ix1 i) == cam (ix1 j)) = 1#1 ↔ _
  rw [key, beq_iff_eq, beq_iff_eq]

theorem wE_eq_one_iff (lbl cam : SV.Idx → BitVec 32) (i j : Fin 8192) :
    wE lbl cam i j = 1#1 ↔ sameL lbl i j ∧ ¬sameC cam i j := by
  have key : ∀ a b : Bool, (BitVec.ofBool a &&& ~~~BitVec.ofBool b = 1#1) ↔ (a = true ∧ ¬b = true) := by decide
  show BitVec.ofBool (lbl (ix1 i) == lbl (ix1 j)) &&& ~~~BitVec.ofBool (cam (ix1 i) == cam (ix1 j)) = 1#1 ↔ _
  rw [key, beq_iff_eq, beq_iff_eq]

/-! ## The two results -/

variable (q : SQ.Idx → EReal) (lbl cam : SV.Idx → BitVec 32)

/-- The intra-camera result of row `i`, from the mask's bits and the distances. -/
theorem intra_of_bits (i : Fin 8192) :
    Scalar.select (Finset.univ.fold IntOp.ori 0#1 (wI lbl cam i))
        (Finset.univ.fold (FloatOps.maximumf (F := Ideal) (φ := .f32)) (Ideal.ofBits .f32 0xFF800000#32)
          (fun j => Scalar.select (wI lbl cam i j) (dist q i j) NEG)) ONE
      = pI q lbl cam i := by
  unfold pI
  by_cases h : anyI lbl cam i
  · rw [if_pos h]
    exact row_select_pos (fun j => sameL lbl i j ∧ sameC cam i j) (wI lbl cam i) (wI_eq_one_iff lbl cam i) _ _ h
  · rw [if_neg h]
    exact row_select_neg (fun j => sameL lbl i j ∧ sameC cam i j) (wI lbl cam i) (wI_eq_one_iff lbl cam i) _ _ h

/-- The inter-camera result of row `i`, falling back to the intra-camera one. -/
theorem inter_of_bits (i : Fin 8192) :
    Scalar.select (Finset.univ.fold IntOp.ori 0#1 (wE lbl cam i))
        (Finset.univ.fold (FloatOps.maximumf (F := Ideal) (φ := .f32)) (Ideal.ofBits .f32 0xFF800000#32)
          (fun j => Scalar.select (wE lbl cam i j) (dist q i j) NEG)) (pI q lbl cam i)
      = pE q lbl cam i := by
  unfold pE
  by_cases h : anyE lbl cam i
  · rw [if_pos h]
    exact row_select_pos (fun j => sameL lbl i j ∧ ¬sameC cam i j) (wE lbl cam i) (wE_eq_one_iff lbl cam i) _ _ h
  · rw [if_neg h]
    exact row_select_neg (fun j => sameL lbl i j ∧ ¬sameC cam i j) (wE lbl cam i) (wE_eq_one_iff lbl cam i) _ _ h

end Cert.ReferenceIdeal.Rows

end
-- ==== Proof.RefRowsOps.lean ====
/-
  The reference's operations read at an index, at the ideal instance: the row sums of squares, the two broadcasts of
  a vector over a square (down the rows, along the columns), the Gram product, the squared distance and the distance,
  the two masks, a masked array, and the two reductions along a row (the maximum from a given word, the "or" from 0).
-/
import proofs.«167525_j15710990369518_2_alg».proof.Proof.Gen.ReferenceIdeal
import proofs.«167525_j15710990369518_2_alg».proof.Proof.RefRowsMath
import Idealize.ShloMosaic.Lib.Pipeline.Value
import Idealize.ShloMosaic.Lib.ValueIdx
import Idealize.ShloMosaic.Lib.ValueLayout
import Idealize.ShloMosaic.Lib.IdealHost
import Idealize.ShloMosaic.Lib.StackMember
import Idealize.ShloMosaic.PureOps.Ideal.Laws

noncomputable section

namespace Cert.ReferenceIdeal.Rows

open Cert.ReferenceIdeal Cert.ReferenceIdeal.Gen Idealize.ShloMosaic Idealize.ShloMosaic.ValueIdx Cert.Spec

/-! ## A vector over a square -/

section Broadcasts
variable {α : Type}

/-- A vector copied down the rows of a square: entry `(i, j)` is the vector's `i`. -/
def overRows (y : S8192.Idx → α) : S8192x8192.Idx → α :=
  broadcastInDim S8192x8192 ![0, 1] bcast_S8192x1_S8192x8192_0_1 (broadcastInDim S8192x1 ![0] bcast_S8192_S8192x1_0 y)
/-- A vector copied along the columns: entry `(i, j)` is the vector's `j`. -/
def overCols (y : S8192.Idx → α) : S8192x8192.Idx → α :=
  broadcastInDim S8192x8192 ![0, 1] bcast_S1x8192_S8192x8192_0_1 (broadcastInDim S1x8192 ![1] bcast_S8192_S1x8192_1 y)

theorem overRows_apply (y : S8192.Idx → α) (i j : Fin 8192) : overRows y (ix2 i j) = y (ix1 i) :=
  (broadcastInDim_apply _ bcast_S8192x1_S8192x8192_0_1 _ (ix2 i j) (ix2 i (0 : Fin 1)) (fun a => match a with
    | ⟨0, _⟩ => by show i.val = if (8192 : Nat) = 1 then 0 else i.val; rw [if_neg (by decide)]
    | ⟨1, _⟩ => by show 0 = if (1 : Nat) = 1 then 0 else j.val; rw [if_pos rfl])).trans
  (broadcastInDim_apply _ bcast_S8192_S8192x1_0 y (ix2 i (0 : Fin 1)) (ix1 i) (fun a => match a with
    | ⟨0, _⟩ => by show i.val = if (8192 : Nat) = 1 then 0 else i.val; rw [if_neg (by decide)]))

theorem overCols_apply (y : S8192.Idx → α) (i j : Fin 8192) : overCols y (ix2 i j) = y (ix1 j) :=
  (broadcastInDim_apply _ bcast_S1x8192_S8192x8192_0_1 _ (ix2 i j) (ix2 (0 : Fin 1) j) (fun a => match a with
    | ⟨0, _⟩ => by show 0 = if (1 : Nat) = 1 then 0 else i.val; rw [if_pos rfl]
    | ⟨1, _⟩ => by show j.val = if (8192 : Nat) = 1 then 0 else j.val; rw [if_neg (by decide)])).trans
  (broadcastInDim_apply _ bcast_S8192_S1x8192_1 y (ix2 (0 : Fin 1) j) (ix1 j) (fun a => match a with
    | ⟨0, _⟩ => by show j.val = if (8192 : Nat) = 1 then 0 else j.val; rw [if_neg (by decide)]))

end Broadcasts

/-! ## Squared distances -/

/-- A row index with a column inserted is the pair, for the two shapes the reference reduces along axis 1. -/
theorem lift_q (h : S8192x256.Reduces [1] S8192) (i : Fin 8192) (k : Fin 256) : h.lift (ix1 i) k = ix2 i k :=
  funext fun a => Fin.ext (by match a with | ⟨0, _⟩ => rfl | ⟨1, _⟩ => rfl)
theorem lift_sq (h : S8192x8192.Reduces [1] S8192) (i : Fin 8192) (k : Fin 8192) : h.lift (ix1 i) k = ix2 i k :=
  funext fun a => Fin.ext (by match a with | ⟨0, _⟩ => rfl | ⟨1, _⟩ => rfl)

variable (q : FVec Ideal S8192x256 .f32)

/-- The row sums of the squares, from the zero word. -/
def rowsF : FVec Ideal S8192 .f32 :=
  Host.reduceAdd (mulf q q) (constant (F := Ideal) S_ .f32 0x00000000#32) reducesTo_S8192x256_S8192_d1 h_S_

theorem rowsF_apply (i : Fin 8192) : rowsF q (ix1 i) = Spec.sq q i := by
  unfold rowsF Spec.sq
  rw [hostReduceAdd_apply, Ideal.hostReduceAdd_single reducesTo_S8192x256_S8192_d1 (by decide)]
  refine congrArg₂ (· + ·) rfl (Finset.sum_congr rfl fun k _ => ?_)
  exact congrArg (fun x => q x * q x) (lift_q _ i k)

/-- The Gram product of `q` with its transpose. -/
def gramF : FVec Ideal S8192x8192 .f32 :=
  Host.dotGeneral dot_S8192x256_S256x8192_S8192x8192_1_0_0_1_n_n none q
    (transpose S256x8192 [1, 0] q transposes_S8192x256_S256x8192_1_0)

theorem gramF_apply (i j : Fin 8192) : gramF q (ix2 i j) = Spec.gram q i j := by
  show Host.dotGeneral (DotDims.plain 8192 256 8192) none q
    (transpose S256x8192 [1, 0] q transposes_S8192x256_S256x8192_1_0) (ix2 i j) = _
  rw [StackMember.dotGeneral_plain_apply]
  unfold Spec.gram
  refine Finset.sum_congr rfl fun k _ => ?_
  rw [transpose_ix2_apply]

/-- The squared distances: the sum of the two squared norms minus twice the Gram entry. -/
def d2F : FVec Ideal S8192x8192 .f32 :=
  subf (addf (overRows (rowsF q)) (overCols (rowsF q)))
    (mulf (broadcastInDim S8192x8192 ![] bcast_S_S8192x8192 (constant (F := Ideal) S_ .f32 0x40000000#32)) (gramF q))

theorem d2F_apply (i j : Fin 8192) : d2F q (ix2 i j) = Spec.d2 q i j := by
  show (overRows (rowsF q) (ix2 i j) + overCols (rowsF q) (ix2 i j))
      - broadcastInDim S8192x8192 ![] bcast_S_S8192x8192 (constant (F := Ideal) S_ .f32 0x40000000#32) (ix2 i j) * gramF q (ix2 i j) = _
  rw [overRows_apply, overCols_apply, rowsF_apply, rowsF_apply, broadcastInDim_scalar_apply, gramF_apply]
  rfl

/-- The distances: the root of the squared distance clipped from below. -/
def distF : FVec Ideal S8192x8192 .f32 :=
  Host.sqrt (maximumf (broadcastInDim S8192x8192 ![] bcast_S_S8192x8192 (id (constant (F := Ideal) S_ .f32 0x2B8CBCCC#32))) (d2F q))

theorem distF_apply (i j : Fin 8192) : distF q (ix2 i j) = Spec.dist q i j := by
  show Ideal.sqrt (max (broadcastInDim S8192x8192 ![] bcast_S_S8192x8192 (id (constant (F := Ideal) S_ .f32 0x2B8CBCCC#32)) (ix2 i j))
      (d2F q (ix2 i j))) = _
  rw [broadcastInDim_scalar_apply, d2F_apply]
  rfl

/-! ## The masks -/

/-- Where a vector of words agrees with itself across a pair of rows. -/
def eqF (v : IVec S8192 32) : IVec S8192x8192 1 := cmpi .eq (overRows v) (overCols v)

theorem eqF_apply (v : IVec S8192 32) (i j : Fin 8192) : eqF v (ix2 i j) = IntOp.cmpi .eq (v (ix1 i)) (v (ix1 j)) := by
  show IntOp.cmpi .eq (overRows v (ix2 i j)) (overCols v (ix2 i j)) = _
  rw [overRows_apply, overCols_apply]

variable (lbl cam : IVec S8192 32)

/-- Same label and same camera; same label and another camera. -/
def maskI : IVec S8192x8192 1 := andi (eqF lbl) (eqF cam)
def maskE : IVec S8192x8192 1 := andi (eqF lbl) (noti (eqF cam))

theorem maskI_apply (i j : Fin 8192) : maskI lbl cam (ix2 i j) = wI lbl cam i j := by
  show IntOp.andi (eqF lbl (ix2 i j)) (eqF cam (ix2 i j)) = _
  rw [eqF_apply, eqF_apply]; rfl

theorem maskE_apply (i j : Fin 8192) : maskE lbl cam (ix2 i j) = wE lbl cam i j := by
  show IntOp.andi (eqF lbl (ix2 i j)) (~~~(eqF cam (ix2 i j))) = _
  rw [eqF_apply, eqF_apply]; rfl

/-! ## A masked array and the reductions along a row -/

/-- The array where the mask holds, the sentinel elsewhere. -/
def maskedF (m : IVec S8192x8192 1) (d : FVec Ideal S8192x8192 .f32) : FVec Ideal S8192x8192 .f32 :=
  select m d (broadcastInDim S8192x8192 ![] bcast_S_S8192x8192 (id (constant (F := Ideal) S_ .f32 0xF149F2CA#32)))

theorem maskedF_apply (m : IVec S8192x8192 1) (d : FVec Ideal S8192x8192 .f32) (i j : Fin 8192) :
    maskedF m d (ix2 i j) = Scalar.select (m (ix2 i j)) (d (ix2 i j)) NEG := by
  show Scalar.select (m (ix2 i j)) (d (ix2 i j))
    (broadcastInDim S8192x8192 ![] bcast_S_S8192x8192 (id (constant (F := Ideal) S_ .f32 0xF149F2CA#32)) (ix2 i j)) = _
  rw [broadcastInDim_scalar_apply]; rfl

/-- The maximum along each row, from `-∞`. -/
def rowMaxF (x : FVec Ideal S8192x8192 .f32) : FVec Ideal S8192 .f32 :=
  Host.reduce FloatOps.maximumf x (constant (F := Ideal) S_ .f32 0xFF800000#32) reducesTo_S8192x8192_S8192_d1 h_S_

theorem rowMaxF_apply (x : FVec Ideal S8192x8192 .f32) (i : Fin 8192) :
    rowMaxF x (ix1 i)
      = Finset.univ.fold (FloatOps.maximumf (F := Ideal) (φ := .f32)) (Ideal.ofBits .f32 0xFF800000#32) (fun j : Fin 8192 => x (ix2 i j)) := by
  unfold rowMaxF
  rw [Host.reduce_eq_fold_single FloatOps.maximumf x _ reducesTo_S8192x8192_S8192_d1 (by decide) h_S_ (ix1 i)]
  exact Finset.fold_congr fun k _ => congrArg x (lift_sq _ i k)

/-- The "or" along each row, from the word 0. -/
def rowAnyF (m : IVec S8192x8192 1) : IVec S8192 1 :=
  Host.reduce IntOp.ori m (constantI S_ 1 0#1) reducesTo_S8192x8192_S8192_d1 h_S_

theorem rowAnyF_apply (m : IVec S8192x8192 1) (i : Fin 8192) :
    rowAnyF m (ix1 i) = Finset.univ.fold IntOp.ori 0#1 (fun j : Fin 8192 => m (ix2 i j)) := by
  unfold rowAnyF
  rw [Host.reduce_eq_fold_single IntOp.ori m _ reducesTo_S8192x8192_S8192_d1 (by decide) h_S_ (ix1 i)]
  exact Finset.fold_congr fun k _ => congrArg m (lift_sq _ i k)

/-! ## The two results as arrays -/

/-- The reference's intra-camera result: the row maximum of the masked distances where the row has a positive, else 1. -/
def intraF : FVec Ideal S8192 .f32 :=
  select (rowAnyF (maskI lbl cam)) (rowMaxF (maskedF (maskI lbl cam) (distF q)))
    (broadcastInDim S8192 ![] bcast_S_S8192 (id (constant (F := Ideal) S_ .f32 0x3F800000#32)))
/-- Its inter-camera result, falling back to the intra-camera one. -/
def interF : FVec Ideal S8192 .f32 :=
  select (rowAnyF (maskE lbl cam)) (rowMaxF (maskedF (maskE lbl cam) (distF q))) (intraF q lbl cam)

theorem intraF_apply (i : Fin 8192) : intraF q lbl cam (ix1 i) = pI q lbl cam i := by
  show Scalar.select (rowAnyF (maskI lbl cam) (ix1 i)) (rowMaxF (maskedF (maskI lbl cam) (distF q)) (ix1 i))
    (broadcastInDim S8192 ![] bcast_S_S8192 (id (constant (F := Ideal) S_ .f32 0x3F800000#32)) (ix1 i)) = _
  rw [rowAnyF_apply, rowMaxF_apply, broadcastInDim_scalar_apply]
  simp only [maskedF_apply, maskI_apply, distF_apply]
  exact intra_of_bits q lbl cam i

theorem interF_apply (i : Fin 8192) : interF q lbl cam (ix1 i) = pE q lbl cam i := by
  show Scalar.select (rowAnyF (maskE lbl cam) (ix1 i)) (rowMaxF (maskedF (maskE lbl cam) (distF q)) (ix1 i))
    (intraF q lbl cam (ix1 i)) = _
  rw [rowAnyF_apply, rowMaxF_apply, intraF_apply]
  simp only [maskedF_apply, maskE_apply, distF_apply]
  exact inter_of_bits q lbl cam i

end Cert.ReferenceIdeal.Rows

end
-- ==== Proof.RefRowsFront.lean ====
/-
  The reference's first 53 operations, cut in six stretches, and the first two of them read: the distances
  (operations 1-19) and the two masks (20-32).  A stretch's result buffer is the stretch's function of the buffers it
  reads; a buffer a stretch does not write keeps its contents.
-/
import proofs.«167525_j15710990369518_2_alg».proof.Proof.RefLine
import proofs.«167525_j15710990369518_2_alg».proof.Proof.RefRowsOps

set_option maxRecDepth 8192

noncomputable section

namespace Cert.ReferenceIdeal.Rows

open Cert.ReferenceIdeal Cert.ReferenceIdeal.Gen Idealize.ShloMosaic Idealize.ShloMosaic.TcCoe Idealize.SL.Sem
open Idealize.ShloMosaic.StableHlo Idealize.ShloMosaic.ValueIdx Cert.ReferenceIdeal.Line

/-! ## The stretches -/

/-- The distances (1-19), the masks (20-32), the masked distances with their row maximum and row "or" for the
    intra-camera mask (33-40), the intra-camera select (41-44), the same for the inter-camera mask (45-52), the
    inter-camera select (53). -/
abbrev s1 : List (HloOp τ sig (Elt Ideal)) := (ops (F := Ideal)).take 19
abbrev s2 : List (HloOp τ sig (Elt Ideal)) := ((ops (F := Ideal)).drop 19).take 13
abbrev s3a : List (HloOp τ sig (Elt Ideal)) := ((ops (F := Ideal)).drop 32).take 8
abbrev s3b : List (HloOp τ sig (Elt Ideal)) := ((ops (F := Ideal)).drop 40).take 4
abbrev s4a : List (HloOp τ sig (Elt Ideal)) := ((ops (F := Ideal)).drop 44).take 8
abbrev s4b : List (HloOp τ sig (Elt Ideal)) := ((ops (F := Ideal)).drop 52).take 1

theorem take53 : (ops (F := Ideal)).take 53 = s1 ++ s2 ++ s3a ++ s3b ++ s4a ++ s4b := rfl

variable (W : Valuation τ sig (Elt Ideal))

/-! ## Stretch 1: the distances -/

theorem s1_v13 : after s1 W (Proc.devRef .tc main_v13) = distF (W (Proc.devRef .tc main_arg0)) := by
  simp only [s1, List.take_succ_cons, List.take_zero]
  after_results
  rfl

theorem s1_arg (r : Ref sig .tc) (hr : r.idx.val < 3) : after s1 W (Proc.devRef .tc r) = W (Proc.devRef .tc r) :=
  after_below 3 _ W (WritesFrom.take 3 19 _ ops_from) r hr

/-! ## Stretch 2: the masks -/

theorem s2_v24 : after s2 W (Proc.devRef .tc main_v24)
    = maskI (W (Proc.devRef .tc main_arg1)) (W (Proc.devRef .tc main_arg2)) := by
  simp only [s2, List.take_succ_cons, List.take_zero, List.drop_succ_cons, List.drop_zero]
  after_results
  rfl

theorem s2_v26 : after s2 W (Proc.devRef .tc main_v26)
    = maskE (W (Proc.devRef .tc main_arg1)) (W (Proc.devRef .tc main_arg2)) := by
  simp only [s2, List.take_succ_cons, List.take_zero, List.drop_succ_cons, List.drop_zero]
  after_results
  rfl

theorem s2_v13 : after s2 W (Proc.devRef .tc main_v13) = W (Proc.devRef .tc main_v13) := by
  simp only [s2, List.take_succ_cons, List.take_zero, List.drop_succ_cons, List.drop_zero]
  after_results

end Cert.ReferenceIdeal.Rows

end
-- ==== Proof.RefRows.lean ====
/-
  The reference's two per-row results, read off the run of its first 53 operations index by index.

  The last four stretches: the masked distances with their row maximum and row "or" for the intra-camera mask
  (operations 33-40), the intra-camera select (41-44), the same for the inter-camera mask (45-52) and the inter-camera
  select (53).  Chained with the distances and the masks, the two result buffers after the 53 operations are the
  reference's two arrays of the three arguments, whose rows are the specification's results.
-/
import proofs.«167525_j15710990369518_2_alg».proof.Proof.RefRowsFront

set_option maxRecDepth 8192

noncomputable section

namespace Cert.ReferenceIdeal.Rows

open Cert.ReferenceIdeal Cert.ReferenceIdeal.Gen Idealize.ShloMosaic Idealize.ShloMosaic.TcCoe Idealize.SL.Sem
open Idealize.ShloMosaic.StableHlo Idealize.ShloMosaic.ValueIdx Cert.ReferenceIdeal.Line

variable (W : Valuation τ sig (Elt Ideal))

/-! ## Stretch 3: the intra-camera row maximum and row "or", then the select -/

theorem s3a_v28 : after s3a W (Proc.devRef .tc main_v28)
    = rowMaxF (maskedF (W (Proc.devRef .tc main_v24)) (W (Proc.devRef .tc main_v13))) := by
  simp only [s3a, List.take_succ_cons, List.take_zero, List.drop_succ_cons, List.drop_zero]
  after_results
  rfl

theorem s3a_v29 : after s3a W (Proc.devRef .tc main_v29) = rowAnyF (W (Proc.devRef .tc main_v24)) := by
  simp only [s3a, List.take_succ_cons, List.take_zero, List.drop_succ_cons, List.drop_zero]
  after_results
  rfl

theorem s3a_v26 : after s3a W (Proc.devRef .tc main_v26) = W (Proc.devRef .tc main_v26) := by
  simp only [s3a, List.take_succ_cons, List.take_zero, List.drop_succ_cons, List.drop_zero]
  after_results

theorem s3a_v13 : after s3a W (Proc.devRef .tc main_v13) = W (Proc.devRef .tc main_v13) := by
  simp only [s3a, List.take_succ_cons, List.take_zero, List.drop_succ_cons, List.drop_zero]
  after_results

theorem s3b_v30 : after s3b W (Proc.devRef .tc main_v30)
    = select (W (Proc.devRef .tc main_v29)) (W (Proc.devRef .tc main_v28))
        (broadcastInDim S8192 ![] bcast_S_S8192 (id (constant (F := Ideal) S_ .f32 0x3F800000#32))) := by
  simp only [s3b, List.take_succ_cons, List.take_zero, List.drop_succ_cons, List.drop_zero]
  after_results
  rfl

theorem s3b_v26 : after s3b W (Proc.devRef .tc main_v26) = W (Proc.devRef .tc main_v26) := by
  simp only [s3b, List.take_succ_cons, List.take_zero, List.drop_succ_cons, List.drop_zero]
  after_results

theorem s3b_v13 : after s3b W (Proc.devRef .tc main_v13) = W (Proc.devRef .tc main_v13) := by
  simp only [s3b, List.take_succ_cons, List.take_zero, List.drop_succ_cons, List.drop_zero]
  after_results

/-! ## Stretch 4: the same for the inter-camera mask, falling back to the intra-camera result -/

theorem s4a_v32 : after s4a W (Proc.devRef .tc main_v32)
    = rowMaxF (maskedF (W (Proc.devRef .tc main_v26)) (W (Proc.devRef .tc main_v13))) := by
  simp only [s4a, List.take_succ_cons, List.take_zero, List.drop_succ_cons, List.drop_zero]
  after_results
  rfl

theorem s4a_v33 : after s4a W (Proc.devRef .tc main_v33) = rowAnyF (W (Proc.devRef .tc main_v26)) := by
  simp only [s4a, List.take_succ_cons, List.take_zero, List.drop_succ_cons, List.drop_zero]
  after_results
  rfl

theorem s4a_v30 : after s4a W (Proc.devRef .tc main_v30) = W (Proc.devRef .tc main_v30) := by
  simp only [s4a, List.take_succ_cons, List.take_zero, List.drop_succ_cons, List.drop_zero]
  after_results

theorem s4b_v34 : after s4b W (Proc.devRef .tc main_v34)
    = select (W (Proc.devRef .tc main_v33)) (W (Proc.devRef .tc main_v32)) (W (Proc.devRef .tc main_v30)) := by
  simp only [s4b, List.take_succ_cons, List.take_zero, List.drop_succ_cons, List.drop_zero]
  after_results
  rfl

theorem s4b_v30 : after s4b W (Proc.devRef .tc main_v30) = W (Proc.devRef .tc main_v30) := by
  simp only [s4b, List.take_succ_cons, List.take_zero, List.drop_succ_cons, List.drop_zero]
  after_results

/-! ## The chain -/

/-- After the 53 operations the intra-camera buffer holds the intra-camera array of the three arguments, -/
theorem intra_buf : after ((ops (F := Ideal)).take 53) W (Proc.devRef .tc main_v30)
    = intraF (W (Proc.devRef .tc main_arg0)) (W (Proc.devRef .tc main_arg1)) (W (Proc.devRef .tc main_arg2)) := by
  rw [take53, after_two, after_two, after_two, after_two, after_two, s4b_v30, s4a_v30, s3b_v30, s3a_v29, s3a_v28,
    s2_v24, s2_v13, s1_v13, s1_arg W main_arg1 (by decide), s1_arg W main_arg2 (by decide)]
  rfl

/-- and the inter-camera buffer the inter-camera array. -/
theorem inter_buf : after ((ops (F := Ideal)).take 53) W (Proc.devRef .tc main_v34)
    = interF (W (Proc.devRef .tc main_arg0)) (W (Proc.devRef .tc main_arg1)) (W (Proc.devRef .tc main_arg2)) := by
  rw [take53, after_two, after_two, after_two, after_two, after_two, s4b_v34, s4a_v33, s4a_v32, s4a_v30, s3b_v30,
    s3b_v26, s3b_v13, s3a_v29, s3a_v28, s3a_v26, s3a_v13, s2_v24, s2_v26, s2_v13, s1_v13,
    s1_arg W main_arg1 (by decide), s1_arg W main_arg2 (by decide)]
  rfl

/-! ## The two results at a row -/

/-- Row `i` of the intra-camera buffer after the 53 operations is the specification's intra-camera result. -/
theorem intra_row (i : Fin 8192) :
    after ((ops (F := Ideal)).take 53) W (Proc.devRef .tc main_v30) (ix1 i)
      = Cert.Spec.pI (W (Proc.devRef .tc main_arg0)) (W (Proc.devRef .tc main_arg1)) (W (Proc.devRef .tc main_arg2)) i := by
  rw [intra_buf]
  exact intraF_apply _ _ _ i

/-- Row `i` of the inter-camera buffer is the specification's inter-camera result. -/
theorem inter_row (i : Fin 8192) :
    after ((ops (F := Ideal)).take 53) W (Proc.devRef .tc main_v34) (ix1 i)
      = Cert.Spec.pE (W (Proc.devRef .tc main_arg0)) (W (Proc.devRef .tc main_arg1)) (W (Proc.devRef .tc main_arg2)) i := by
  rw [inter_buf]
  exact interF_apply _ _ _ i

end Cert.ReferenceIdeal.Rows

end
-- ==== Proof.Bridge.lean ====
/-
  The kernel's order and the reference's order give the same two results on every row, when every entry of q is real.

  With real entries the squared distance d2 i j is the coercion of ∑ k (q i k - q j k)², hence nonnegative.  The literal
  words satisfy NEG < THR < 0 < EPS.  The map x ↦ √(max EPS x) is monotone and everywhere above NEG.  For a row that has
  a positive of the kind at column j0, the masked maximum is at least d2 i j0 ≥ 0 > THR, so the kernel's gate is open, the
  leading max with NEG is absorbed, and the maximum is attained at a positive column; by monotonicity the root of the
  clipped maximum is the maximum of the roots of the clipped squared distances over the positive columns, the masked
  columns contributing NEG, which lies below every root.  The diagonal column is always an intra-camera positive.  A row
  with no inter-camera positive has every masked entry NEG, the maximum NEG, the gate shut, and both orders fall back to
  their intra-camera results.
-/
import proofs.«167525_j15710990369518_2_alg».proof.Proof.Spec
import Idealize.ShloMosaic.PureOps.Ideal.Laws
import Mathlib

noncomputable section

namespace Cert.Spec

open Idealize.ShloMosaic Idealize.ShloMosaic.ValueIdx

/-! ## The literal words as reals -/

theorem NEG_val : NEG = ((-(13234890 * 2 ^ 76) : ℝ) : EReal) := by
  simp [NEG, Ideal.ofBits, Ideal.ieee]

theorem THR_val : THR = ((-(13234890 * 2 ^ 75) : ℝ) : EReal) := by
  simp [THR, Ideal.ofBits, Ideal.ieee]

theorem EPS_val : EPS = ((9223372 * (2 : ℝ) ^ (-63 : ℤ) : ℝ) : EReal) := by
  simp [EPS, Ideal.ofBits, Ideal.ieee]

theorem TWO_val : TWO = ((2 : ℝ) : EReal) := by
  simp [TWO, Ideal.ofBits, Ideal.ieee, -EReal.coe_mul]; norm_num

theorem ZERO_val : ZERO = 0 := Ideal.ofBits_zero_f32

theorem NEG_lt_THR : NEG < THR := by
  rw [NEG_val, THR_val, EReal.coe_lt_coe_iff]; norm_num

theorem THR_lt_zero : THR < 0 := by
  rw [THR_val, ← EReal.coe_zero, EReal.coe_lt_coe_iff]; norm_num

theorem NEG_lt_zero : NEG < 0 := NEG_lt_THR.trans THR_lt_zero

theorem zero_lt_EPS : (0 : EReal) < EPS := by
  rw [EPS_val, ← EReal.coe_zero, EReal.coe_lt_coe_iff]; positivity

/-! ## The comparison, the root, and the clipped root -/

theorem cmp_ogt_iff (x y : EReal) : Ideal.cmp .ogt x y = 1#1 ↔ y < x := by
  by_cases h : y < x <;> simp [Ideal.cmp, h]

/-- The root is monotone on the extended reals. -/
theorem sqrt_mono {x y : EReal} (h : x ≤ y) : Ideal.sqrt x ≤ Ideal.sqrt y := by
  induction x using EReal.rec with
  | bot => simp
  | top =>
    have hy : y = ⊤ := top_le_iff.mp h
    subst hy; exact le_rfl
  | coe a =>
    induction y using EReal.rec with
    | bot => simp at h
    | top => simp
    | coe b =>
      have hab : a ≤ b := EReal.coe_le_coe_iff.mp h
      simp only [Ideal.sqrt_coe]
      split_ifs with h1 h2
      · exact le_rfl
      · exact bot_le
      · exfalso; linarith
      · exact EReal.coe_le_coe_iff.mpr (Real.sqrt_le_sqrt hab)

/-- Clip from below by EPS and take the root. -/
def clipRoot (x : EReal) : EReal := Ideal.sqrt (max EPS x)

theorem clipRoot_mono {x y : EReal} (h : x ≤ y) : clipRoot x ≤ clipRoot y :=
  sqrt_mono (max_le_max le_rfl h)

theorem zero_le_sqrt_EPS : (0 : EReal) ≤ Ideal.sqrt EPS := by
  have h : ¬ (9223372 * (2 : ℝ) ^ (-63 : ℤ) < 0) := not_lt.mpr (by positivity)
  rw [EPS_val, Ideal.sqrt_coe, if_neg h]
  exact EReal.coe_nonneg.mpr (Real.sqrt_nonneg _)

theorem NEG_lt_clipRoot (x : EReal) : NEG < clipRoot x :=
  lt_of_lt_of_le NEG_lt_zero (zero_le_sqrt_EPS.trans (sqrt_mono (le_max_left _ _)))

/-! ## The exchange of the maximum with the clipped root -/

/-- For a row with a column j0 of the kind whose squared distance is nonnegative: the masked maximum is above THR, and the
    clipped root of it is the maximum of the masked clipped roots. -/
theorem core (P : Fin 8192 → Prop) [DecidablePred P] (d : Fin 8192 → EReal) (j0 : Fin 8192) (hP : P j0)
    (hd : 0 ≤ d j0) :
    THR < max NEG (Finset.univ.sup fun j => if P j then d j else NEG) ∧
    clipRoot (max NEG (Finset.univ.sup fun j => if P j then d j else NEG)) =
      Finset.univ.sup fun j => if P j then clipRoot (d j) else NEG := by
  have hS : (0 : EReal) ≤ Finset.univ.sup fun j => if P j then d j else NEG := by
    have h1 := Finset.le_sup (f := fun j => if P j then d j else NEG) (Finset.mem_univ j0)
    simp only [if_pos hP] at h1
    exact hd.trans h1
  rw [max_eq_right (NEG_lt_zero.le.trans hS)]
  refine ⟨THR_lt_zero.trans_le hS, le_antisymm ?_ ?_⟩
  · obtain ⟨j1, -, hj1⟩ := Finset.exists_mem_eq_sup Finset.univ Finset.univ_nonempty
      (fun j => if P j then d j else NEG)
    rw [hj1]
    by_cases h1 : P j1
    · have h2 := Finset.le_sup (f := fun j => if P j then clipRoot (d j) else NEG) (Finset.mem_univ j1)
      simp only [if_pos h1] at h2 ⊢
      exact h2
    · exfalso
      rw [hj1] at hS
      simp only [if_neg h1] at hS
      exact absurd hS (not_le.mpr NEG_lt_zero)
  · refine Finset.sup_le fun j _ => ?_
    by_cases h1 : P j
    · have h2 := Finset.le_sup (f := fun j => if P j then d j else NEG) (Finset.mem_univ j)
      simp only [if_pos h1] at h2 ⊢
      exact clipRoot_mono h2
    · simp only [if_neg h1]
      exact (NEG_lt_clipRoot _).le

/-! ## Squared distances of real rows -/

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exists_real {q : SQ.Idx → EReal} (hq : ∀ x, ∃ r : ℝ, q x = (r : EReal)) :
    ∃ qr : SQ.Idx → ℝ, q = fun x => (qr x : EReal) := by
  choose qr hqr using hq
  exact ⟨qr, funext hqr⟩

/-- The squared distance of two real rows is the sum of the squares of the differences. -/
theorem d2_coe (qr : SQ.Idx → ℝ) (i j : Fin 8192) :
    d2 (fun x => (qr x : EReal)) i j
      = ((∑ k : Fin 256, (qr (ix2 i k) - qr (ix2 j k)) ^ 2 : ℝ) : EReal) := by
  have hsq : ∀ i : Fin 8192, sq (fun x => (qr x : EReal)) i
      = ((∑ k : Fin 256, qr (ix2 i k) * qr (ix2 i k) : ℝ) : EReal) := by
    intro i
    simp only [sq, Ideal.ofBits_zero_f32, zero_add, coe_sum, EReal.coe_mul]
  have hg : gram (fun x => (qr x : EReal)) i j
      = ((∑ k : Fin 256, qr (ix2 i k) * qr (ix2 j k) : ℝ) : EReal) := by
    simp only [gram, coe_sum, EReal.coe_mul]
  rw [d2, hsq, hsq, hg, TWO_val, ← EReal.coe_add, ← EReal.coe_mul, ← EReal.coe_sub]
  congr 1
  simp only [Finset.mul_sum, ← Finset.sum_add_distrib, ← Finset.sum_sub_distrib]
  refine Finset.sum_congr rfl fun k _ => ?_
  ring

theorem d2_nonneg {q : SQ.Idx → EReal} (hq : ∀ x, ∃ r : ℝ, q x = (r : EReal)) (i j : Fin 8192) :
    0 ≤ d2 q i j := by
  obtain ⟨qr, rfl⟩ := exists_real hq
  rw [d2_coe]
  exact EReal.coe_nonneg.mpr (Finset.sum_nonneg fun k _ => sq_nonneg _)

/-! ## The two results -/

variable {q : SQ.Idx → EReal} (hq : ∀ x, ∃ r : ℝ, q x = (r : EReal)) (lbl cam : SV.Idx → BitVec 32)

theorem mI_eq (i : Fin 8192) :
    mI q lbl cam i = fun j => if sameL lbl i j ∧ sameC cam i j then d2 q i j else NEG := by
  funext j
  unfold mI
  by_cases hc : sameC cam i j
  · by_cases hl : sameL lbl i j
    · rw [if_pos hc, if_pos hl, if_pos ⟨hl, hc⟩]
    · rw [if_pos hc, if_neg hl, if_neg (fun h => hl h.1)]
  · rw [if_neg hc, if_neg (fun h => hc h.2)]

theorem mE_eq (i : Fin 8192) :
    mE q lbl cam i = fun j => if sameL lbl i j ∧ ¬ sameC cam i j then d2 q i j else NEG := by
  funext j
  unfold mE
  by_cases hc : sameC cam i j
  · rw [if_pos hc, if_neg (fun h => h.2 hc)]
  · by_cases hl : sameL lbl i j
    · rw [if_neg hc, if_pos hl, if_pos ⟨hl, hc⟩]
    · rw [if_neg hc, if_neg hl, if_neg (fun h => hl h.1)]

include hq in
/-- The intra-camera results agree: the diagonal column is an intra-camera positive at squared distance ≥ 0. -/
theorem hI_eq_pI (i : Fin 8192) : hI q lbl cam i = pI q lbl cam i := by
  obtain ⟨hgate, hval⟩ := core (fun j => sameL lbl i j ∧ sameC cam i j) (fun j => d2 q i j) i ⟨rfl, rfl⟩
    (d2_nonneg hq i i)
  have hany : anyI lbl cam i := ⟨i, rfl, rfl⟩
  unfold hI pI KI rI dist
  rw [mI_eq, if_pos hany, if_pos ((cmp_ogt_iff _ _).mpr hgate)]
  exact hval

include hq in
/-- The inter-camera results agree: with an inter-camera positive as above; with none, both fall back. -/
theorem hE_eq_pE (i : Fin 8192) : hE q lbl cam i = pE q lbl cam i := by
  by_cases hany : anyE lbl cam i
  · obtain ⟨j0, hj0⟩ := id hany
    obtain ⟨hgate, hval⟩ := core (fun j => sameL lbl i j ∧ ¬ sameC cam i j) (fun j => d2 q i j) j0 hj0
      (d2_nonneg hq i j0)
    unfold hE pE KE rE dist
    rw [mE_eq, if_pos hany, if_pos ((cmp_ogt_iff _ _).mpr hgate)]
    exact hval
  · have hall : ∀ j, ¬ (sameL lbl i j ∧ ¬ sameC cam i j) := fun j h => hany ⟨j, h⟩
    have hK : KE q lbl cam i = NEG := by
      unfold KE
      rw [mE_eq]
      simp only [if_neg (hall _)]
      rw [Finset.sup_const Finset.univ_nonempty, max_self]
    have hshut : ¬ (Ideal.cmp .ogt (KE q lbl cam i) THR = 1#1) := by
      rw [hK, cmp_ogt_iff]
      exact not_lt.mpr NEG_lt_THR.le
    unfold hE pE
    rw [if_neg hshut, if_neg hany]
    exact hI_eq_pI hq lbl cam i

end Cert.Spec

end
-- ==== Proof.LibExtReal.lean ====
/-
  Small general facts about float values read as extended reals.

  The words of the float one and of plus infinity denote `1` and `⊤`. A quotient by a nonzero REAL divisor is the
  product with one over the divisor, whatever the dividend (infinities included); at a zero divisor the two differ
  (`0 / 0` against `0 · (1 / 0)`), so the hypothesis is needed. A finite sum of reals read in the extended reals is the
  sum of the readings. An extended real whose absolute value `max x (-x)` is below `⊤` is a real. A comparison word
  that is one says its relation holds (less-than; not-equal).
-/
import Idealize.ShloMosaic.PureOps.Ideal.Laws

noncomputable section

namespace Cert.LibExtReal

open Idealize.ShloMosaic

/-- The word of the float one denotes the real one. -/
theorem ofBits_one : Ideal.ofBits .f32 0x3F800000#32 = 1 := by
  simp [Ideal.ofBits, Ideal.ieee, -EReal.coe_mul]; norm_num

/-- The word of plus infinity denotes the top element. -/
theorem ofBits_inf : Ideal.ofBits .f32 0x7F800000#32 = ⊤ := by simp [Ideal.ofBits, Ideal.ieee]

/-- A quotient by a nonzero real is the product with one over it. -/
theorem div_eq_mul_recip (a d : EReal) (y : ℝ) (hy : y ≠ 0) (hd : d = (y : EReal)) :
    Ideal.div a d = a * Ideal.div (Ideal.ofBits .f32 0x3F800000#32) d := by
  subst hd
  rw [Ideal.div_coe hy, Ideal.div_coe hy, ofBits_one, one_mul]

/-- A finite sum of reals, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real whose absolute value is below the top element is a real. -/
theorem real_of_abs_lt_top (x : EReal) (h : max x (-x) < ⊤) : ∃ y : ℝ, x = (y : EReal) := by
  induction x using EReal.rec with
  | bot => simp at h
  | coe y => exact ⟨y, rfl⟩
  | top => simp at h

/-- A less-than comparison word that is one: the left value is below the right. -/
theorem lt_of_cmp_olt {x y : EReal} (h : Ideal.cmp .olt x y = 1#1) : x < y := by
  unfold Ideal.cmp at h
  by_contra hn
  simp [hn] at h

/-- A not-equal comparison word that is one: the two values differ. -/
theorem ne_of_cmp_une {x y : EReal} (h : Ideal.cmp .une x y = 1#1) : x ≠ y := by
  unfold Ideal.cmp at h
  intro hn
  simp [hn] at h

end Cert.LibExtReal

end
-- ==== Proof.Finite.lean ====
/-
  From the printed precondition to "every entry of q is real".

  The precondition is the conjunction, over all entries x of q, of |x| < +∞, folded by "and" from the constant 1.  If the
  fold is 1 then every conjunct is 1; the comparison word being 1 says max x (-x) is below the value of the +∞ word, which
  is the top element; and an extended real whose absolute value is below the top element is a real.
-/
import proofs.«167525_j15710990369518_2_alg».proof.Proof.Gen.Pre_finite_inputs
import proofs.«167525_j15710990369518_2_alg».proof.Proof.LibExtReal
import Idealize.ShloMosaic.Lib.ReduceAll
import Idealize.ShloMosaic.Lib.ValueIdx
import Idealize.ShloMosaic.PureOps.Ideal.Laws

noncomputable section

namespace Cert.Spec

open Idealize.ShloMosaic

/-- The rank-0 shape has one index. -/
instance : Subsingleton Cert.Pre_finite_inputs.S_.Idx := ⟨fun a b => funext fun d => d.elim0⟩

/-- If the predicate "all of |q| < +∞" holds, every entry of q is a real. -/
theorem finite_of_pre (q : Cert.Pre_finite_inputs.S8192x256.Idx → EReal)
    (l k : Cert.Pre_finite_inputs.S8192.Idx → BitVec 32)
    (h : Cert.Pre_finite_inputs.fn (F := Ideal) q l k = fun _ => 1#1) :
    ∀ x, ∃ r : ℝ, q x = (r : EReal) := by
  intro x
  have h0 := congrFun h ValueIdx.ix0
  dsimp only [Cert.Pre_finite_inputs.fn] at h0
  have h1 := Host.reduce_andi_all _ _ _ _ _ h0 x
  have h2 : Ideal.cmp .olt (max (q x) (-(q x))) (Ideal.ofBits .f32 0x7F800000#32) = 1#1 := h1
  rw [Cert.LibExtReal.ofBits_inf] at h2
  exact Cert.LibExtReal.real_of_abs_lt_top _ (Cert.LibExtReal.lt_of_cmp_olt h2)

end Cert.Spec

end
-- ==== Proof.lean ====
/-
  The kernel computes, per row of q, the squared distance to every row (row norms precomputed on the host, the Gram
  block by the matrix unit on bf16 copies), masks it to the rows of the same label on the same / another camera, keeps
  the running maximum of each over a sweep of sixteen column blocks in two scratch buffers, and at the sweep's end clips
  each maximum from below, takes its square root, and falls back to 1 (resp. to the first result) when the maximum never
  rose above half the sentinel; the host then averages a hinge of the two results.  The reference takes the square root
  of every clipped squared distance first and maximizes afterwards.  Over the extended reals a change of float format is
  the identity, the square root of a clipped value is monotone, and a squared distance of real rows is a sum of squares,
  hence nonnegative and above the sentinel — which is why the two orders agree.

  Proved here: that the kernel as printed, its idealization and the reference each run to the end, fault nowhere and
  leave their arguments unchanged (the kernel's run through the pipeline's launch with the array q is handed in twice
  held half by each of its two readers; the reference's as a line of 65 host operations), and that the idealization is
  the program's own text (no rewrite); and that the two results are equal: the kernel's loss is the common end of the
  kernel's order of the specification (Proof/Spec.lean), the reference's the common end of the reference's order, and
  for real q the two orders give the same two results on every row.
-/
import proofs.«167525_j15710990369518_2_alg».proof.Defs
import proofs.«167525_j15710990369518_2_alg».proof.Proof.Gen.Kernel
import proofs.«167525_j15710990369518_2_alg».proof.Proof.Gen.KernelIdeal
import proofs.«167525_j15710990369518_2_alg».proof.Proof.Gen.ReferenceIdeal
import proofs.«167525_j15710990369518_2_alg».proof.Proof.Gen.Pre_finite_inputs
import proofs.«167525_j15710990369518_2_alg».proof.Proof.K.Frame
import proofs.«167525_j15710990369518_2_alg».proof.Proof.Frame
import proofs.«167525_j15710990369518_2_alg».proof.Proof.RefLine
import proofs.«167525_j15710990369518_2_alg».proof.Proof.Spec
import proofs.«167525_j15710990369518_2_alg».proof.Proof.Final
import proofs.«167525_j15710990369518_2_alg».proof.Proof.RefRows
import proofs.«167525_j15710990369518_2_alg».proof.Proof.Bridge
import proofs.«167525_j15710990369518_2_alg».proof.Proof.Finite
import Idealize.ShloMosaic.Adequacy
import Idealize.ShloMosaic.Init

noncomputable section

namespace Cert.Proof

open Idealize.ShloMosaic Idealize.SL.Sem

/-- The kernel as printed runs, faults nowhere, and leaves its arguments unchanged. -/
theorem frame_k : Cert.frame_Kernel := fun m ρ _ => Cert.Kernel.Body.frame (F := Bits) m ρ

/-- So does its idealization. -/
theorem frame_ki : Cert.frame_KernelIdeal := fun m ρ _ => Cert.KernelIdeal.Body.frame (F := Ideal) m ρ

/-- So does the reference. -/
theorem frame_ri : Cert.frame_ReferenceIdeal := fun m ρ _ => Cert.ReferenceIdeal.Line.frame (F := Ideal) m ρ

/-- The idealization rewrote no operation. -/
theorem preserves : Cert.preserves_Kernel_KernelIdeal := trivial

/-- THE TWO RESULTS AGREE.  The reference's result buffer is the common end of its two per-row results, which are the
    reference's order of the specification (read off its 65 operations); the kernel's is the common end of the kernel's
    order (the sweep, row by row); under the precondition q is real, where the two orders agree; and the memories agree
    on the arguments. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (c : Dev Cert.KernelIdeal.nD) :
    StableHlo.after (Cert.ReferenceIdeal.Line.ops (F := Ideal)) (StableHlo.launchContents m' c) (Proc.devRef .tc Cert.ReferenceIdeal.main_v42)
      = Cert.KernelIdeal.Body.V2 m c (Proc.devRef .tc Cert.KernelIdeal.main_v19) := by
  have hq := Cert.Spec.finite_of_pre _ _ _ (hpre c)
  obtain ⟨ha0, ha1, ha2⟩ := hagree c
  rw [StableHlo.after_take_drop 53 (Cert.ReferenceIdeal.Line.ops (F := Ideal)) (StableHlo.launchContents m' c),
    Cert.ReferenceIdeal.Line.ref_end, Cert.KernelIdeal.Body.kernel_value]
  have eI : StableHlo.after ((Cert.ReferenceIdeal.Line.ops (F := Ideal)).take 53) (StableHlo.launchContents m' c) (Proc.devRef .tc Cert.ReferenceIdeal.main_v30)
      = fun x => Cert.Spec.hI (Cert.KernelIdeal.Body.qOn m c) (Cert.KernelIdeal.Body.lblOn m c) (Cert.KernelIdeal.Body.camOn m c) ⟨(x 0).val, (x 0).isLt⟩ := by
    refine funext fun (x : Cert.ReferenceIdeal.S8192.Idx) => ?_
    obtain ⟨i, rfl⟩ : ∃ i : Fin 8192, x = Idealize.ShloMosaic.ValueIdx.ix1 i := ⟨x 0, Idealize.ShloMosaic.ValueIdx.eq_ix1 x⟩
    refine (Cert.ReferenceIdeal.Rows.intra_row (StableHlo.launchContents m' c) i).trans ?_
    show Cert.Spec.pI (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) i = _
    rw [ha0, ha1, ha2]
    exact (Cert.Spec.hI_eq_pI hq _ _ _).symm
  have eE : StableHlo.after ((Cert.ReferenceIdeal.Line.ops (F := Ideal)).take 53) (StableHlo.launchContents m' c) (Proc.devRef .tc Cert.ReferenceIdeal.main_v34)
      = fun x => Cert.Spec.hE (Cert.KernelIdeal.Body.qOn m c) (Cert.KernelIdeal.Body.lblOn m c) (Cert.KernelIdeal.Body.camOn m c) ⟨(x 0).val, (x 0).isLt⟩ := by
    refine funext fun (x : Cert.ReferenceIdeal.S8192.Idx) => ?_
    obtain ⟨i, rfl⟩ : ∃ i : Fin 8192, x = Idealize.ShloMosaic.ValueIdx.ix1 i := ⟨x 0, Idealize.ShloMosaic.ValueIdx.eq_ix1 x⟩
    refine (Cert.ReferenceIdeal.Rows.inter_row (StableHlo.launchContents m' c) i).trans ?_
    show Cert.Spec.pE (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) i = _
    rw [ha0, ha1, ha2]
    exact (Cert.Spec.hE_eq_pE hq _ _ _).symm
  rw [eI, eE]
  rfl

/-- The two programs, run from memories agreeing on the arguments, both end, with equal results and unchanged arguments:
    the two runs, and the equation above. -/
theorem algebraic : Cert.algebraic_KernelIdeal_ReferenceIdeal := by
  intro m ρ m' ρ' hpre hagree
  refine ⟨fun c => Cert.KernelIdeal.Body.V2 m c (Proc.devRef .tc Cert.KernelIdeal.main_v19), ?_, ?_⟩
  · exact (θ_run Cert.KernelIdeal.defs _ _).mono (fun r h c =>
      ⟨h c _ (Cert.KernelIdeal.Body.mem_uc Cert.KernelIdeal.main_v19 rfl),
       (h c _ (Cert.KernelIdeal.Body.mem_uc Cert.KernelIdeal.main_arg0 rfl)).trans (Cert.KernelIdeal.Body.V2_arg m c Cert.KernelIdeal.main_arg0 (by decide)),
       (h c _ (Cert.KernelIdeal.Body.mem_uc Cert.KernelIdeal.main_arg1 rfl)).trans (Cert.KernelIdeal.Body.V2_arg m c Cert.KernelIdeal.main_arg1 (by decide)),
       (h c _ (Cert.KernelIdeal.Body.mem_uc Cert.KernelIdeal.main_arg2 rfl)).trans (Cert.KernelIdeal.Body.V2_arg m c Cert.KernelIdeal.main_arg2 (by decide))⟩)
      (Cert.KernelIdeal.Body.run_main (F := Ideal) m ρ)
  · exact (θ_run Cert.ReferenceIdeal.defs _ _).mono (fun r h c =>
      ⟨(h c Cert.ReferenceIdeal.main_v42).trans (value_eq m m' hpre hagree c),
       (h c Cert.ReferenceIdeal.main_arg0).trans (StableHlo.after_below 3 _ _ Cert.ReferenceIdeal.Line.ops_from Cert.ReferenceIdeal.main_arg0 (by decide)),
       (h c Cert.ReferenceIdeal.main_arg1).trans (StableHlo.after_below 3 _ _ Cert.ReferenceIdeal.Line.ops_from Cert.ReferenceIdeal.main_arg1 (by decide)),
       (h c Cert.ReferenceIdeal.main_arg2).trans (StableHlo.after_below 3 _ _ Cert.ReferenceIdeal.Line.ops_from Cert.ReferenceIdeal.main_arg2 (by decide))⟩)
      (Cert.ReferenceIdeal.Line.run_line (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
